-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256x128 .f32) (main_arg9 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S1 .f32) (main_arg6 : FVec F S256x256 .f32) (main_arg7 : FVec F S256 .f32) (main_arg8 : FVec F S256x128 .f32) (main_arg9 : FVec F S128 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x400000 32) (main_arg2 : FVec F S256x256 .f32) (main_arg3 : FVec F S256 .f32) (main_arg4 : FVec F S256x1 .f32) (main_arg5 : FVec F S1 .f32) (main_arg6 : FVec F S256x256 .f32) (main_arg7 : FVec F S256 .f32) (main_arg8 : FVec F S256x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x400000 : Shape := ⟨2, ![2, 400000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S256x128 : Shape := ⟨2, ![256, 128]⟩
abbrev S128 : Shape := ⟨1, ![128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S400000x256 : Shape := ⟨2, ![400000, 256]⟩
abbrev S3200x256 : Shape := ⟨2, ![3200, 256]⟩
abbrev S3200x1 : Shape := ⟨2, ![3200, 1]⟩
abbrev S1x256 : Shape := ⟨2, ![1, 256]⟩
abbrev S1x1 : Shape := ⟨2, ![1, 1]⟩
abbrev S50000 : Shape := ⟨1, ![50000]⟩
abbrev S50000x1 : Shape := ⟨2, ![50000, 1]⟩
abbrev S50000x256 : Shape := ⟨2, ![50000, 256]⟩
abbrev S2000x256 : Shape := ⟨2, ![2000, 256]⟩
abbrev S2000x128 : Shape := ⟨2, ![2000, 128]⟩
abbrev S1x128 : Shape := ⟨2, ![1, 128]⟩

abbrev nBuf : Space → Nat
  | .hbm => 123
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S1x400000, .i32⟩
  | .hbm, ⟨11, _⟩ => ⟨S400000, .i32⟩
  | .hbm, ⟨12, _⟩ => ⟨S1x400000, .i32⟩
  | .hbm, ⟨13, _⟩ => ⟨S400000, .i32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S400000x128, .f32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x128, .f32⟩
  | .hbm, ⟨32, _⟩ => ⟨S400000x256, .f32⟩
  | .hbm, ⟨33, _⟩ => ⟨S400000x1, .f32⟩
  | .hbm, ⟨34, _⟩ => ⟨S400000, .f32⟩
  | .hbm, ⟨35, _⟩ => ⟨S_, .f32⟩
  | .hbm, ⟨36, _⟩ => ⟨S400000, .f32⟩
  | .hbm, ⟨37, _⟩ => ⟨S400000, .i1⟩
  | .hbm, ⟨38, _⟩ => ⟨S400000, .i32⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S_, .i32⟩
  | .hbm, ⟨43, _⟩ => ⟨S_, .i32⟩
  | .hbm, ⟨44, _⟩ => ⟨S400000, .i32⟩
  | .hbm, ⟨45, _⟩ => ⟨S400000, .i32⟩
  | .hbm, ⟨46, _⟩ => ⟨S_, .i32⟩
  | .hbm, ⟨47, _⟩ => ⟨S50000, .i32⟩
  | .hbm, ⟨48, _⟩ => ⟨S_, .i32⟩
  | .hbm, ⟨49, _⟩ => ⟨S400000, .i32⟩
  | .hbm, ⟨50, _⟩ => ⟨S400000, .i1⟩
  | .hbm, ⟨51, _⟩ => ⟨S_, .i32⟩
  | .hbm, ⟨52, _⟩ => ⟨S400000, .i32⟩
  | .hbm, ⟨53, _⟩ => ⟨S400000, .i32⟩
  | .hbm, ⟨54, _⟩ => ⟨S400000, .i32⟩
  | .hbm, ⟨55, _⟩ => ⟨S400000x1, .i32⟩
  | .hbm, ⟨56, _⟩ => ⟨S50000, .i32⟩
  | .hbm, ⟨57, _⟩ => ⟨S_, .i32⟩
  | .hbm, ⟨58, _⟩ => ⟨S400000, .i32⟩
  | .hbm, ⟨59, _⟩ => ⟨S400000, .i1⟩
  | .hbm, ⟨60, _⟩ => ⟨S_, .i32⟩
  | .hbm, ⟨61, _⟩ => ⟨S400000, .i32⟩
  | .hbm, ⟨62, _⟩ => ⟨S400000, .i32⟩
  | .hbm, ⟨63, _⟩ => ⟨S400000, .i32⟩
  | .hbm, ⟨64, _⟩ => ⟨S400000x1, .i32⟩
  | .hbm, ⟨65, _⟩ => ⟨S50000, .i32⟩
  | .hbm, ⟨66, _⟩ => ⟨S_, .i32⟩
  | .hbm, ⟨67, _⟩ => ⟨S50000, .i32⟩
  | .hbm, ⟨68, _⟩ => ⟨S50000, .i32⟩
  | .hbm, ⟨69, _⟩ => ⟨S_, .i32⟩
  | .hbm, ⟨70, _⟩ => ⟨S50000, .i32⟩
  | .hbm, ⟨71, _⟩ => ⟨S50000, .i32⟩
  | .hbm, ⟨72, _⟩ => ⟨S_, .i32⟩
  | .hbm, ⟨73, _⟩ => ⟨S50000, .i32⟩
  | .hbm, ⟨74, _⟩ => ⟨S50000, .i1⟩
  | .hbm, ⟨75, _⟩ => ⟨S_, .i32⟩
  | .hbm, ⟨76, _⟩ => ⟨S50000, .i32⟩
  | .hbm, ⟨77, _⟩ => ⟨S50000, .i32⟩
  | .hbm, ⟨78, _⟩ => ⟨S50000, .i32⟩
  | .hbm, ⟨79, _⟩ => ⟨S50000x1, .i32⟩
  | .hbm, ⟨80, _⟩ => ⟨S50000, .i32⟩
  | .hbm, ⟨81, _⟩ => ⟨S_, .i32⟩
  | .hbm, ⟨82, _⟩ => ⟨S50000, .i32⟩
  | .hbm, ⟨83, _⟩ => ⟨S50000, .i1⟩
  | .hbm, ⟨84, _⟩ => ⟨S_, .i32⟩
  | .hbm, ⟨85, _⟩ => ⟨S50000, .i32⟩
  | .hbm, ⟨86, _⟩ => ⟨S50000, .i32⟩
  | .hbm, ⟨87, _⟩ => ⟨S50000, .i32⟩
  | .hbm, ⟨88, _⟩ => ⟨S50000x1, .i32⟩
  | .hbm, ⟨89, _⟩ => ⟨S50000, .i32⟩
  | .hbm, ⟨90, _⟩ => ⟨S_, .i32⟩
  | .hbm, ⟨91, _⟩ => ⟨S50000, .i32⟩
  | .hbm, ⟨92, _⟩ => ⟨S50000, .i1⟩
  | .hbm, ⟨93, _⟩ => ⟨S_, .i32⟩
  | .hbm, ⟨94, _⟩ => ⟨S50000, .i32⟩
  | .hbm, ⟨95, _⟩ => ⟨S50000, .i32⟩
  | .hbm, ⟨96, _⟩ => ⟨S50000, .i32⟩
  | .hbm, ⟨97, _⟩ => ⟨S50000x1, .i32⟩
  | .hbm, ⟨98, _⟩ => ⟨S50000x128, .f32⟩
  | .hbm, ⟨99, _⟩ => ⟨S_, .i32⟩
  | .hbm, ⟨100, _⟩ => ⟨S50000, .i32⟩
  | .hbm, ⟨101, _⟩ => ⟨S50000, .i1⟩
  | .hbm, ⟨102, _⟩ => ⟨S_, .i32⟩
  | .hbm, ⟨103, _⟩ => ⟨S50000, .i32⟩
  | .hbm, ⟨104, _⟩ => ⟨S50000, .i32⟩
  | .hbm, ⟨105, _⟩ => ⟨S50000, .i32⟩
  | .hbm, ⟨106, _⟩ => ⟨S50000x1, .i32⟩
  | .hbm, ⟨107, _⟩ => ⟨S50000x128, .f32⟩
  | .hbm, ⟨108, _⟩ => ⟨S50000x256, .f32⟩
  | .hbm, ⟨109, _⟩ => ⟨S50000x256, .bf16⟩
  | .hbm, ⟨110, _⟩ => ⟨S256x256, .bf16⟩
  | .hbm, ⟨111, _⟩ => ⟨S256x128, .bf16⟩
  | .hbm, ⟨112, _⟩ => ⟨S50000x128, .f32⟩
  | .hbm, ⟨113, _⟩ => ⟨S_, .i32⟩
  | .hbm, ⟨114, _⟩ => ⟨S50000, .i32⟩
  | .hbm, ⟨115, _⟩ => ⟨S50000, .i1⟩
  | .hbm, ⟨116, _⟩ => ⟨S50000x1, .i1⟩
  | .hbm, ⟨117, _⟩ => ⟨S50000x128, .f32⟩
  | .hbm, ⟨118, _⟩ => ⟨S_, .f32⟩
  | .hbm, ⟨119, _⟩ => ⟨S50000x128, .f32⟩
  | .hbm, ⟨120, _⟩ => ⟨S50000x128, .f32⟩
  | .hbm, ⟨121, _⟩ => ⟨S50000x128, .i1⟩
  | .hbm, ⟨122, _⟩ => ⟨S50000x128, .f32⟩
  | .local _ .vmem, ⟨0, _⟩ => ⟨S3200x256, .f32⟩
  | .local _ .vmem, ⟨1, _⟩ => ⟨S3200x256, .f32⟩
  | .local _ .vmem, ⟨2, _⟩ => ⟨S256x256, .f32⟩
  | .local _ .vmem, ⟨3, _⟩ => ⟨S256, .f32⟩
  | .local _ .vmem, ⟨4, _⟩ => ⟨S256x1, .f32⟩
  | .local _ .vmem, ⟨5, _⟩ => ⟨S1, .f32⟩
  | .local _ .vmem, ⟨6, _⟩ => ⟨S3200x1, .f32⟩
  | .local _ .vmem, ⟨7, _⟩ => ⟨S3200x1, .f32⟩
  | .local _ .vmem, ⟨8, _⟩ => ⟨S2000x256, .bf16⟩
  | .local _ .vmem, ⟨9, _⟩ => ⟨S2000x256, .bf16⟩
  | .local _ .vmem, ⟨10, _⟩ => ⟨S256x256, .bf16⟩
  | .local _ .vmem, ⟨11, _⟩ => ⟨S256, .f32⟩
  | .local _ .vmem, ⟨12, _⟩ => ⟨S256x128, .bf16⟩
  | .local _ .vmem, ⟨13, _⟩ => ⟨S128, .f32⟩
  | .local _ .vmem, ⟨14, _⟩ => ⟨S2000x128, .f32⟩
  | .local _ .vmem, ⟨15, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_call0_v0 : Ref sig .tc := ⟨.hbm, 43, rfl⟩
abbrev main_call0_v1 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_c_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_14 : Ref sig .tc := ⟨.hbm, 81, rfl⟩
abbrev main_v53 : Ref sig .tc := ⟨.hbm, 82, rfl⟩
abbrev main_v54 : Ref sig .tc := ⟨.hbm, 83, rfl⟩
abbrev main_c_15 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_16 : Ref sig .tc := ⟨.hbm, 90, rfl⟩
abbrev main_v60 : Ref sig .tc := ⟨.hbm, 91, rfl⟩
abbrev main_v61 : Ref sig .tc := ⟨.hbm, 92, rfl⟩
abbrev main_c_17 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_18 : Ref sig .tc := ⟨.hbm, 99, rfl⟩
abbrev main_v67 : Ref sig .tc := ⟨.hbm, 100, rfl⟩
abbrev main_v68 : Ref sig .tc := ⟨.hbm, 101, rfl⟩
abbrev main_c_19 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_21 : Ref sig .tc := ⟨.hbm, 118, rfl⟩
abbrev main_v83 : Ref sig .tc := ⟨.hbm, 119, rfl⟩
abbrev main_v84 : Ref sig .tc := ⟨.hbm, 120, rfl⟩
abbrev main_call1_v0 : Ref sig .tc := ⟨.hbm, 121, rfl⟩
abbrev main_v85 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3200x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x256_d1 : Shape.Concatenates [S400000x128, S400000x128] S400000x256 1
  inb_S3200x256_S3200x256_0_0 : ∀ a, (![0, 0] : Fin 2 → Nat) a + S3200x256.size a ≤ S3200x256.size a
  h_S3200x256 : 0 < S3200x256.numel
  shapeCasts_S3200x256_S3200x256 : S3200x256.ShapeCasts S3200x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S3200x256 : S1x256.Broadcasts S3200x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S3200x1 : S1x1.Broadcasts S3200x1
  inb_S3200x1_S3200x1_0_0 : ∀ a, (![0, 0] : Fin 2 → Nat) a + S3200x1.size a ≤ S3200x1.size a
  h_S3200x1 : 0 < S3200x1.numel
  shapeCasts_S400000x1_S400000 : S400000x1.ShapeCasts S400000
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x128_S50000x256_d1 : Shape.Concatenates [S50000x128, S50000x128] S50000x256 1
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  shapeCasts_S256x256_S256x256 : S256x256.ShapeCasts S256x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  gather_S50000x128_S400000x1_S400000x128_1_0_n_n_0_1_1128_wf : GatherDims.WF S50000x128 S400000x1 S400000x128 [1] [0] [] [0] [] 1 ![1, 128]
  dot_S3200x256_S256x256_S3200x256_1_0_0_1_n_n_wf : DotDims.WF S3200x256 S256x256 S3200x256 [1] [0] [0] [1] [] []
  dot_S3200x256_S256x1_S3200x1_1_0_0_1_n_n_wf : DotDims.WF S3200x256 S256x1 S3200x1 [1] [0] [0] [1] [] []
  scatter_S50000_S400000x1_S400000_n_0_0_1_wf : ScatterDims.WF S50000 S400000x1 S400000 [] [0] [0] 1
  gather_S400000_S50000x1_S50000_n_0_n_n_0_1_1_wf : GatherDims.WF S400000 S50000x1 S50000 [] [0] [] [0] [] 1 ![1]
  gather_S50000x128_S50000x1_S50000x128_1_0_n_n_0_1_1128_wf : GatherDims.WF S50000x128 S50000x1 S50000x128 [1] [0] [] [0] [] 1 ![1, 128]
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x256.size a ≤ S400000x256.size a
  hwx0_0 : ∀ i : grid0.Coords, EltTy.bits .f32 = 32 ∨ (Rect.block (s := S400000x256) S3200x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3200x1.size a ≤ S400000x1.size a
  hwx0_5 : ∀ i : grid0.Coords, EltTy.bits .f32 = 32 ∨ (Rect.block (s := S400000x1) S3200x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S3200x256_S256x256_S3200x256_1_0_0_1_n_n : DotDims S3200x256 S256x256 S3200x256 where
  lhsContracting := [1]
  rhsContracting := [0]
  lhsNonContracting := [0]
  rhsNonContracting := [1]
  lhsBatch := []
  rhsBatch := []
  wf := dot_S3200x256_S256x256_S3200x256_1_0_0_1_n_n_wf
def dot_S3200x256_S256x1_S3200x1_1_0_0_1_n_n : DotDims S3200x256 S256x1 S3200x1 where
  lhsContracting := [1]
  rhsContracting := [0]
  lhsNonContracting := [0]
  rhsNonContracting := [1]
  lhsBatch := []
  rhsBatch := []
  wf := dot_S3200x256_S256x1_S3200x1_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S400000_S50000x1_S50000_n_0_n_n_0_1_1 : GatherDims S400000 S50000x1 S50000 where
  offsetDims := []
  collapsedSliceDims := [0]
  operandBatchingDims := []
  startIndicesBatchingDims := []
  startIndexMap := [0]
  indexVectorDim := 1
  sliceSizes := ![1]
  wf := gather_S400000_S50000x1_S50000_n_0_n_n_0_1_1_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v18) S3200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S3200x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v75) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v76) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v77) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v78) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S256x128 : Shape := ⟨2, ![256, 128]⟩
abbrev S128 : Shape := ⟨1, ![128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S400000x256 : Shape := ⟨2, ![400000, 256]⟩
abbrev S1x256 : Shape := ⟨2, ![1, 256]⟩
abbrev S1x1 : Shape := ⟨2, ![1, 1]⟩
abbrev S1x128 : Shape := ⟨2, ![1, 128]⟩
abbrev S50000 : Shape := ⟨1, ![50000]⟩
abbrev S50000x1 : Shape := ⟨2, ![50000, 1]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S1x400000, .i32⟩
  | .hbm, ⟨11, _⟩ => ⟨S400000, .i32⟩
  | .hbm, ⟨12, _⟩ => ⟨S1x400000, .i32⟩
  | .hbm, ⟨13, _⟩ => ⟨S400000, .i32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S400000x128, .f32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x128, .f32⟩
  | .hbm, ⟨32, _⟩ => ⟨S400000x256, .f32⟩
  | .hbm, ⟨33, _⟩ => ⟨S400000x256, .f32⟩
  | .hbm, ⟨34, _⟩ => ⟨S1x256, .f32⟩
  | .hbm, ⟨35, _⟩ => ⟨S400000x256, .f32⟩
  | .hbm, ⟨36, _⟩ => ⟨S400000x256, .f32⟩
  | .hbm, ⟨37, _⟩ => ⟨S_, .f32⟩
  | .hbm, ⟨38, _⟩ => ⟨S400000x256, .f32⟩
  | .hbm, ⟨39, _⟩ => ⟨S400000x256, .f32⟩
  | .hbm, ⟨40, _⟩ => ⟨S400000x1, .f32⟩
  | .hbm, ⟨41, _⟩ => ⟨S1x1, .f32⟩
  | .hbm, ⟨42, _⟩ => ⟨S400000x1, .f32⟩
  | .hbm, ⟨43, _⟩ => ⟨S400000x1, .f32⟩
  | .hbm, ⟨44, _⟩ => ⟨S400000x1, .f32⟩
  | .hbm, ⟨45, _⟩ => ⟨S400000x1, .f32⟩
  | .hbm, ⟨46, _⟩ => ⟨S_, .f32⟩
  | .hbm, ⟨47, _⟩ => ⟨S400000x1, .f32⟩
  | .hbm, ⟨48, _⟩ => ⟨S400000x1, .f32⟩
  | .hbm, ⟨49, _⟩ => ⟨S_, .f32⟩
  | .hbm, ⟨50, _⟩ => ⟨S400000x1, .f32⟩
  | .hbm, ⟨51, _⟩ => ⟨S400000x1, .f32⟩
  | .hbm, ⟨52, _⟩ => ⟨S400000, .f32⟩
  | .hbm, ⟨53, _⟩ => ⟨S400000x256, .f32⟩
  | .hbm, ⟨54, _⟩ => ⟨S1x256, .f32⟩
  | .hbm, ⟨55, _⟩ => ⟨S400000x256, .f32⟩
  | .hbm, ⟨56, _⟩ => ⟨S400000x256, .f32⟩
  | .hbm, ⟨57, _⟩ => ⟨S_, .f32⟩
  | .hbm, ⟨58, _⟩ => ⟨S400000x256, .f32⟩
  | .hbm, ⟨59, _⟩ => ⟨S400000x256, .f32⟩
  | .hbm, ⟨60, _⟩ => ⟨S400000x128, .f32⟩
  | .hbm, ⟨61, _⟩ => ⟨S1x128, .f32⟩
  | .hbm, ⟨62, _⟩ => ⟨S400000x128, .f32⟩
  | .hbm, ⟨63, _⟩ => ⟨S400000x128, .f32⟩
  | .hbm, ⟨64, _⟩ => ⟨S_, .f32⟩
  | .hbm, ⟨65, _⟩ => ⟨S400000, .f32⟩
  | .hbm, ⟨66, _⟩ => ⟨S400000, .i1⟩
  | .hbm, ⟨67, _⟩ => ⟨S400000, .i32⟩
  | .hbm, ⟨68, _⟩ => ⟨S_, .i32⟩
  | .hbm, ⟨69, _⟩ => ⟨S400000, .i32⟩
  | .hbm, ⟨70, _⟩ => ⟨S400000, .i32⟩
  | .hbm, ⟨71, _⟩ => ⟨S_, .i32⟩
  | .hbm, ⟨72, _⟩ => ⟨S_, .i32⟩
  | .hbm, ⟨73, _⟩ => ⟨S400000, .i32⟩
  | .hbm, ⟨74, _⟩ => ⟨S400000, .i32⟩
  | .hbm, ⟨75, _⟩ => ⟨S_, .i32⟩
  | .hbm, ⟨76, _⟩ => ⟨S50000, .i32⟩
  | .hbm, ⟨77, _⟩ => ⟨S_, .i32⟩
  | .hbm, ⟨78, _⟩ => ⟨S400000, .i32⟩
  | .hbm, ⟨79, _⟩ => ⟨S400000, .i1⟩
  | .hbm, ⟨80, _⟩ => ⟨S_, .i32⟩
  | .hbm, ⟨81, _⟩ => ⟨S400000, .i32⟩
  | .hbm, ⟨82, _⟩ => ⟨S400000, .i32⟩
  | .hbm, ⟨83, _⟩ => ⟨S400000, .i32⟩
  | .hbm, ⟨84, _⟩ => ⟨S400000x1, .i32⟩
  | .hbm, ⟨85, _⟩ => ⟨S50000, .i32⟩
  | .hbm, ⟨86, _⟩ => ⟨S_, .i32⟩
  | .hbm, ⟨87, _⟩ => ⟨S400000, .i32⟩
  | .hbm, ⟨88, _⟩ => ⟨S400000, .i1⟩
  | .hbm, ⟨89, _⟩ => ⟨S_, .i32⟩
  | .hbm, ⟨90, _⟩ => ⟨S400000, .i32⟩
  | .hbm, ⟨91, _⟩ => ⟨S400000, .i32⟩
  | .hbm, ⟨92, _⟩ => ⟨S400000, .i32⟩
  | .hbm, ⟨93, _⟩ => ⟨S400000x1, .i32⟩
  | .hbm, ⟨94, _⟩ => ⟨S50000, .i32⟩
  | .hbm, ⟨95, _⟩ => ⟨S_, .i32⟩
  | .hbm, ⟨96, _⟩ => ⟨S50000, .i32⟩
  | .hbm, ⟨97, _⟩ => ⟨S50000, .i32⟩
  | .hbm, ⟨98, _⟩ => ⟨S_, .i32⟩
  | .hbm, ⟨99, _⟩ => ⟨S50000, .i32⟩
  | .hbm, ⟨100, _⟩ => ⟨S50000, .i32⟩
  | .hbm, ⟨101, _⟩ => ⟨S_, .i32⟩
  | .hbm, ⟨102, _⟩ => ⟨S50000, .i32⟩
  | .hbm, ⟨103, _⟩ => ⟨S50000, .i1⟩
  | .hbm, ⟨104, _⟩ => ⟨S50000x1, .i1⟩
  | .hbm, ⟨105, _⟩ => ⟨S_, .i32⟩
  | .hbm, ⟨106, _⟩ => ⟨S50000, .i32⟩
  | .hbm, ⟨107, _⟩ => ⟨S50000, .i1⟩
  | .hbm, ⟨108, _⟩ => ⟨S_, .i32⟩
  | .hbm, ⟨109, _⟩ => ⟨S50000, .i32⟩
  | .hbm, ⟨110, _⟩ => ⟨S50000, .i32⟩
  | .hbm, ⟨111, _⟩ => ⟨S50000, .i32⟩
  | .hbm, ⟨112, _⟩ => ⟨S50000x1, .i32⟩
  | .hbm, ⟨113, _⟩ => ⟨S50000x128, .f32⟩
  | .hbm, ⟨114, _⟩ => ⟨S50000x128, .f32⟩
  | .hbm, ⟨115, _⟩ => ⟨S_, .f32⟩
  | .hbm, ⟨116, _⟩ => ⟨S50000x128, .f32⟩
  | .hbm, ⟨117, _⟩ => ⟨S50000x128, .f32⟩
  | .hbm, ⟨118, _⟩ => ⟨S50000x128, .i1⟩
  | .hbm, ⟨119, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_cst : Ref sig .tc := ⟨.hbm, 57, rfl⟩
abbrev main_call1_v0 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_5 : Ref sig .tc := ⟨.hbm, 68, rfl⟩
abbrev main_v47 : Ref sig .tc := ⟨.hbm, 69, rfl⟩
abbrev main_v48 : Ref sig .tc := ⟨.hbm, 70, rfl⟩
abbrev main_c_6 : Ref sig .tc := ⟨.hbm, 71, rfl⟩
abbrev main_call2_v0 : Ref sig .tc := ⟨.hbm, 72, rfl⟩
abbrev main_call2_v1 : Ref sig .tc := ⟨.hbm, 73, rfl⟩
abbrev main_v49 : Ref sig .tc := ⟨.hbm, 74, rfl⟩
abbrev main_c_7 : Ref sig .tc := ⟨.hbm, 75, rfl⟩
abbrev main_v50 : Ref sig .tc := ⟨.hbm, 76, rfl⟩
abbrev main_c_8 : Ref sig .tc := ⟨.hbm, 77, rfl⟩
abbrev main_v51 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_10 : Ref sig .tc := ⟨.hbm, 86, rfl⟩
abbrev main_v58 : Ref sig .tc := ⟨.hbm, 87, rfl⟩
abbrev main_v59 : Ref sig .tc := ⟨.hbm, 88, rfl⟩
abbrev main_c_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_12 : Ref sig .tc := ⟨.hbm, 95, rfl⟩
abbrev main_v65 : Ref sig .tc := ⟨.hbm, 96, rfl⟩
abbrev main_v66 : Ref sig .tc := ⟨.hbm, 97, rfl⟩
abbrev main_c_13 : Ref sig .tc := ⟨.hbm, 98, rfl⟩
abbrev main_v67 : Ref sig .tc := ⟨.hbm, 99, rfl⟩
abbrev main_v68 : Ref sig .tc := ⟨.hbm, 100, rfl⟩
abbrev main_c_14 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_c_16 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_17 : Ref sig .tc := ⟨.hbm, 115, rfl⟩
abbrev main_v80 : Ref sig .tc := ⟨.hbm, 116, rfl⟩
abbrev main_v81 : Ref sig .tc := ⟨.hbm, 117, rfl⟩
abbrev main_call3_v0 : Ref sig .tc := ⟨.hbm, 118, rfl⟩
abbrev main_v82 : Ref sig .tc := ⟨.hbm, 119, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x256_d1 : Shape.Concatenates [S400000x128, S400000x128] S400000x256 1
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  bcast_S_S400000x256 : S_.BroadcastsInDim S400000x256 (![] : Fin 0 → Fin S400000x256.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  bcast_S_S400000x1 : S_.BroadcastsInDim S400000x1 (![] : Fin 0 → Fin S400000x1.rank)
  shapeCasts_S400000x1_S400000 : S400000x1.ShapeCasts S400000
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  gather_S50000x128_S400000x1_S400000x128_1_0_n_n_0_1_1128_wf : GatherDims.WF S50000x128 S400000x1 S400000x128 [1] [0] [] [0] [] 1 ![1, 128]
  dot_S400000x256_S256x256_S400000x256_1_0_0_1_n_n_wf : DotDims.WF S400000x256 S256x256 S400000x256 [1] [0] [0] [1] [] []
  dot_S400000x256_S256x1_S400000x1_1_0_0_1_n_n_wf : DotDims.WF S400000x256 S256x1 S400000x1 [1] [0] [0] [1] [] []
  dot_S400000x256_S256x128_S400000x128_1_0_0_1_n_n_wf : DotDims.WF S400000x256 S256x128 S400000x128 [1] [0] [0] [1] [] []
  scatter_S50000_S400000x1_S400000_n_0_0_1_wf : ScatterDims.WF S50000 S400000x1 S400000 [] [0] [0] 1
  gather_S400000x128_S50000x1_S50000x128_1_0_n_n_0_1_1128_wf : GatherDims.WF S400000x128 S50000x1 S50000x128 [1] [0] [] [0] [] 1 ![1, 128]

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x256_S256x256_S400000x256_1_0_0_1_n_n : DotDims S400000x256 S256x256 S400000x256 where
  lhsContracting := [1]
  rhsContracting := [0]
  lhsNonContracting := [0]
  rhsNonContracting := [1]
  lhsBatch := []
  rhsBatch := []
  wf := dot_S400000x256_S256x256_S400000x256_1_0_0_1_n_n_wf
def dot_S400000x256_S256x1_S400000x1_1_0_0_1_n_n : DotDims S400000x256 S256x1 S400000x1 where
  lhsContracting := [1]
  rhsContracting := [0]
  lhsNonContracting := [0]
  rhsNonContracting := [1]
  lhsBatch := []
  rhsBatch := []
  wf := dot_S400000x256_S256x1_S400000x1_1_0_0_1_n_n_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S400000x128_S50000x1_S50000x128_1_0_n_n_0_1_1128 : GatherDims S400000x128 S50000x1 S50000x128 where
  offsetDims := [1]
  collapsedSliceDims := [0]
  operandBatchingDims := []
  startIndicesBatchingDims := []
  startIndexMap := [0]
  indexVectorDim := 1
  sliceSizes := ![1, 128]
  wf := gather_S400000x128_S50000x1_S50000x128_1_0_n_n_0_1_1128_wf

class Facts : Prop extends Facts₀ where

variable [Facts]
-- ==== Proof.KRun.lean ====
/-
  The idealized kernel program's run, with its two results read off.

  The program is eight segments: host operations, the detector's pallas_call, three stretches of host operations, the
  resolver's pallas_call, and two last stretches of host operations.  The buffer contents at each boundary are a fold from
  the launch memory (`W0` … `W8`); the frame certificate runs the segments and reads the ARGUMENTS back out of the last
  boundary.  Here the same run is read at the two RESULT buffers as well: every weakly fair execution terminates with
  each result holding what the last boundary's contents `W8` hold there.  What `W8` holds there, as a function of the
  arguments, is the business of the modules that read the fold.
-/
import proofs.«111999_j47502338294426_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the two results at the last boundary's
    contents and the arguments as launched. -/
theorem run_results : θ_run defs (onTc (τ := τ) (main (F := F))) ⟨m, fun _ => 0, ρ⟩ (fun r => ∀ c : Dev nD,
      r.2.mem ((c.tc : Thread nD τ).loc main_v85) = W8 m ρ c (Proc.devRef .tc main_v85)
      ∧ r.2.mem ((c.tc : Thread nD τ).loc main_v20) = W8 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v85 (by decide)),
       h c _ (mem_uc main_v20 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.RunV

end
-- ==== Proof.KTerms.lean ====
/-
  The host side of the idealized kernel program as a handful of named functions.

  Around its two pallas_calls the program works on whole arrays: it takes the two rows of the edge list apart
  (`srcOf`, `dstOf`), turns a possibly negative node number into a row number (`wrapNode`), gathers an embedding row
  per edge and lays source and destination rows side by side (`pairOf`); from the detector's scores it marks the
  contradicting edges, numbers them from one, and keeps per node the LARGEST such number over the edges that touch the
  node (`lastOf`: two scatter-max passes, one through the sources and one through the destinations; zero for a node no
  contradicting edge touches); the winning edge's position (`idxOf`), the embedding rows of that edge's endpoints
  (`winnerPairOf`), and the blend of a node's embedding with the resolver's vector for it (`blendOf`).  Each function is
  the program's own composition of operations, so that reading the program's buffers back gives these terms on the nose.
-/
import proofs.«111999_j47502338294426_2_alg».proof.Proof.Gen.KernelIdeal

noncomputable section

namespace Cert.KernelIdeal.Terms

open Cert.KernelIdeal Cert.KernelIdeal.Facts₀ Cert.KernelIdeal.Facts Idealize.ShloMosaic

variable {F : FTy → Type} [FloatOps F]

/-- The edges' source nodes: row 0 of the edge list. -/
def srcOf (x1 : (⟨S2x400000, .i32⟩ : BufTy).Contents (Elt F)) : (⟨S400000, .i32⟩ : BufTy).Contents (Elt F) :=
  shapeCast _ (extractStridedSlice S1x400000 ![0, 0] x1 slices_S2x400000_S1x400000_0_0) shapeCasts_S1x400000_S400000

/-- The edges' destination nodes: row 1 of the edge list. -/
def dstOf (x1 : (⟨S2x400000, .i32⟩ : BufTy).Contents (Elt F)) : (⟨S400000, .i32⟩ : BufTy).Contents (Elt F) :=
  shapeCast _ (extractStridedSlice S1x400000 ![1, 0] x1 slices_S2x400000_S1x400000_1_0) shapeCasts_S1x400000_S400000

/-- A node number per edge made a row number: a negative one counts from the end of the 50000 nodes. -/
def wrapNode (v : (⟨S400000, .i32⟩ : BufTy).Contents (Elt F)) : (⟨S400000, .i32⟩ : BufTy).Contents (Elt F) :=
  select (cmpi .slt v (broadcastInDim S400000 ![] bcast_S_S400000 (constantI S_ 32 0#32)))
    (addi v (broadcastInDim S400000 ![] bcast_S_S400000 (constantI S_ 32 50000#32))) v

/-- One embedding row per edge: the row of the edge's node. -/
def rowsOf (x0 : (⟨S50000x128, .f32⟩ : BufTy).Contents (Elt F)) (v : (⟨S400000, .i32⟩ : BufTy).Contents (Elt F)) : (⟨S400000x128, .f32⟩ : BufTy).Contents (Elt F) :=
  Host.gather gather_S50000x128_S400000x1_S400000x128_1_0_n_n_0_1_1128 x0
    (broadcastInDim S400000x1 ![0] bcast_S400000_S400000x1_0 (wrapNode v))

/-- Per edge, its source's embedding row followed by its destination's: 256 numbers. -/
def pairOf (x0 : (⟨S50000x128, .f32⟩ : BufTy).Contents (Elt F)) (s d : (⟨S400000, .i32⟩ : BufTy).Contents (Elt F)) : (⟨S400000x256, .f32⟩ : BufTy).Contents (Elt F) :=
  concatenate S400000x256 1 [⟨S400000x128, rowsOf x0 s⟩, ⟨S400000x128, rowsOf x0 d⟩] concatenates_S400000x128_S400000x128_S400000x256_d1

/-- Per edge: its position counted from one if its score exceeds one half, zero otherwise. -/
def orderOf (scores : (⟨S400000, .f32⟩ : BufTy).Contents (Elt F)) : (⟨S400000, .i32⟩ : BufTy).Contents (Elt F) :=
  select (cmpf .ogt scores (broadcastInDim S400000 ![] bcast_S_S400000 (constant S_ .f32 0x3F000000#32)))
    (addi (broadcastInDim S400000 ![] bcast_S_S400000 (constantI S_ 32 1#32)) (iotaInDim S400000 32 0))
    (broadcastInDim S400000 ![] bcast_S_S400000 (id (constantI S_ 32 0#32)))

/-- Per node: the largest `orderOf` over the edges whose source or destination is the node, zero if there is none. -/
def lastOf (order s d : (⟨S400000, .i32⟩ : BufTy).Contents (Elt F)) : (⟨S50000, .i32⟩ : BufTy).Contents (Elt F) :=
  Host.scatter scatter_S50000_S400000x1_S400000_n_0_0_1 IntOp.maxsi
    (Host.scatter scatter_S50000_S400000x1_S400000_n_0_0_1 IntOp.maxsi
      (broadcastInDim S50000 ![] bcast_S_S50000 (constantI S_ 32 0#32))
      (broadcastInDim S400000x1 ![0] bcast_S400000_S400000x1_0 (wrapNode s)) order)
    (broadcastInDim S400000x1 ![0] bcast_S400000_S400000x1_0 (wrapNode d)) order

/-- Per node: the winning edge's position counted from zero (zero also for a node without one). -/
def idxOf (last : (⟨S50000, .i32⟩ : BufTy).Contents (Elt F)) : (⟨S50000, .i32⟩ : BufTy).Contents (Elt F) :=
  maxsi (subi last (broadcastInDim S50000 ![] bcast_S_S50000 (constantI S_ 32 1#32)))
    (broadcastInDim S50000 ![] bcast_S_S50000 (constantI S_ 32 0#32))

/-- An edge position per node made an index into the 400000 edges: a negative one counts from the end. -/
def wrapEdge (v : (⟨S50000, .i32⟩ : BufTy).Contents (Elt F)) : (⟨S50000, .i32⟩ : BufTy).Contents (Elt F) :=
  select (cmpi .slt v (broadcastInDim S50000 ![] bcast_S_S50000 (constantI S_ 32 0#32)))
    (addi v (broadcastInDim S50000 ![] bcast_S_S50000 (constantI S_ 32 400000#32))) v

/-- A node number per node (the winning edge's endpoint) made a row number. -/
def wrapNode' (v : (⟨S50000, .i32⟩ : BufTy).Contents (Elt F)) : (⟨S50000, .i32⟩ : BufTy).Contents (Elt F) :=
  select (cmpi .slt v (broadcastInDim S50000 ![] bcast_S_S50000 (constantI S_ 32 0#32)))
    (addi v (broadcastInDim S50000 ![] bcast_S_S50000 (constantI S_ 32 50000#32))) v

/-- Per node: one endpoint (`v` = the sources or the destinations) of the node's winning edge. -/
def winnerEndOf (v : (⟨S400000, .i32⟩ : BufTy).Contents (Elt F)) (idx : (⟨S50000, .i32⟩ : BufTy).Contents (Elt F)) : (⟨S50000, .i32⟩ : BufTy).Contents (Elt F) :=
  Host.gather gather_S400000_S50000x1_S50000_n_0_n_n_0_1_1 v (broadcastInDim S50000x1 ![0] bcast_S50000_S50000x1_0 (wrapEdge idx))

/-- One embedding row per node: the row of the given node number. -/
def rowsOf' (x0 : (⟨S50000x128, .f32⟩ : BufTy).Contents (Elt F)) (v : (⟨S50000, .i32⟩ : BufTy).Contents (Elt F)) : (⟨S50000x128, .f32⟩ : BufTy).Contents (Elt F) :=
  Host.gather gather_S50000x128_S50000x1_S50000x128_1_0_n_n_0_1_1128 x0
    (broadcastInDim S50000x1 ![0] bcast_S50000_S50000x1_0 (wrapNode' v))

/-- Per node: the embedding rows of its winning edge's source and destination, side by side, as the resolver's
    pallas_call receives them (in the narrower float format, which changes no value over the extended reals). -/
def winnerPairOf (x0 : (⟨S50000x128, .f32⟩ : BufTy).Contents (Elt F)) (s d : (⟨S400000, .i32⟩ : BufTy).Contents (Elt F)) (idx : (⟨S50000, .i32⟩ : BufTy).Contents (Elt F)) : (⟨S50000x256, .bf16⟩ : BufTy).Contents (Elt F) :=
  truncf .bf16 (concatenate S50000x256 1 [⟨S50000x128, rowsOf' x0 (winnerEndOf s idx)⟩, ⟨S50000x128, rowsOf' x0 (winnerEndOf d idx)⟩]
    concatenates_S50000x128_S50000x128_S50000x256_d1) bitsLt_bf16_f32

/-- Per node: half the sum of its embedding and its resolver vector where some contradicting edge touches it
    (`last > 0`), its embedding otherwise. -/
def blendOf (x0 : (⟨S50000x128, .f32⟩ : BufTy).Contents (Elt F)) (last : (⟨S50000, .i32⟩ : BufTy).Contents (Elt F)) (res : (⟨S50000x128, .f32⟩ : BufTy).Contents (Elt F)) : (⟨S50000x128, .f32⟩ : BufTy).Contents (Elt F) :=
  select (broadcastInDim S50000x128 ![0, 1] bcast_S50000x1_S50000x128_0_1
      (broadcastInDim S50000x1 ![0] bcast_S50000_S50000x1_0
        (cmpi .sgt last (broadcastInDim S50000 ![] bcast_S_S50000 (constantI S_ 32 0#32)))))
    (mulf (addf x0 res) (broadcastInDim S50000x128 ![] bcast_S_S50000x128 (constant S_ .f32 0x3F000000#32))) x0

end Cert.KernelIdeal.Terms

end
-- ==== Proof.KStretch.lean ====
/-
  The host stretches of the idealized kernel program, read back.

  Each stretch of host operations between the program's pallas_calls is a fold over the buffer contents it starts
  from.  Here every buffer that a later part of the program reads is read back out of the fold, from ANY starting
  contents `W`: a buffer the stretch computes is the corresponding function of `Terms` applied to what `W` holds at the
  stretch's inputs; a buffer the stretch does not write is what `W` holds there.  The long middle stretch is cut in
  two at the winning-edge positions (`main_v45`), so that no term repeats the scatter chain.
-/
import proofs.«111999_j47502338294426_2_alg».proof.Proof.Gen.KernelIdeal.Launch
import proofs.«111999_j47502338294426_2_alg».proof.Proof.KTerms
import Idealize.ShloMosaic.Lib.StableHlo.Run
import Idealize.ShloMosaic.Lib.Pipeline.Frame

set_option maxRecDepth 16384

noncomputable section

namespace Cert.KernelIdeal.Stretch

open Cert.KernelIdeal Cert.KernelIdeal.Gen Cert.KernelIdeal.Terms
open Idealize.ShloMosaic Idealize.ShloMosaic.TcCoe Idealize.SL.Sem Idealize.ShloMosaic.StableHlo

variable {F : FTy → Type} [FloatOps F]

/-! ## Before the detector's pallas_call -/

theorem pre_pair (W : Valuation τ sig (Elt F)) :
    StableHlo.after hostOps0 W (Proc.devRef .tc main_v18)
      = pairOf (W (Proc.devRef .tc main_arg0)) (srcOf (W (Proc.devRef .tc main_arg1))) (dstOf (W (Proc.devRef .tc main_arg1))) := by
  after_results_simp <;> rfl

theorem pre_src (W : Valuation τ sig (Elt F)) :
    StableHlo.after hostOps0 W (Proc.devRef .tc main_v1) = srcOf (W (Proc.devRef .tc main_arg1)) := by
  after_results_simp <;> rfl

theorem pre_dst (W : Valuation τ sig (Elt F)) :
    StableHlo.after hostOps0 W (Proc.devRef .tc main_v3) = dstOf (W (Proc.devRef .tc main_arg1)) := by
  after_results_simp <;> rfl

theorem pre_keep_arg0 (W : Valuation τ sig (Elt F)) : StableHlo.after hostOps0 W (Proc.devRef .tc main_arg0) = W (Proc.devRef .tc main_arg0) := by
  after_results_simp
theorem pre_keep_arg2 (W : Valuation τ sig (Elt F)) : StableHlo.after hostOps0 W (Proc.devRef .tc main_arg2) = W (Proc.devRef .tc main_arg2) := by
  after_results_simp
theorem pre_keep_arg3 (W : Valuation τ sig (Elt F)) : StableHlo.after hostOps0 W (Proc.devRef .tc main_arg3) = W (Proc.devRef .tc main_arg3) := by
  after_results_simp
theorem pre_keep_arg4 (W : Valuation τ sig (Elt F)) : StableHlo.after hostOps0 W (Proc.devRef .tc main_arg4) = W (Proc.devRef .tc main_arg4) := by
  after_results_simp
theorem pre_keep_arg5 (W : Valuation τ sig (Elt F)) : StableHlo.after hostOps0 W (Proc.devRef .tc main_arg5) = W (Proc.devRef .tc main_arg5) := by
  after_results_simp
theorem pre_keep_arg6 (W : Valuation τ sig (Elt F)) : StableHlo.after hostOps0 W (Proc.devRef .tc main_arg6) = W (Proc.devRef .tc main_arg6) := by
  after_results_simp
theorem pre_keep_arg7 (W : Valuation τ sig (Elt F)) : StableHlo.after hostOps0 W (Proc.devRef .tc main_arg7) = W (Proc.devRef .tc main_arg7) := by
  after_results_simp
theorem pre_keep_arg8 (W : Valuation τ sig (Elt F)) : StableHlo.after hostOps0 W (Proc.devRef .tc main_arg8) = W (Proc.devRef .tc main_arg8) := by
  after_results_simp
theorem pre_keep_arg9 (W : Valuation τ sig (Elt F)) : StableHlo.after hostOps0 W (Proc.devRef .tc main_arg9) = W (Proc.devRef .tc main_arg9) := by
  after_results_simp

/-! ## Between the two pallas_calls -/

/-- The middle stretch up to the winning-edge positions … -/
abbrev midA : List (HloOp τ sig (Elt F)) :=
  [ StableHlo.nullary main_c_5 (constantI S_ 32 0#32),
    StableHlo.unary main_c_5 main_v27 (broadcastInDim S50000 ![] bcast_S_S50000 : (⟨S_, .i32⟩ : BufTy).Contents (Elt F) → (⟨S50000, .i32⟩ : BufTy).Contents (Elt F)),
    StableHlo.nullary main_c_6 (constantI S_ 32 0#32),
    StableHlo.unary main_c_6 main_v28 (broadcastInDim S400000 ![] bcast_S_S400000 : (⟨S_, .i32⟩ : BufTy).Contents (Elt F) → (⟨S400000, .i32⟩ : BufTy).Contents (Elt F)),
    StableHlo.binary main_v1 main_v28 main_v29 (cmpi .slt : (⟨S400000, .i32⟩ : BufTy).Contents (Elt F) → (⟨S400000, .i32⟩ : BufTy).Contents (Elt F) → (⟨S400000, .i1⟩ : BufTy).Contents (Elt F)),
    StableHlo.nullary main_c_7 (constantI S_ 32 50000#32),
    StableHlo.unary main_c_7 main_v30 (broadcastInDim S400000 ![] bcast_S_S400000 : (⟨S_, .i32⟩ : BufTy).Contents (Elt F) → (⟨S400000, .i32⟩ : BufTy).Contents (Elt F)),
    StableHlo.binary main_v1 main_v30 main_v31 (addi : (⟨S400000, .i32⟩ : BufTy).Contents (Elt F) → (⟨S400000, .i32⟩ : BufTy).Contents (Elt F) → (⟨S400000, .i32⟩ : BufTy).Contents (Elt F)),
    StableHlo.ternary main_v29 main_v31 main_v1 main_v32 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v32 main_v33 (broadcastInDim S400000x1 ![0] bcast_S400000_S400000x1_0 : (⟨S400000, .i32⟩ : BufTy).Contents (Elt F) → (⟨S400000x1, .i32⟩ : BufTy).Contents (Elt F)),
    StableHlo.ternary main_v27 main_v33 main_v26 main_v34 ((fun x i u => Host.scatter scatter_S50000_S400000x1_S400000_n_0_0_1 IntOp.maxsi x i u) : (⟨S50000, .i32⟩ : BufTy).Contents (Elt F) → (⟨S400000x1, .i32⟩ : BufTy).Contents (Elt F) → (⟨S400000, .i32⟩ : BufTy).Contents (Elt F) → (⟨S50000, .i32⟩ : BufTy).Contents (Elt F)),
    StableHlo.nullary main_c_8 (constantI S_ 32 0#32),
    StableHlo.unary main_c_8 main_v35 (broadcastInDim S400000 ![] bcast_S_S400000 : (⟨S_, .i32⟩ : BufTy).Contents (Elt F) → (⟨S400000, .i32⟩ : BufTy).Contents (Elt F)),
    StableHlo.binary main_v3 main_v35 main_v36 (cmpi .slt : (⟨S400000, .i32⟩ : BufTy).Contents (Elt F) → (⟨S400000, .i32⟩ : BufTy).Contents (Elt F) → (⟨S400000, .i1⟩ : BufTy).Contents (Elt F)),
    StableHlo.nullary main_c_9 (constantI S_ 32 50000#32),
    StableHlo.unary main_c_9 main_v37 (broadcastInDim S400000 ![] bcast_S_S400000 : (⟨S_, .i32⟩ : BufTy).Contents (Elt F) → (⟨S400000, .i32⟩ : BufTy).Contents (Elt F)),
    StableHlo.binary main_v3 main_v37 main_v38 (addi : (⟨S400000, .i32⟩ : BufTy).Contents (Elt F) → (⟨S400000, .i32⟩ : BufTy).Contents (Elt F) → (⟨S400000, .i32⟩ : BufTy).Contents (Elt F)),
    StableHlo.ternary main_v36 main_v38 main_v3 main_v39 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v39 main_v40 (broadcastInDim S400000x1 ![0] bcast_S400000_S400000x1_0 : (⟨S400000, .i32⟩ : BufTy).Contents (Elt F) → (⟨S400000x1, .i32⟩ : BufTy).Contents (Elt F)),
    StableHlo.ternary main_v34 main_v40 main_v26 main_v41 ((fun x i u => Host.scatter scatter_S50000_S400000x1_S400000_n_0_0_1 IntOp.maxsi x i u) : (⟨S50000, .i32⟩ : BufTy).Contents (Elt F) → (⟨S400000x1, .i32⟩ : BufTy).Contents (Elt F) → (⟨S400000, .i32⟩ : BufTy).Contents (Elt F) → (⟨S50000, .i32⟩ : BufTy).Contents (Elt F)),
    StableHlo.nullary main_c_10 (constantI S_ 32 1#32),
    StableHlo.unary main_c_10 main_v42 (broadcastInDim S50000 ![] bcast_S_S50000 : (⟨S_, .i32⟩ : BufTy).Contents (Elt F) → (⟨S50000, .i32⟩ : BufTy).Contents (Elt F)),
    StableHlo.binary main_v41 main_v42 main_v43 (subi : (⟨S50000, .i32⟩ : BufTy).Contents (Elt F) → (⟨S50000, .i32⟩ : BufTy).Contents (Elt F) → (⟨S50000, .i32⟩ : BufTy).Contents (Elt F)),
    StableHlo.nullary main_c_11 (constantI S_ 32 0#32),
    StableHlo.unary main_c_11 main_v44 (broadcastInDim S50000 ![] bcast_S_S50000 : (⟨S_, .i32⟩ : BufTy).Contents (Elt F) → (⟨S50000, .i32⟩ : BufTy).Contents (Elt F)),
    StableHlo.binary main_v43 main_v44 main_v45 (maxsi : (⟨S50000, .i32⟩ : BufTy).Contents (Elt F) → (⟨S50000, .i32⟩ : BufTy).Contents (Elt F) → (⟨S50000, .i32⟩ : BufTy).Contents (Elt F)) ]

/-- … from there to the embedding rows of the winning edges' endpoints … -/
abbrev midB1 : List (HloOp τ sig (Elt F)) :=
  [ StableHlo.nullary main_c_12 (constantI S_ 32 0#32),
    StableHlo.unary main_c_12 main_v46 (broadcastInDim S50000 ![] bcast_S_S50000 : (⟨S_, .i32⟩ : BufTy).Contents (Elt F) → (⟨S50000, .i32⟩ : BufTy).Contents (Elt F)),
    StableHlo.binary main_v45 main_v46 main_v47 (cmpi .slt : (⟨S50000, .i32⟩ : BufTy).Contents (Elt F) → (⟨S50000, .i32⟩ : BufTy).Contents (Elt F) → (⟨S50000, .i1⟩ : BufTy).Contents (Elt F)),
    StableHlo.nullary main_c_13 (constantI S_ 32 400000#32),
    StableHlo.unary main_c_13 main_v48 (broadcastInDim S50000 ![] bcast_S_S50000 : (⟨S_, .i32⟩ : BufTy).Contents (Elt F) → (⟨S50000, .i32⟩ : BufTy).Contents (Elt F)),
    StableHlo.binary main_v45 main_v48 main_v49 (addi : (⟨S50000, .i32⟩ : BufTy).Contents (Elt F) → (⟨S50000, .i32⟩ : BufTy).Contents (Elt F) → (⟨S50000, .i32⟩ : BufTy).Contents (Elt F)),
    StableHlo.ternary main_v47 main_v49 main_v45 main_v50 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v50 main_v51 (broadcastInDim S50000x1 ![0] bcast_S50000_S50000x1_0 : (⟨S50000, .i32⟩ : BufTy).Contents (Elt F) → (⟨S50000x1, .i32⟩ : BufTy).Contents (Elt F)),
    StableHlo.binary main_v1 main_v51 main_v52 ((fun x i => Host.gather gather_S400000_S50000x1_S50000_n_0_n_n_0_1_1 x i) : (⟨S400000, .i32⟩ : BufTy).Contents (Elt F) → (⟨S50000x1, .i32⟩ : BufTy).Contents (Elt F) → (⟨S50000, .i32⟩ : BufTy).Contents (Elt F)),
    StableHlo.nullary main_c_14 (constantI S_ 32 0#32),
    StableHlo.unary main_c_14 main_v53 (broadcastInDim S50000 ![] bcast_S_S50000 : (⟨S_, .i32⟩ : BufTy).Contents (Elt F) → (⟨S50000, .i32⟩ : BufTy).Contents (Elt F)),
    StableHlo.binary main_v45 main_v53 main_v54 (cmpi .slt : (⟨S50000, .i32⟩ : BufTy).Contents (Elt F) → (⟨S50000, .i32⟩ : BufTy).Contents (Elt F) → (⟨S50000, .i1⟩ : BufTy).Contents (Elt F)),
    StableHlo.nullary main_c_15 (constantI S_ 32 400000#32),
    StableHlo.unary main_c_15 main_v55 (broadcastInDim S50000 ![] bcast_S_S50000 : (⟨S_, .i32⟩ : BufTy).Contents (Elt F) → (⟨S50000, .i32⟩ : BufTy).Contents (Elt F)),
    StableHlo.binary main_v45 main_v55 main_v56 (addi : (⟨S50000, .i32⟩ : BufTy).Contents (Elt F) → (⟨S50000, .i32⟩ : BufTy).Contents (Elt F) → (⟨S50000, .i32⟩ : BufTy).Contents (Elt F)),
    StableHlo.ternary main_v54 main_v56 main_v45 main_v57 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v57 main_v58 (broadcastInDim S50000x1 ![0] bcast_S50000_S50000x1_0 : (⟨S50000, .i32⟩ : BufTy).Contents (Elt F) → (⟨S50000x1, .i32⟩ : BufTy).Contents (Elt F)),
    StableHlo.binary main_v3 main_v58 main_v59 ((fun x i => Host.gather gather_S400000_S50000x1_S50000_n_0_n_n_0_1_1 x i) : (⟨S400000, .i32⟩ : BufTy).Contents (Elt F) → (⟨S50000x1, .i32⟩ : BufTy).Contents (Elt F) → (⟨S50000, .i32⟩ : BufTy).Contents (Elt F)),
    StableHlo.nullary main_c_16 (constantI S_ 32 0#32),
    StableHlo.unary main_c_16 main_v60 (broadcastInDim S50000 ![] bcast_S_S50000 : (⟨S_, .i32⟩ : BufTy).Contents (Elt F) → (⟨S50000, .i32⟩ : BufTy).Contents (Elt F)),
    StableHlo.binary main_v52 main_v60 main_v61 (cmpi .slt : (⟨S50000, .i32⟩ : BufTy).Contents (Elt F) → (⟨S50000, .i32⟩ : BufTy).Contents (Elt F) → (⟨S50000, .i1⟩ : BufTy).Contents (Elt F)),
    StableHlo.nullary main_c_17 (constantI S_ 32 50000#32),
    StableHlo.unary main_c_17 main_v62 (broadcastInDim S50000 ![] bcast_S_S50000 : (⟨S_, .i32⟩ : BufTy).Contents (Elt F) → (⟨S50000, .i32⟩ : BufTy).Contents (Elt F)),
    StableHlo.binary main_v52 main_v62 main_v63 (addi : (⟨S50000, .i32⟩ : BufTy).Contents (Elt F) → (⟨S50000, .i32⟩ : BufTy).Contents (Elt F) → (⟨S50000, .i32⟩ : BufTy).Contents (Elt F)),
    StableHlo.ternary main_v61 main_v63 main_v52 main_v64 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v64 main_v65 (broadcastInDim S50000x1 ![0] bcast_S50000_S50000x1_0 : (⟨S50000, .i32⟩ : BufTy).Contents (Elt F) → (⟨S50000x1, .i32⟩ : BufTy).Contents (Elt F)),
    StableHlo.binary main_arg0 main_v65 main_v66 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.nullary main_c_18 (constantI S_ 32 0#32),
    StableHlo.unary main_c_18 main_v67 (broadcastInDim S50000 ![] bcast_S_S50000 : (⟨S_, .i32⟩ : BufTy).Contents (Elt F) → (⟨S50000, .i32⟩ : BufTy).Contents (Elt F)),
    StableHlo.binary main_v59 main_v67 main_v68 (cmpi .slt : (⟨S50000, .i32⟩ : BufTy).Contents (Elt F) → (⟨S50000, .i32⟩ : BufTy).Contents (Elt F) → (⟨S50000, .i1⟩ : BufTy).Contents (Elt F)),
    StableHlo.nullary main_c_19 (constantI S_ 32 50000#32),
    StableHlo.unary main_c_19 main_v69 (broadcastInDim S50000 ![] bcast_S_S50000 : (⟨S_, .i32⟩ : BufTy).Contents (Elt F) → (⟨S50000, .i32⟩ : BufTy).Contents (Elt F)),
    StableHlo.binary main_v59 main_v69 main_v70 (addi : (⟨S50000, .i32⟩ : BufTy).Contents (Elt F) → (⟨S50000, .i32⟩ : BufTy).Contents (Elt F) → (⟨S50000, .i32⟩ : BufTy).Contents (Elt F)),
    StableHlo.ternary main_v68 main_v70 main_v59 main_v71 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v71 main_v72 (broadcastInDim S50000x1 ![0] bcast_S50000_S50000x1_0 : (⟨S50000, .i32⟩ : BufTy).Contents (Elt F) → (⟨S50000x1, .i32⟩ : BufTy).Contents (Elt F)),
    StableHlo.binary main_arg0 main_v72 main_v73 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)) ]

/-- … and the last four operations before the resolver's pallas_call: the two row tables side by side, and the three
    changes of float format. -/
abbrev midB2 : List (HloOp τ sig (Elt F)) :=
  [ StableHlo.binary main_v66 main_v73 main_v74 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_v74 main_v75 ((truncf .bf16 · bitsLt_bf16_f32) : (⟨S50000x256, .f32⟩ : BufTy).Contents (Elt F) → (⟨S50000x256, .bf16⟩ : BufTy).Contents (Elt F)),
    StableHlo.unary main_arg6 main_v76 ((truncf .bf16 · bitsLt_bf16_f32) : (⟨S256x256, .f32⟩ : BufTy).Contents (Elt F) → (⟨S256x256, .bf16⟩ : BufTy).Contents (Elt F)),
    StableHlo.unary main_arg8 main_v77 ((truncf .bf16 · bitsLt_bf16_f32) : (⟨S256x128, .f32⟩ : BufTy).Contents (Elt F) → (⟨S256x128, .bf16⟩ : BufTy).Contents (Elt F)) ]

set_option maxHeartbeats 4000000 in
theorem mid_split : (hostOps1_2 : List (HloOp τ sig (Elt F))) = midA ++ (midB1 ++ midB2) := rfl

theorem mid_scores (W : Valuation τ sig (Elt F)) :
    StableHlo.after hostOps1 W (Proc.devRef .tc main_v20) = shapeCast _ (W (Proc.devRef .tc main_v19)) shapeCasts_S400000x1_S400000 := by
  after_results_simp <;> rfl

theorem mid_order (W : Valuation τ sig (Elt F)) :
    StableHlo.after hostOps1_1 (StableHlo.after hostOps1 W) (Proc.devRef .tc main_v26)
      = orderOf (shapeCast _ (W (Proc.devRef .tc main_v19)) shapeCasts_S400000x1_S400000) := by
  after_results_simp <;> rfl

theorem mid_last (W : Valuation τ sig (Elt F)) :
    StableHlo.after midA W (Proc.devRef .tc main_v41) = lastOf (W (Proc.devRef .tc main_v26)) (W (Proc.devRef .tc main_v1)) (W (Proc.devRef .tc main_v3)) := by
  after_results_simp <;> rfl

theorem mid_idx (W : Valuation τ sig (Elt F)) :
    StableHlo.after midA W (Proc.devRef .tc main_v45) = idxOf (lastOf (W (Proc.devRef .tc main_v26)) (W (Proc.devRef .tc main_v1)) (W (Proc.devRef .tc main_v3))) := by
  after_results_simp <;> rfl

theorem mid_rows_src (W : Valuation τ sig (Elt F)) :
    StableHlo.after midB1 W (Proc.devRef .tc main_v66) = rowsOf' (W (Proc.devRef .tc main_arg0)) (winnerEndOf (W (Proc.devRef .tc main_v1)) (W (Proc.devRef .tc main_v45))) := by
  after_results_simp <;> rfl

theorem mid_rows_dst (W : Valuation τ sig (Elt F)) :
    StableHlo.after midB1 W (Proc.devRef .tc main_v73) = rowsOf' (W (Proc.devRef .tc main_arg0)) (winnerEndOf (W (Proc.devRef .tc main_v3)) (W (Proc.devRef .tc main_v45))) := by
  after_results_simp <;> rfl

theorem mid_pair (W : Valuation τ sig (Elt F)) :
    StableHlo.after midB2 W (Proc.devRef .tc main_v75)
      = truncf .bf16 (concatenate S50000x256 1 [⟨S50000x128, W (Proc.devRef .tc main_v66)⟩, ⟨S50000x128, W (Proc.devRef .tc main_v73)⟩]
          concatenates_S50000x128_S50000x128_S50000x256_d1) bitsLt_bf16_f32 := by
  after_results_simp <;> rfl

theorem mid_w1 (W : Valuation τ sig (Elt F)) :
    StableHlo.after midB2 W (Proc.devRef .tc main_v76) = truncf .bf16 (W (Proc.devRef .tc main_arg6)) bitsLt_bf16_f32 := by
  after_results_simp <;> rfl

theorem mid_w2 (W : Valuation τ sig (Elt F)) :
    StableHlo.after midB2 W (Proc.devRef .tc main_v77) = truncf .bf16 (W (Proc.devRef .tc main_arg8)) bitsLt_bf16_f32 := by
  after_results_simp <;> rfl

theorem mid1_keep_v1 (W : Valuation τ sig (Elt F)) : StableHlo.after hostOps1 W (Proc.devRef .tc main_v1) = W (Proc.devRef .tc main_v1) := by
  after_results_simp
theorem mid1_keep_v3 (W : Valuation τ sig (Elt F)) : StableHlo.after hostOps1 W (Proc.devRef .tc main_v3) = W (Proc.devRef .tc main_v3) := by
  after_results_simp
theorem mid1_keep_arg0 (W : Valuation τ sig (Elt F)) : StableHlo.after hostOps1 W (Proc.devRef .tc main_arg0) = W (Proc.devRef .tc main_arg0) := by
  after_results_simp
theorem mid1_keep_arg6 (W : Valuation τ sig (Elt F)) : StableHlo.after hostOps1 W (Proc.devRef .tc main_arg6) = W (Proc.devRef .tc main_arg6) := by
  after_results_simp
theorem mid1_keep_arg7 (W : Valuation τ sig (Elt F)) : StableHlo.after hostOps1 W (Proc.devRef .tc main_arg7) = W (Proc.devRef .tc main_arg7) := by
  after_results_simp
theorem mid1_keep_arg8 (W : Valuation τ sig (Elt F)) : StableHlo.after hostOps1 W (Proc.devRef .tc main_arg8) = W (Proc.devRef .tc main_arg8) := by
  after_results_simp
theorem mid1_keep_arg9 (W : Valuation τ sig (Elt F)) : StableHlo.after hostOps1 W (Proc.devRef .tc main_arg9) = W (Proc.devRef .tc main_arg9) := by
  after_results_simp
theorem mid2_keep_v1 (W : Valuation τ sig (Elt F)) : StableHlo.after hostOps1_1 W (Proc.devRef .tc main_v1) = W (Proc.devRef .tc main_v1) := by
  after_results_simp
theorem mid2_keep_v3 (W : Valuation τ sig (Elt F)) : StableHlo.after hostOps1_1 W (Proc.devRef .tc main_v3) = W (Proc.devRef .tc main_v3) := by
  after_results_simp
theorem mid2_keep_arg0 (W : Valuation τ sig (Elt F)) : StableHlo.after hostOps1_1 W (Proc.devRef .tc main_arg0) = W (Proc.devRef .tc main_arg0) := by
  after_results_simp
theorem mid2_keep_arg6 (W : Valuation τ sig (Elt F)) : StableHlo.after hostOps1_1 W (Proc.devRef .tc main_arg6) = W (Proc.devRef .tc main_arg6) := by
  after_results_simp
theorem mid2_keep_arg7 (W : Valuation τ sig (Elt F)) : StableHlo.after hostOps1_1 W (Proc.devRef .tc main_arg7) = W (Proc.devRef .tc main_arg7) := by
  after_results_simp
theorem mid2_keep_arg8 (W : Valuation τ sig (Elt F)) : StableHlo.after hostOps1_1 W (Proc.devRef .tc main_arg8) = W (Proc.devRef .tc main_arg8) := by
  after_results_simp
theorem mid2_keep_arg9 (W : Valuation τ sig (Elt F)) : StableHlo.after hostOps1_1 W (Proc.devRef .tc main_arg9) = W (Proc.devRef .tc main_arg9) := by
  after_results_simp
theorem mid2_keep_v20 (W : Valuation τ sig (Elt F)) : StableHlo.after hostOps1_1 W (Proc.devRef .tc main_v20) = W (Proc.devRef .tc main_v20) := by
  after_results_simp
theorem midA_keep_v1 (W : Valuation τ sig (Elt F)) : StableHlo.after midA W (Proc.devRef .tc main_v1) = W (Proc.devRef .tc main_v1) := by
  after_results_simp
theorem midA_keep_v3 (W : Valuation τ sig (Elt F)) : StableHlo.after midA W (Proc.devRef .tc main_v3) = W (Proc.devRef .tc main_v3) := by
  after_results_simp
theorem midA_keep_arg0 (W : Valuation τ sig (Elt F)) : StableHlo.after midA W (Proc.devRef .tc main_arg0) = W (Proc.devRef .tc main_arg0) := by
  after_results_simp
theorem midA_keep_arg6 (W : Valuation τ sig (Elt F)) : StableHlo.after midA W (Proc.devRef .tc main_arg6) = W (Proc.devRef .tc main_arg6) := by
  after_results_simp
theorem midA_keep_arg7 (W : Valuation τ sig (Elt F)) : StableHlo.after midA W (Proc.devRef .tc main_arg7) = W (Proc.devRef .tc main_arg7) := by
  after_results_simp
theorem midA_keep_arg8 (W : Valuation τ sig (Elt F)) : StableHlo.after midA W (Proc.devRef .tc main_arg8) = W (Proc.devRef .tc main_arg8) := by
  after_results_simp
theorem midA_keep_arg9 (W : Valuation τ sig (Elt F)) : StableHlo.after midA W (Proc.devRef .tc main_arg9) = W (Proc.devRef .tc main_arg9) := by
  after_results_simp
theorem midA_keep_v20 (W : Valuation τ sig (Elt F)) : StableHlo.after midA W (Proc.devRef .tc main_v20) = W (Proc.devRef .tc main_v20) := by
  after_results_simp
theorem midB1_keep_arg0 (W : Valuation τ sig (Elt F)) : StableHlo.after midB1 W (Proc.devRef .tc main_arg0) = W (Proc.devRef .tc main_arg0) := by
  after_results_simp
theorem midB1_keep_arg6 (W : Valuation τ sig (Elt F)) : StableHlo.after midB1 W (Proc.devRef .tc main_arg6) = W (Proc.devRef .tc main_arg6) := by
  after_results_simp
theorem midB1_keep_arg7 (W : Valuation τ sig (Elt F)) : StableHlo.after midB1 W (Proc.devRef .tc main_arg7) = W (Proc.devRef .tc main_arg7) := by
  after_results_simp
theorem midB1_keep_arg8 (W : Valuation τ sig (Elt F)) : StableHlo.after midB1 W (Proc.devRef .tc main_arg8) = W (Proc.devRef .tc main_arg8) := by
  after_results_simp
theorem midB1_keep_arg9 (W : Valuation τ sig (Elt F)) : StableHlo.after midB1 W (Proc.devRef .tc main_arg9) = W (Proc.devRef .tc main_arg9) := by
  after_results_simp
theorem midB1_keep_v20 (W : Valuation τ sig (Elt F)) : StableHlo.after midB1 W (Proc.devRef .tc main_v20) = W (Proc.devRef .tc main_v20) := by
  after_results_simp
theorem midB1_keep_v41 (W : Valuation τ sig (Elt F)) : StableHlo.after midB1 W (Proc.devRef .tc main_v41) = W (Proc.devRef .tc main_v41) := by
  after_results_simp
theorem midB2_keep_arg0 (W : Valuation τ sig (Elt F)) : StableHlo.after midB2 W (Proc.devRef .tc main_arg0) = W (Proc.devRef .tc main_arg0) := by
  after_results_simp
theorem midB2_keep_arg7 (W : Valuation τ sig (Elt F)) : StableHlo.after midB2 W (Proc.devRef .tc main_arg7) = W (Proc.devRef .tc main_arg7) := by
  after_results_simp
theorem midB2_keep_arg9 (W : Valuation τ sig (Elt F)) : StableHlo.after midB2 W (Proc.devRef .tc main_arg9) = W (Proc.devRef .tc main_arg9) := by
  after_results_simp
theorem midB2_keep_v20 (W : Valuation τ sig (Elt F)) : StableHlo.after midB2 W (Proc.devRef .tc main_v20) = W (Proc.devRef .tc main_v20) := by
  after_results_simp
theorem midB2_keep_v41 (W : Valuation τ sig (Elt F)) : StableHlo.after midB2 W (Proc.devRef .tc main_v41) = W (Proc.devRef .tc main_v41) := by
  after_results_simp

/-! ## After the resolver's pallas_call -/

theorem post_blend (W : Valuation τ sig (Elt F)) :
    StableHlo.after hostOps2_1 (StableHlo.after hostOps2 W) (Proc.devRef .tc main_v85)
      = blendOf (W (Proc.devRef .tc main_arg0)) (W (Proc.devRef .tc main_v41)) (W (Proc.devRef .tc main_v78)) := by
  after_results_simp <;> rfl

theorem post_keep_scores (W : Valuation τ sig (Elt F)) :
    StableHlo.after hostOps2_1 (StableHlo.after hostOps2 W) (Proc.devRef .tc main_v20) = W (Proc.devRef .tc main_v20) := by
  after_results_simp

end Cert.KernelIdeal.Stretch

end
-- ==== Proof.Spec.lean ====
/-
  The two small perceptrons of this kernel, row by row, on the extended reals.

  A row of 256 numbers (the two gathered embeddings of an edge, side by side) goes through one hidden layer of
  256 units, `max (row · W1[:,k] + b1[k]) 0`, and then either to ONE logistic output (the detector's score of the
  edge) or to 128 linear outputs (the resolver's vector for the edge).  Both programs compute exactly these sums;
  they differ only in which rows they evaluate and in how the rows are staged.
-/
import Idealize.ShloMosaic.PureOps.Ideal
import Idealize.ShloMosaic.Lib.ValueIdx

noncomputable section

namespace Cert.Bridge

open Idealize.ShloMosaic Idealize.ShloMosaic.ValueIdx

/-- Hidden unit `k` of a row: the row's product with column `k` of the first weight matrix, plus the bias, clipped
    below at zero. -/
def hid (row : Fin 256 → EReal) (W1 : (⟨2, ![256, 256]⟩ : Shape).Idx → EReal)
    (b1 : (⟨1, ![256]⟩ : Shape).Idx → EReal) (k : Fin 256) : EReal :=
  max ((∑ j : Fin 256, row j * W1 (ix2 j k)) + b1 (ix1 k)) (Ideal.ofBits .f32 0x00000000#32)

/-- The detector's score of a row: the logistic function of the hidden layer's product with the one output column,
    plus its bias. -/
def scoreRow (row : Fin 256 → EReal) (W1 : (⟨2, ![256, 256]⟩ : Shape).Idx → EReal)
    (b1 : (⟨1, ![256]⟩ : Shape).Idx → EReal) (W2 : (⟨2, ![256, 1]⟩ : Shape).Idx → EReal)
    (b2 : (⟨1, ![1]⟩ : Shape).Idx → EReal) : EReal :=
  Ideal.logistic ((∑ k : Fin 256, hid row W1 b1 k * W2 (ix2 k (0 : Fin 1))) + b2 (ix1 (0 : Fin 1)))

/-- The resolver's output `d` of a row: the hidden layer's product with column `d` of the second weight matrix, plus
    the bias. -/
def resRow (row : Fin 256 → EReal) (W1 : (⟨2, ![256, 256]⟩ : Shape).Idx → EReal)
    (b1 : (⟨1, ![256]⟩ : Shape).Idx → EReal) (W2 : (⟨2, ![256, 128]⟩ : Shape).Idx → EReal)
    (b2 : (⟨1, ![128]⟩ : Shape).Idx → EReal) (d : Fin 128) : EReal :=
  (∑ k : Fin 256, hid row W1 b1 k * W2 (ix2 k d)) + b2 (ix1 d)

/-- The detector over a whole table of rows: entry `(e, 0)` is the score of row `e`. -/
def scoresArr {N : Nat} (rows : (⟨2, ![N, 256]⟩ : Shape).Idx → EReal) (W1 : (⟨2, ![256, 256]⟩ : Shape).Idx → EReal)
    (b1 : (⟨1, ![256]⟩ : Shape).Idx → EReal) (W2 : (⟨2, ![256, 1]⟩ : Shape).Idx → EReal)
    (b2 : (⟨1, ![1]⟩ : Shape).Idx → EReal) : (⟨2, ![N, 1]⟩ : Shape).Idx → EReal :=
  fun i => scoreRow (fun j => rows (ix2 (i 0) j)) W1 b1 W2 b2

/-- The resolver over a whole table of rows: entry `(e, d)` is output `d` of row `e`. -/
def resArr {N : Nat} (rows : (⟨2, ![N, 256]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 : (⟨1, ![128]⟩ : Shape).Idx → EReal) : (⟨2, ![N, 128]⟩ : Shape).Idx → EReal :=
  fun i => resRow (fun j => rows (ix2 (i 0) j)) W1 b1 W2 b2 (i 1)

end Cert.Bridge

end
-- ==== Proof.KArr.lean ====
/-
  From the blocks a grid of points writes back to the whole output array, for the two perceptron regions.

  Each region walks a table of rows in consecutive blocks of rows (3200 at a time for the detector, 2000 at a time for
  the resolver).  At point `t` it reads the block of rows `[B t, B t + B)` of the table and the whole of both weight
  matrices and both biases, and writes the same block of rows of the output.  Given that the body's result on a block is
  the perceptron row by row, the output array after the last point is the perceptron of the whole table, row by row.
-/
import proofs.«111999_j47502338294426_2_alg».proof.Proof.Spec
import proofs.«111999_j47502338294426_2_alg».proof.Proof.Gen.KernelIdeal.Frame
import Idealize.ShloMosaic.Lib.Pipeline.Value
import Idealize.ShloMosaic.Lib.ValueIdx

set_option maxRecDepth 16384

noncomputable section

namespace Cert.KernelIdeal.Arr

open Cert.KernelIdeal Cert.KernelIdeal.Gen Idealize.ShloMosaic Idealize.ShloMosaic.ValueIdx Cert.Bridge
open Idealize.ShloMosaic.Pipeline Idealize.ShloMosaic.TcCoe Idealize.SL.Sem

variable (V : (c : Dev nD) → (b : Ref sig .tc) → Buf (Elt Ideal) ((c : Thread nD τ).loc b))

/-- The zero offset on two axes, and on one. -/
theorem zeros2 : (![0, 0] : Fin 2 → Nat) = fun _ => 0 := funext fun a => by fin_cases a <;> rfl
theorem zeros1 : (![0] : Fin 1 → Nat) = fun _ => 0 := funext fun a => by fin_cases a <;> rfl

/-- Two score rows agree when their arguments do. -/
theorem scoreRow_congr {row row' : Fin 256 → EReal} {W1 W1' : (⟨2, ![256, 256]⟩ : Shape).Idx → EReal}
    {b1 b1' : (⟨1, ![256]⟩ : Shape).Idx → EReal} {W2 W2' : (⟨2, ![256, 1]⟩ : Shape).Idx → EReal}
    {b2 b2' : (⟨1, ![1]⟩ : Shape).Idx → EReal} (h0 : row = row') (h1 : W1 = W1') (h2 : b1 = b1') (h3 : W2 = W2')
    (h4 : b2 = b2') : scoreRow row W1 b1 W2 b2 = scoreRow row' W1' b1' W2' b2' := by
  subst h0 h1 h2 h3 h4; rfl

/-! ## The detector's region: 125 blocks of 3200 rows -/

/-- The block indices, decided over the 125 points: the table's and the output's row block at point `t` is `t`, their
    column block is 0, and the weights and biases sit at block 0 on every axis. -/
theorem blockIdx0 : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- Row `p` of the table's block at point `t` is row `3200 t + p` of the table. -/
theorem rows_block0 (c : Dev nD) (t : Fin cfg0.N) (y : S3200x256.Idx) (k : S400000x256.Idx)
    (hk0 : (k 0).val = 3200 * t.val + (y 0).val) (hk1 : (k 1).val = (y 1).val) :
    (iblk0 V c 0 t : Vec Ideal S3200x256 .f32) y = (V c main_v18 : S400000x256.Idx → EReal) k := by
  obtain ⟨e0, e1, -⟩ := blockIdx0 t
  unfold iblk0
  show V c main_v18 (((cfg0.win 0).blk t).view.emb y) = V c main_v18 k
  refine congrArg _ ?_
  funext a
  apply Fin.ext
  match a with
  | ⟨0, _⟩ => show win0_0.index t (0 : Fin 2) * 3200 + 1 * (y 0).val = (k 0).val; rw [e0, hk0]; omega
  | ⟨1, _⟩ => show win0_0.index t (1 : Fin 2) * 256 + 1 * (y 1).val = (k 1).val; rw [e1, hk1]; omega

/-- The first weight matrix's block at any point is the whole matrix. -/
theorem whole0_1 (c : Dev nD) (t : Fin cfg0.N) :
    (iblk0 V c 1 t : Vec Ideal S256x256 .f32) = (V c main_arg2 : S256x256.Idx → EReal) := by
  obtain ⟨-, -, -, -, e0, e1, -⟩ := blockIdx0 t
  unfold iblk0
  funext y
  show V c main_arg2 (((cfg0.win 1).blk t).view.emb y) = V c main_arg2 y
  refine congrArg _ ?_
  funext a
  apply Fin.ext
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The first bias's block at any point is the whole bias. -/
theorem whole0_2 (c : Dev nD) (t : Fin cfg0.N) :
    (iblk0 V c 2 t : Vec Ideal S256 .f32) = (V c main_arg3 : S256.Idx → EReal) := by
  obtain ⟨-, -, -, -, -, -, e0, -⟩ := blockIdx0 t
  unfold iblk0
  funext y
  show V c main_arg3 (((cfg0.win 2).blk t).view.emb y) = V c main_arg3 y
  refine congrArg _ ?_
  funext a
  apply Fin.ext
  match a with
  | ⟨0, _⟩ => show win0_2.index t (0 : Fin 1) * 256 + 1 * (y 0).val = (y 0).val; rw [e0]; omega

/-- The output column's block at any point is the whole column. -/
theorem whole0_3 (c : Dev nD) (t : Fin cfg0.N) :
    (iblk0 V c 3 t : Vec Ideal S256x1 .f32) = (V c main_arg4 : S256x1.Idx → EReal) := by
  obtain ⟨-, -, -, -, -, -, -, e0, e1, -⟩ := blockIdx0 t
  unfold iblk0
  funext y
  show V c main_arg4 (((cfg0.win 3).blk t).view.emb y) = V c main_arg4 y
  refine congrArg _ ?_
  funext a
  apply Fin.ext
  match a with
  | ⟨0, _⟩ => show win0_3.index t (0 : Fin 2) * 256 + 1 * (y 0).val = (y 0).val; rw [e0]; omega
  | ⟨1, _⟩ => show win0_3.index t (1 : Fin 2) * 1 + 1 * (y 1).val = (y 1).val; rw [e1]; omega

/-- The output bias's block at any point is the whole (one-entry) bias. -/
theorem whole0_4 (c : Dev nD) (t : Fin cfg0.N) :
    (iblk0 V c 4 t : Vec Ideal S1 .f32) = (V c main_arg5 : S1.Idx → EReal) := by
  obtain ⟨-, -, -, -, -, -, -, -, -, e0⟩ := blockIdx0 t
  unfold iblk0
  funext y
  show V c main_arg5 (((cfg0.win 4).blk t).view.emb y) = V c main_arg5 y
  refine congrArg _ ?_
  funext a
  apply Fin.ext
  match a with
  | ⟨0, _⟩ => show win0_4.index t (0 : Fin 1) * 1 + 1 * (y 0).val = (y 0).val; rw [e0]; omega

/-- Row `p` of the output's block at point `t` sits at row `3200 t + p` of the output array. -/
theorem out_row0 (t : Fin cfg0.N) (p : Fin 3200) (q : Fin 1) :
    ((((cfg0.win 5).blk t).view.emb (ix2 p q : S3200x1.Idx) : S400000x1.Idx) 0).val = 3200 * t.val + p.val := by
  obtain ⟨-, -, e0, -⟩ := blockIdx0 t
  show win0_5.index t (0 : Fin 2) * 3200 + 1 * p.val = _
  rw [e0]; omega

/-- What point `t` writes back is block `t` of the scores of the whole table: entry `(p, 0)` of the body's result is the
    score of row `p` of the table's block, which is row `3200 t + p` of the table, under the whole weights and biases. -/
theorem flushed_scores
    (hpay : ∀ (x0 : Vec Ideal S3200x256 .f32) (x1 : Vec Ideal S256x256 .f32) (x2 : Vec Ideal S256 .f32)
      (x3 : Vec Ideal S256x1 .f32) (x4 : Vec Ideal S1 .f32) (p : Fin 3200) (q : Fin 1),
      k0_pay1 (F := Ideal) x0 x1 x2 x3 x4 (ix2 p q) = scoreRow (fun j => x0 (ix2 p j)) x1 x2 x3 x4)
    (c : Dev nD) (t : Fin cfg0.N) :
    (dat0 (F := Ideal) V c).flushed 5 t = ((cfg0.win 5).blk t).view.read (Elt Ideal)
      (scoresArr (V c main_v18) (V c main_arg2) (V c main_arg3) (V c main_arg4) (V c main_arg5)) := by
  show (cfg0.win 5).cut (grid0.coords t) ((dat0 (F := Ideal) V c).after 5 t) = _
  rw [after0_5]
  unfold out0_5
  rw [View.canon_unit_zero zeros2]
  simp only [View.ld_unit_zero (S := S3200x256) zeros2, View.ld_unit_zero (S := S256x256) zeros2,
    View.ld_unit_zero (S := S256) zeros1, View.ld_unit_zero (S := S256x1) zeros2, View.ld_unit_zero (S := S1) zeros1]
  funext y
  obtain ⟨p, q, rfl⟩ : ∃ (p : Fin 3200) (q : Fin 1), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
    = scoresArr (V c main_v18) (V c main_arg2) (V c main_arg3) (V c main_arg4) (V c main_arg5)
        (((cfg0.win 5).blk t).view.emb (ix2 p q : S3200x1.Idx))
  refine (hpay _ _ _ _ _ p q).trans ?_
  unfold scoresArr
  refine scoreRow_congr (funext fun j => ?_) (whole0_1 V c t) (whole0_2 V c t) (whole0_3 V c t) (whole0_4 V c t)
  refine rows_block0 V c t (ix2 p j) _ ?_ ?_
  · exact out_row0 t p q
  · rfl

/-- An index of the output array is in point `t`'s block iff each coordinate is in the block's range on its axis. -/
theorem mem_block0 (t : Fin cfg0.N) (i : S400000x1.Idx) :
    i ∈ ((cfg0.win 5).blk t).view.set ↔ ∀ a : Fin 2, win0_5.index t a * S3200x1.size a ≤ (i a).val
      ∧ (i a).val < win0_5.index t a * S3200x1.size a + S3200x1.size a := by
  show i ∈ ((View.whole main_v19).slice (win0_5.rect t)).set ↔ _
  rw [View.set_slice_whole, Rect.mem_set_unit]
  exact Iff.rfl

/-- Every row of the output array is in some point's block: row `r` is in the block of point `r / 3200`. -/
theorem cover0 (i : S400000x1.Idx) :
    ∃ t : Fin cfg0.N, (cfg0.win 5).flush t = true ∧ i ∈ ((cfg0.win 5).blk t).view.set := by
  have hi0 : (i 0).val < 400000 := (i 0).isLt
  have hi1 : (i 1).val < 1 := (i 1).isLt
  have hN : cfg0.N = 125 := Gen.N_0
  have ht : (i 0).val / 3200 < cfg0.N := by rw [hN]; omega
  obtain ⟨-, -, e0, e1, -⟩ := blockIdx0 ⟨(i 0).val / 3200, ht⟩
  have e0' : win0_5.index ⟨(i 0).val / 3200, ht⟩ (0 : Fin 2) = (i 0).val / 3200 := e0
  refine ⟨⟨(i 0).val / 3200, ht⟩, flush0_5 _, ?_⟩
  rw [mem_block0]
  intro a
  match a with
  | ⟨0, _⟩ =>
    show win0_5.index ⟨(i 0).val / 3200, ht⟩ (0 : Fin 2) * 3200 ≤ (i 0).val
      ∧ (i 0).val < win0_5.index ⟨(i 0).val / 3200, ht⟩ (0 : Fin 2) * 3200 + 3200
    rw [e0']; omega
  | ⟨1, _⟩ =>
    show win0_5.index ⟨(i 0).val / 3200, ht⟩ (1 : Fin 2) * 1 ≤ (i 1).val
      ∧ (i 1).val < win0_5.index ⟨(i 0).val / 3200, ht⟩ (1 : Fin 2) * 1 + 1
    rw [e1]; omega

/-- The detector's output array after its region: the score of every row of the table. -/
theorem scores_array
    (hpay : ∀ (x0 : Vec Ideal S3200x256 .f32) (x1 : Vec Ideal S256x256 .f32) (x2 : Vec Ideal S256 .f32)
      (x3 : Vec Ideal S256x1 .f32) (x4 : Vec Ideal S1 .f32) (p : Fin 3200) (q : Fin 1),
      k0_pay1 (F := Ideal) x0 x1 x2 x3 x4 (ix2 p q) = scoreRow (fun j => x0 (ix2 p j)) x1 x2 x3 x4)
    (V : (c : Dev nD) → (b : Ref sig .tc) → Buf (Elt Ideal) ((c : Thread nD τ).loc b)) (c : Dev nD) :
    (dat0 (F := Ideal) V c).arrAt 5 cfg0.N
      = scoresArr (V c main_v18) (V c main_arg2) (V c main_arg3) (V c main_arg4) (V c main_arg5) :=
  (dat0 (F := Ideal) V c).arrAt_eq_of_cover 5
    (scoresArr (V c main_v18) (V c main_arg2) (V c main_arg3) (V c main_arg4) (V c main_arg5))
    (fun t _ => flushed_scores V hpay c t) cover0

/-! ## The resolver's region: 25 blocks of 2000 rows -/

/-- Two resolver rows agree when their arguments do. -/
theorem resRow_congr {row row' : Fin 256 → EReal} {W1 W1' : (⟨2, ![256, 256]⟩ : Shape).Idx → EReal}
    {b1 b1' : (⟨1, ![256]⟩ : Shape).Idx → EReal} {W2 W2' : (⟨2, ![256, 128]⟩ : Shape).Idx → EReal}
    {b2 b2' : (⟨1, ![128]⟩ : Shape).Idx → EReal} {d d' : Fin 128} (h0 : row = row') (h1 : W1 = W1') (h2 : b1 = b1')
    (h3 : W2 = W2') (h4 : b2 = b2') (h5 : d = d') : resRow row W1 b1 W2 b2 d = resRow row' W1' b1' W2' b2' d' := by
  subst h0 h1 h2 h3 h4 h5; rfl

/-- The block indices, decided over the 25 points: the table's and the output's row block at point `t` is `t`, their
    column block is 0, and the weights and biases sit at block 0 on every axis. -/
theorem blockIdx1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0 :=
  (by decide +kernel : ∀ t : Fin grid1.N, _)

/-- Row `p` of the table's block at point `t` is row `2000 t + p` of the table. -/
theorem rows_block1 (c : Dev nD) (t : Fin cfg1.N) (y : S2000x256.Idx) (k : S50000x256.Idx)
    (hk0 : (k 0).val = 2000 * t.val + (y 0).val) (hk1 : (k 1).val = (y 1).val) :
    (iblk1 V c 0 t : Vec Ideal S2000x256 .bf16) y = (V c main_v75 : S50000x256.Idx → EReal) k := by
  obtain ⟨e0, e1, -⟩ := blockIdx1 t
  unfold iblk1
  show V c main_v75 (((cfg1.win 0).blk t).view.emb y) = V c main_v75 k
  refine congrArg _ ?_
  funext a
  apply Fin.ext
  match a with
  | ⟨0, _⟩ => show win1_0.index t (0 : Fin 2) * 2000 + 1 * (y 0).val = (k 0).val; rw [e0, hk0]; omega
  | ⟨1, _⟩ => show win1_0.index t (1 : Fin 2) * 256 + 1 * (y 1).val = (k 1).val; rw [e1, hk1]; omega

/-- The first weight matrix's block at any point is the whole matrix. -/
theorem whole1_1 (c : Dev nD) (t : Fin cfg1.N) :
    (iblk1 V c 1 t : Vec Ideal S256x256 .bf16) = (V c main_v76 : S256x256.Idx → EReal) := by
  obtain ⟨-, -, -, -, e0, e1, -⟩ := blockIdx1 t
  unfold iblk1
  funext y
  show V c main_v76 (((cfg1.win 1).blk t).view.emb y) = V c main_v76 y
  refine congrArg _ ?_
  funext a
  apply Fin.ext
  match a with
  | ⟨0, _⟩ => show win1_1.index t (0 : Fin 2) * 256 + 1 * (y 0).val = (y 0).val; rw [e0]; omega
  | ⟨1, _⟩ => show win1_1.index t (1 : Fin 2) * 256 + 1 * (y 1).val = (y 1).val; rw [e1]; omega

/-- The first bias's block at any point is the whole bias. -/
theorem whole1_2 (c : Dev nD) (t : Fin cfg1.N) :
    (iblk1 V c 2 t : Vec Ideal S256 .f32) = (V c main_arg7 : S256.Idx → EReal) := by
  obtain ⟨-, -, -, -, -, -, e0, -⟩ := blockIdx1 t
  unfold iblk1
  funext y
  show V c main_arg7 (((cfg1.win 2).blk t).view.emb y) = V c main_arg7 y
  refine congrArg _ ?_
  funext a
  apply Fin.ext
  match a with
  | ⟨0, _⟩ => show win1_2.index t (0 : Fin 1) * 256 + 1 * (y 0).val = (y 0).val; rw [e0]; omega

/-- The second weight matrix's block at any point is the whole matrix. -/
theorem whole1_3 (c : Dev nD) (t : Fin cfg1.N) :
    (iblk1 V c 3 t : Vec Ideal S256x128 .bf16) = (V c main_v77 : S256x128.Idx → EReal) := by
  obtain ⟨-, -, -, -, -, -, -, e0, e1, -⟩ := blockIdx1 t
  unfold iblk1
  funext y
  show V c main_v77 (((cfg1.win 3).blk t).view.emb y) = V c main_v77 y
  refine congrArg _ ?_
  funext a
  apply Fin.ext
  match a with
  | ⟨0, _⟩ => show win1_3.index t (0 : Fin 2) * 256 + 1 * (y 0).val = (y 0).val; rw [e0]; omega
  | ⟨1, _⟩ => show win1_3.index t (1 : Fin 2) * 128 + 1 * (y 1).val = (y 1).val; rw [e1]; omega

/-- The second bias's block at any point is the whole bias. -/
theorem whole1_4 (c : Dev nD) (t : Fin cfg1.N) :
    (iblk1 V c 4 t : Vec Ideal S128 .f32) = (V c main_arg9 : S128.Idx → EReal) := by
  obtain ⟨-, -, -, -, -, -, -, -, -, e0⟩ := blockIdx1 t
  unfold iblk1
  funext y
  show V c main_arg9 (((cfg1.win 4).blk t).view.emb y) = V c main_arg9 y
  refine congrArg _ ?_
  funext a
  apply Fin.ext
  match a with
  | ⟨0, _⟩ => show win1_4.index t (0 : Fin 1) * 128 + 1 * (y 0).val = (y 0).val; rw [e0]; omega

/-- Entry `(p, d)` of the output's block at point `t` sits at row `2000 t + p`, column `d` of the output array. -/
theorem out_row1 (t : Fin cfg1.N) (p : Fin 2000) (d : Fin 128) :
    ((((cfg1.win 5).blk t).view.emb (ix2 p d : S2000x128.Idx) : S50000x128.Idx) 0).val = 2000 * t.val + p.val := by
  obtain ⟨-, -, e0, -⟩ := blockIdx1 t
  show win1_5.index t (0 : Fin 2) * 2000 + 1 * p.val = _
  rw [e0]; omega
theorem out_col1 (t : Fin cfg1.N) (p : Fin 2000) (d : Fin 128) :
    (((cfg1.win 5).blk t).view.emb (ix2 p d : S2000x128.Idx) : S50000x128.Idx) 1 = d := by
  obtain ⟨-, -, -, e1, -⟩ := blockIdx1 t
  apply Fin.ext
  show win1_5.index t (1 : Fin 2) * 128 + 1 * d.val = d.val
  rw [e1]; omega

/-- What point `t` writes back is block `t` of the resolver's outputs over the whole table: entry `(p, d)` of the
    body's result is output `d` of row `p` of the table's block, which is row `2000 t + p` of the table, under the
    whole weights and biases. -/
theorem flushed_res
    (hpay : ∀ (x0 : Vec Ideal S2000x256 .bf16) (x1 : Vec Ideal S256x256 .bf16) (x2 : Vec Ideal S256 .f32)
      (x3 : Vec Ideal S256x128 .bf16) (x4 : Vec Ideal S128 .f32) (p : Fin 2000) (d : Fin 128),
      k1_pay1 (F := Ideal) x0 x1 x2 x3 x4 (ix2 p d) = resRow (fun j => x0 (ix2 p j)) x1 x2 x3 x4 d)
    (c : Dev nD) (t : Fin cfg1.N) :
    (dat1 (F := Ideal) V c).flushed 5 t = ((cfg1.win 5).blk t).view.read (Elt Ideal)
      (resArr (V c main_v75) (V c main_v76) (V c main_arg7) (V c main_v77) (V c main_arg9)) := by
  show (cfg1.win 5).cut (grid1.coords t) ((dat1 (F := Ideal) V c).after 5 t) = _
  rw [after1_5]
  unfold out1_5
  rw [View.canon_unit_zero zeros2]
  simp only [View.ld_unit_zero (S := S2000x256) zeros2, View.ld_unit_zero (S := S256x256) zeros2,
    View.ld_unit_zero (S := S256) zeros1, View.ld_unit_zero (S := S256x128) zeros2, View.ld_unit_zero (S := S128) zeros1]
  funext y
  obtain ⟨p, d, rfl⟩ : ∃ (p : Fin 2000) (d : Fin 128), y = ix2 p d := ⟨y 0, y 1, eq_ix2 y⟩
  show k1_pay1 (F := Ideal) (iblk1 V c 0 t) (iblk1 V c 1 t) (iblk1 V c 2 t) (iblk1 V c 3 t) (iblk1 V c 4 t) (ix2 p d)
    = resArr (V c main_v75) (V c main_v76) (V c main_arg7) (V c main_v77) (V c main_arg9)
        (((cfg1.win 5).blk t).view.emb (ix2 p d : S2000x128.Idx))
  refine (hpay _ _ _ _ _ p d).trans ?_
  unfold resArr
  refine resRow_congr (funext fun j => ?_) (whole1_1 V c t) (whole1_2 V c t) (whole1_3 V c t) (whole1_4 V c t)
    (out_col1 t p d).symm
  refine rows_block1 V c t (ix2 p j) _ ?_ ?_
  · exact out_row1 t p d
  · rfl

/-- An index of the output array is in point `t`'s block iff each coordinate is in the block's range on its axis. -/
theorem mem_block1 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v78).slice (win1_5.rect t)).set ↔ _
  rw [View.set_slice_whole, Rect.mem_set_unit]
  exact Iff.rfl

/-- Every entry of the output array is in some point's block: row `r` is in the block of point `r / 2000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := Gen.N_1
  have ht : (i 0).val / 2000 < cfg1.N := by rw [hN]; omega
  obtain ⟨-, -, e0, e1, -⟩ := blockIdx1 ⟨(i 0).val / 2000, ht⟩
  have e0' : win1_5.index ⟨(i 0).val / 2000, ht⟩ (0 : Fin 2) = (i 0).val / 2000 := e0
  refine ⟨⟨(i 0).val / 2000, ht⟩, flush1_5 _, ?_⟩
  rw [mem_block1]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0']; omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e1]; omega

/-- The resolver's output array after its region: every output of every row of the table. -/
theorem resolution_array
    (hpay : ∀ (x0 : Vec Ideal S2000x256 .bf16) (x1 : Vec Ideal S256x256 .bf16) (x2 : Vec Ideal S256 .f32)
      (x3 : Vec Ideal S256x128 .bf16) (x4 : Vec Ideal S128 .f32) (p : Fin 2000) (d : Fin 128),
      k1_pay1 (F := Ideal) x0 x1 x2 x3 x4 (ix2 p d) = resRow (fun j => x0 (ix2 p j)) x1 x2 x3 x4 d)
    (V : (c : Dev nD) → (b : Ref sig .tc) → Buf (Elt Ideal) ((c : Thread nD τ).loc b)) (c : Dev nD) :
    (dat1 (F := Ideal) V c).arrAt 5 cfg1.N
      = resArr (V c main_v75) (V c main_v76) (V c main_arg7) (V c main_v77) (V c main_arg9) :=
  (dat1 (F := Ideal) V c).arrAt_eq_of_cover 5
    (resArr (V c main_v75) (V c main_v76) (V c main_arg7) (V c main_v77) (V c main_arg9))
    (fun t _ => flushed_res V hpay c t) cover1

end Cert.KernelIdeal.Arr

end
-- ==== Proof.KPay.lean ====
/-
  The two kernel bodies' arithmetic, read at one entry.

  Each body takes a block of rows and the two layers' weights and biases; entry (p, q) of what it stores is the
  perceptron of the shared specification evaluated on row p of the block: the hidden layer's 256 clipped sums, then either the
  logistic of one output sum (the detector) or output sum q itself (the resolver).
-/
import proofs.«111999_j47502338294426_2_alg».proof.Proof.Spec
import proofs.«111999_j47502338294426_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Cert.Bridge

/-! ### The operand indices of the product `d0a`: output entry (r, c) and contraction position k read the left
    operand at (r, k) and the right operand at (k, c). -/

theorem lhs_d0a_0 (i : S3200x256.Idx) (q : dot_S3200x256_S256x256_S3200x256_1_0_0_1_n_n.contr.Idx) :
    (dot_S3200x256_S256x256_S3200x256_1_0_0_1_n_n.lhsIdx i q 0).val = (i 0).val := by
  unfold DotDims.lhsIdx
  rw [dif_neg (show ¬(0 : Fin S3200x256.rank) ∈ dot_S3200x256_S256x256_S3200x256_1_0_0_1_n_n.lhsBatch by decide), dif_pos (show (0 : Fin S3200x256.rank) ∈ dot_S3200x256_S256x256_S3200x256_1_0_0_1_n_n.lhsNonContracting by decide)]
  rfl
theorem lhs_d0a_1 (i : S3200x256.Idx) (q : dot_S3200x256_S256x256_S3200x256_1_0_0_1_n_n.contr.Idx) :
    (dot_S3200x256_S256x256_S3200x256_1_0_0_1_n_n.lhsIdx i q 1).val = (q ⟨0, by decide⟩).val :=
  dot_S3200x256_S256x256_S3200x256_1_0_0_1_n_n.lhsIdx_val_of_single rfl i q
theorem rhs_d0a_0 (i : S3200x256.Idx) (q : dot_S3200x256_S256x256_S3200x256_1_0_0_1_n_n.contr.Idx) :
    (dot_S3200x256_S256x256_S3200x256_1_0_0_1_n_n.rhsIdx i q 0).val = (q ⟨0, by decide⟩).val :=
  dot_S3200x256_S256x256_S3200x256_1_0_0_1_n_n.rhsIdx_val_of_single rfl i q
theorem rhs_d0a_1 (i : S3200x256.Idx) (q : dot_S3200x256_S256x256_S3200x256_1_0_0_1_n_n.contr.Idx) :
    (dot_S3200x256_S256x256_S3200x256_1_0_0_1_n_n.rhsIdx i q 1).val = (i 1).val := by
  unfold DotDims.rhsIdx
  rw [dif_neg (show ¬(1 : Fin S256x256.rank) ∈ dot_S3200x256_S256x256_S3200x256_1_0_0_1_n_n.rhsBatch by decide), dif_pos (show (1 : Fin S256x256.rank) ∈ dot_S3200x256_S256x256_S3200x256_1_0_0_1_n_n.rhsNonContracting by decide)]
  rfl

/-- The product into the zero accumulator, read at an entry: the sum over the 256 contraction positions. -/
theorem mm_d0a {φ₁ φ₂ : FTy} (prec : Option ContractPrecision) (a : FVec Ideal S3200x256 φ₁) (b : FVec Ideal S256x256 φ₂) (i : S3200x256.Idx) :
    matmul dot_S3200x256_S256x256_S3200x256_1_0_0_1_n_n prec a b (constant S3200x256 .f32 0x00000000#32) i = ∑ k : Fin 256, (a (ix2 (i 0) k) : EReal) * (b (ix2 k (i 1)) : EReal) := by
  refine (Ideal.matmul_constant_zero_apply dot_S3200x256_S256x256_S3200x256_1_0_0_1_n_n prec a b i).trans ?_
  rw [← Equiv.sum_comp (contrEquiv1 dot_S3200x256_S256x256_S3200x256_1_0_0_1_n_n 256 rfl rfl).symm]
  refine Finset.sum_congr rfl fun k _ => ?_
  have hk := contrEquiv1_symm_val dot_S3200x256_S256x256_S3200x256_1_0_0_1_n_n 256 rfl rfl k
  have el : dot_S3200x256_S256x256_S3200x256_1_0_0_1_n_n.lhsIdx i ((contrEquiv1 dot_S3200x256_S256x256_S3200x256_1_0_0_1_n_n 256 rfl rfl).symm k) = ix2 (i 0) k := funext fun a => Fin.ext (by
    match a with
    | ⟨0, _⟩ => exact lhs_d0a_0 _ _
    | ⟨1, _⟩ => exact (lhs_d0a_1 _ _).trans hk)
  have er : dot_S3200x256_S256x256_S3200x256_1_0_0_1_n_n.rhsIdx i ((contrEquiv1 dot_S3200x256_S256x256_S3200x256_1_0_0_1_n_n 256 rfl rfl).symm k) = ix2 k (i 1) := funext fun a => Fin.ext (by
    match a with
    | ⟨0, _⟩ => exact (rhs_d0a_0 _ _).trans hk
    | ⟨1, _⟩ => exact rhs_d0a_1 _ _)
  rw [el, er]
  rfl

/-! ### The operand indices of the product `d0b`: output entry (r, c) and contraction position k read the left
    operand at (r, k) and the right operand at (k, c). -/

theorem lhs_d0b_0 (i : S3200x1.Idx) (q : dot_S3200x256_S256x1_S3200x1_1_0_0_1_n_n.contr.Idx) :
    (dot_S3200x256_S256x1_S3200x1_1_0_0_1_n_n.lhsIdx i q 0).val = (i 0).val := by
  unfold DotDims.lhsIdx
  rw [dif_neg (show ¬(0 : Fin S3200x256.rank) ∈ dot_S3200x256_S256x1_S3200x1_1_0_0_1_n_n.lhsBatch by decide), dif_pos (show (0 : Fin S3200x256.rank) ∈ dot_S3200x256_S256x1_S3200x1_1_0_0_1_n_n.lhsNonContracting by decide)]
  rfl
theorem lhs_d0b_1 (i : S3200x1.Idx) (q : dot_S3200x256_S256x1_S3200x1_1_0_0_1_n_n.contr.Idx) :
    (dot_S3200x256_S256x1_S3200x1_1_0_0_1_n_n.lhsIdx i q 1).val = (q ⟨0, by decide⟩).val :=
  dot_S3200x256_S256x1_S3200x1_1_0_0_1_n_n.lhsIdx_val_of_single rfl i q
theorem rhs_d0b_0 (i : S3200x1.Idx) (q : dot_S3200x256_S256x1_S3200x1_1_0_0_1_n_n.contr.Idx) :
    (dot_S3200x256_S256x1_S3200x1_1_0_0_1_n_n.rhsIdx i q 0).val = (q ⟨0, by decide⟩).val :=
  dot_S3200x256_S256x1_S3200x1_1_0_0_1_n_n.rhsIdx_val_of_single rfl i q
theorem rhs_d0b_1 (i : S3200x1.Idx) (q : dot_S3200x256_S256x1_S3200x1_1_0_0_1_n_n.contr.Idx) :
    (dot_S3200x256_S256x1_S3200x1_1_0_0_1_n_n.rhsIdx i q 1).val = (i 1).val := by
  unfold DotDims.rhsIdx
  rw [dif_neg (show ¬(1 : Fin S256x1.rank) ∈ dot_S3200x256_S256x1_S3200x1_1_0_0_1_n_n.rhsBatch by decide), dif_pos (show (1 : Fin S256x1.rank) ∈ dot_S3200x256_S256x1_S3200x1_1_0_0_1_n_n.rhsNonContracting by decide)]
  rfl

/-- The product into the zero accumulator, read at an entry: the sum over the 256 contraction positions. -/
theorem mm_d0b {φ₁ φ₂ : FTy} (prec : Option ContractPrecision) (a : FVec Ideal S3200x256 φ₁) (b : FVec Ideal S256x1 φ₂) (i : S3200x1.Idx) :
    matmul dot_S3200x256_S256x1_S3200x1_1_0_0_1_n_n prec a b (constant S3200x1 .f32 0x00000000#32) i = ∑ k : Fin 256, (a (ix2 (i 0) k) : EReal) * (b (ix2 k (i 1)) : EReal) := by
  refine (Ideal.matmul_constant_zero_apply dot_S3200x256_S256x1_S3200x1_1_0_0_1_n_n prec a b i).trans ?_
  rw [← Equiv.sum_comp (contrEquiv1 dot_S3200x256_S256x1_S3200x1_1_0_0_1_n_n 256 rfl rfl).symm]
  refine Finset.sum_congr rfl fun k _ => ?_
  have hk := contrEquiv1_symm_val dot_S3200x256_S256x1_S3200x1_1_0_0_1_n_n 256 rfl rfl k
  have el : dot_S3200x256_S256x1_S3200x1_1_0_0_1_n_n.lhsIdx i ((contrEquiv1 dot_S3200x256_S256x1_S3200x1_1_0_0_1_n_n 256 rfl rfl).symm k) = ix2 (i 0) k := funext fun a => Fin.ext (by
    match a with
    | ⟨0, _⟩ => exact lhs_d0b_0 _ _
    | ⟨1, _⟩ => exact (lhs_d0b_1 _ _).trans hk)
  have er : dot_S3200x256_S256x1_S3200x1_1_0_0_1_n_n.rhsIdx i ((contrEquiv1 dot_S3200x256_S256x1_S3200x1_1_0_0_1_n_n 256 rfl rfl).symm k) = ix2 k (i 1) := funext fun a => Fin.ext (by
    match a with
    | ⟨0, _⟩ => exact (rhs_d0b_0 _ _).trans hk
    | ⟨1, _⟩ => exact rhs_d0b_1 _ _)
  rw [el, er]
  rfl

/-! ### The operand indices of the product `d1a`: output entry (r, c) and contraction position k read the left
    operand at (r, k) and the right operand at (k, c). -/

theorem lhs_d1a_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_d1a_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_d1a_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_d1a_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product into the zero accumulator, read at an entry: the sum over the 256 contraction positions. -/
theorem mm_d1a {φ₁ φ₂ : FTy} (prec : Option ContractPrecision) (a : FVec Ideal S2000x256 φ₁) (b : FVec Ideal S256x256 φ₂) (i : S2000x256.Idx) :
    matmul dot_S2000x256_S256x256_S2000x256_1_0_0_1_n_n prec a b (constant S2000x256 .f32 0x00000000#32) i = ∑ k : Fin 256, (a (ix2 (i 0) k) : EReal) * (b (ix2 k (i 1)) : EReal) := by
  refine (Ideal.matmul_constant_zero_apply dot_S2000x256_S256x256_S2000x256_1_0_0_1_n_n prec a b i).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx i ((contrEquiv1 dot_S2000x256_S256x256_S2000x256_1_0_0_1_n_n 256 rfl rfl).symm k) = ix2 (i 0) k := funext fun a => Fin.ext (by
    match a with
    | ⟨0, _⟩ => exact lhs_d1a_0 _ _
    | ⟨1, _⟩ => exact (lhs_d1a_1 _ _).trans hk)
  have er : dot_S2000x256_S256x256_S2000x256_1_0_0_1_n_n.rhsIdx i ((contrEquiv1 dot_S2000x256_S256x256_S2000x256_1_0_0_1_n_n 256 rfl rfl).symm k) = ix2 k (i 1) := funext fun a => Fin.ext (by
    match a with
    | ⟨0, _⟩ => exact (rhs_d1a_0 _ _).trans hk
    | ⟨1, _⟩ => exact rhs_d1a_1 _ _)
  rw [el, er]
  rfl

/-! ### The operand indices of the product `d1b`: output entry (r, c) and contraction position k read the left
    operand at (r, k) and the right operand at (k, c). -/

theorem lhs_d1b_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_d1b_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_d1b_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_d1b_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The product into the zero accumulator, read at an entry: the sum over the 256 contraction positions. -/
theorem mm_d1b {φ₁ φ₂ : FTy} (prec : Option ContractPrecision) (a : FVec Ideal S2000x256 φ₁) (b : FVec Ideal S256x128 φ₂) (i : S2000x128.Idx) :
    matmul dot_S2000x256_S256x128_S2000x128_1_0_0_1_n_n prec a b (constant S2000x128 .f32 0x00000000#32) i = ∑ k : Fin 256, (a (ix2 (i 0) k) : EReal) * (b (ix2 k (i 1)) : EReal) := by
  refine (Ideal.matmul_constant_zero_apply dot_S2000x256_S256x128_S2000x128_1_0_0_1_n_n prec a b i).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx i ((contrEquiv1 dot_S2000x256_S256x128_S2000x128_1_0_0_1_n_n 256 rfl rfl).symm k) = ix2 (i 0) k := funext fun a => Fin.ext (by
    match a with
    | ⟨0, _⟩ => exact lhs_d1b_0 _ _
    | ⟨1, _⟩ => exact (lhs_d1b_1 _ _).trans hk)
  have er : dot_S2000x256_S256x128_S2000x128_1_0_0_1_n_n.rhsIdx i ((contrEquiv1 dot_S2000x256_S256x128_S2000x128_1_0_0_1_n_n 256 rfl rfl).symm k) = ix2 k (i 1) := funext fun a => Fin.ext (by
    match a with
    | ⟨0, _⟩ => exact (rhs_d1b_0 _ _).trans hk
    | ⟨1, _⟩ => exact rhs_d1b_1 _ _)
  rw [el, er]
  rfl

/-! ### A bias vector, given a leading axis of length one and repeated down the rows, read at an entry. -/

/-- Entry (r, c) of a length-`n` vector repeated down `R` rows is the vector's entry c. -/
theorem bias_apply {R n : Nat} (hn : n ≠ 1) (v : (⟨1, ![n]⟩ : Shape).Idx → EReal)
    (h1 : (⟨1, ![n]⟩ : Shape).ShapeCasts ⟨2, ![1, n]⟩) (h2 : (⟨2, ![1, n]⟩ : Shape).Broadcasts ⟨2, ![R, n]⟩)
    (r : Fin R) (c : Fin n) :
    broadcastTo (⟨2, ![R, n]⟩ : Shape) (shapeCast (⟨2, ![1, n]⟩ : Shape) v h1) h2 (ix2 r c) = v (ix1 c) := by
  refine (broadcastTo_apply _ h2 (ix2 r c) (ix2 (0 : Fin 1) c) (fun a => ?_)).trans ?_
  · match a with
    | ⟨0, _⟩ => exact (if_pos rfl).symm
    | ⟨1, _⟩ => exact (if_neg hn).symm
  · refine (shapeCast_addUnit_apply ![n] v h1 (ix2 (0 : Fin 1) c)).trans (congrArg v (funext fun a => ?_))
    match a with
    | ⟨0, _⟩ => rfl

/-- The same for a vector of length one: every entry of the column is the vector's one entry. -/
theorem bias1_apply {R : Nat} (v : (⟨1, ![1]⟩ : Shape).Idx → EReal)
    (h1 : (⟨1, ![1]⟩ : Shape).ShapeCasts ⟨2, ![1, 1]⟩) (h2 : (⟨2, ![1, 1]⟩ : Shape).Broadcasts ⟨2, ![R, 1]⟩)
    (r : Fin R) (c : Fin 1) :
    broadcastTo (⟨2, ![R, 1]⟩ : Shape) (shapeCast (⟨2, ![1, 1]⟩ : Shape) v h1) h2 (ix2 r c) = v (ix1 (0 : Fin 1)) := by
  refine (broadcastTo_apply _ h2 (ix2 r c) (ix2 (0 : Fin 1) (0 : Fin 1)) (fun a => ?_)).trans ?_
  · match a with
    | ⟨0, _⟩ => exact (if_pos rfl).symm
    | ⟨1, _⟩ => exact (if_pos rfl).symm
  · refine (shapeCast_addUnit_apply ![1] v h1 (ix2 (0 : Fin 1) (0 : Fin 1))).trans (congrArg v (funext fun a => ?_))
    match a with
    | ⟨0, _⟩ => rfl

/-! ### The detector's body -/

/-- Entry (p, q) of what the detector's body stores is the score of row p of its block. -/
theorem k0_pay1_apply (x0 : Vec Ideal S3200x256 .f32) (x1 : Vec Ideal S256x256 .f32) (x2 : Vec Ideal S256 .f32)
    (x3 : Vec Ideal S256x1 .f32) (x4 : Vec Ideal S1 .f32) (p : Fin 3200) (q : Fin 1) :
    k0_pay1 (F := Ideal) x0 x1 x2 x3 x4 (ix2 p q) = scoreRow (fun j => x0 (ix2 p j)) x1 x2 x3 x4 := by
  obtain rfl : q = 0 := Subsingleton.elim _ _
  unfold k0_pay1 scoreRow
  show Ideal.logistic (_ + _) = _
  rw [mm_d0b, bias1_apply]
  refine congrArg Ideal.logistic (congrArg (· + x4 (ix1 (0 : Fin 1))) (Finset.sum_congr rfl fun k _ => ?_))
  refine congrArg (· * x3 (ix2 k (0 : Fin 1))) ?_
  show max (_ + _) _ = hid _ x1 x2 k
  rw [mm_d0a, bias_apply (by decide), shapeCast_self]
  rfl

/-! ### The resolver's body -/

/-- Entry (p, d) of what the resolver's body stores is output d of row p of its block. -/
theorem k1_pay1_apply (x0 : Vec Ideal S2000x256 .bf16) (x1 : Vec Ideal S256x256 .bf16) (x2 : Vec Ideal S256 .f32)
    (x3 : Vec Ideal S256x128 .bf16) (x4 : Vec Ideal S128 .f32) (p : Fin 2000) (d : Fin 128) :
    k1_pay1 (F := Ideal) x0 x1 x2 x3 x4 (ix2 p d) = resRow (fun j => x0 (ix2 p j)) x1 x2 x3 x4 d := by
  unfold k1_pay1 resRow
  show _ + _ = _
  rw [mm_d1b, bias_apply (by decide), shapeCast_self, shapeCast_self, shapeCast_self]
  refine congrArg (· + x4 (ix1 d)) (Finset.sum_congr rfl fun k _ => ?_)
  refine congrArg (· * x3 (ix2 k d)) ?_
  show max (_ + _) _ = hid _ x1 x2 k
  rw [mm_d1a, bias_apply (by decide)]
  rfl

end Cert.KernelIdeal.Pay

end
-- ==== Proof.KFold.lean ====
/-
  What the idealized kernel program's two result buffers hold after the run, as functions of the arguments.

  The buffer contents at the program's segment boundaries are a fold from the launch memory: host operations, the
  detector's pallas_call (whose output array is the table of scores of the staged pair rows), host operations, the
  resolver's pallas_call (whose output array is the table of resolver rows of the staged winner rows), host operations.
  Walking the fold from the results back to the launch memory:
    * the scores are the detector's score of every edge's pair of embedding rows;
    * the resolved embeddings are the blend of every node's embedding with the resolver's vector of the node's winning
      edge, where the winning edge is read off those scores.
-/
import proofs.«111999_j47502338294426_2_alg».proof.Proof.Gen.KernelIdeal.Frame
import proofs.«111999_j47502338294426_2_alg».proof.Proof.KStretch
import proofs.«111999_j47502338294426_2_alg».proof.Proof.KArr
import proofs.«111999_j47502338294426_2_alg».proof.Proof.KPay
import proofs.«111999_j47502338294426_2_alg».proof.Proof.Spec

set_option maxRecDepth 16384

noncomputable section

namespace Cert.KernelIdeal.Fold

open Cert.KernelIdeal Cert.KernelIdeal.Gen Cert.KernelIdeal.Terms Cert.KernelIdeal.Stretch Cert.Bridge
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Every edge's pair of embedding rows, from the arguments. -/
abbrev pairArg : (⟨S400000x256, .f32⟩ : BufTy).Contents (Elt Ideal) :=
  pairOf (m ((c : Thread nD τ).loc main_arg0)) (srcOf (m ((c : Thread nD τ).loc main_arg1))) (dstOf (m ((c : Thread nD τ).loc main_arg1)))

/-- The detector's score of every edge, from the arguments. -/
abbrev scoresArg : (⟨S400000, .f32⟩ : BufTy).Contents (Elt Ideal) :=
  shapeCast _ (scoresArr (pairArg m c) (m ((c : Thread nD τ).loc main_arg2)) (m ((c : Thread nD τ).loc main_arg3)) (m ((c : Thread nD τ).loc main_arg4)) (m ((c : Thread nD τ).loc main_arg5)) : (⟨S400000x1, .f32⟩ : BufTy).Contents (Elt Ideal)) Gen.shapeCasts_S400000x1_S400000

/-- Per node, the largest position (from one) of a contradicting edge touching it, from the arguments. -/
abbrev lastArg : (⟨S50000, .i32⟩ : BufTy).Contents (Elt Ideal) :=
  lastOf (Terms.orderOf (scoresArg m c)) (srcOf (m ((c : Thread nD τ).loc main_arg1))) (dstOf (m ((c : Thread nD τ).loc main_arg1)))

/-- The resolver's first weight matrix in the narrower float format (the same numbers over the extended reals). -/
abbrev w1Arg : (⟨S256x256, .bf16⟩ : BufTy).Contents (Elt Ideal) :=
  truncf (F := Ideal) (s := S256x256) (φ := .f32) .bf16 (m ((c : Thread nD τ).loc main_arg6)) Gen.bitsLt_bf16_f32

/-- The resolver's second weight matrix in the narrower float format. -/
abbrev w2Arg : (⟨S256x128, .bf16⟩ : BufTy).Contents (Elt Ideal) :=
  truncf (F := Ideal) (s := S256x128) (φ := .f32) .bf16 (m ((c : Thread nD τ).loc main_arg8)) Gen.bitsLt_bf16_f32

/-- The resolved embeddings, from the arguments. -/
abbrev resolvedArg : (⟨S50000x128, .f32⟩ : BufTy).Contents (Elt Ideal) :=
  blendOf (m ((c : Thread nD τ).loc main_arg0)) (lastArg m c)
    (resArr (winnerPairOf (m ((c : Thread nD τ).loc main_arg0)) (srcOf (m ((c : Thread nD τ).loc main_arg1))) (dstOf (m ((c : Thread nD τ).loc main_arg1))) (idxOf (lastArg m c)))
      (w1Arg m c) (m ((c : Thread nD τ).loc main_arg7)) (w2Arg m c) (m ((c : Thread nD τ).loc main_arg9)))

theorem after3 {F : FTy → Type} [FloatOps F] (A B C : List (HloOp τ sig (Elt F))) (W : Valuation τ sig (Elt F)) :
    StableHlo.after (A ++ (B ++ C)) W = StableHlo.after C (StableHlo.after B (StableHlo.after A W)) := by
  rw [StableHlo.after_append, StableHlo.after_append]

/-! ## At the detector's entry -/

theorem W1_pair : W1 m ρ c (Proc.devRef .tc main_v18) = pairArg m c := by
  show StableHlo.after hostOps0 (W0 m ρ c) _ = _
  rw [pre_pair]
theorem W1_src : W1 m ρ c (Proc.devRef .tc main_v1) = srcOf (m ((c : Thread nD τ).loc main_arg1)) := by
  show StableHlo.after hostOps0 (W0 m ρ c) _ = _
  rw [pre_src]
theorem W1_dst : W1 m ρ c (Proc.devRef .tc main_v3) = dstOf (m ((c : Thread nD τ).loc main_arg1)) := by
  show StableHlo.after hostOps0 (W0 m ρ c) _ = _
  rw [pre_dst]
theorem W1_arg0 : W1 m ρ c (Proc.devRef .tc main_arg0) = (m ((c : Thread nD τ).loc main_arg0)) := by
  show StableHlo.after hostOps0 (W0 m ρ c) _ = _
  rw [pre_keep_arg0]
theorem W1_arg2 : W1 m ρ c (Proc.devRef .tc main_arg2) = (m ((c : Thread nD τ).loc main_arg2)) := by
  show StableHlo.after hostOps0 (W0 m ρ c) _ = _
  rw [pre_keep_arg2]
theorem W1_arg3 : W1 m ρ c (Proc.devRef .tc main_arg3) = (m ((c : Thread nD τ).loc main_arg3)) := by
  show StableHlo.after hostOps0 (W0 m ρ c) _ = _
  rw [pre_keep_arg3]
theorem W1_arg4 : W1 m ρ c (Proc.devRef .tc main_arg4) = (m ((c : Thread nD τ).loc main_arg4)) := by
  show StableHlo.after hostOps0 (W0 m ρ c) _ = _
  rw [pre_keep_arg4]
theorem W1_arg5 : W1 m ρ c (Proc.devRef .tc main_arg5) = (m ((c : Thread nD τ).loc main_arg5)) := by
  show StableHlo.after hostOps0 (W0 m ρ c) _ = _
  rw [pre_keep_arg5]
theorem W1_arg6 : W1 m ρ c (Proc.devRef .tc main_arg6) = (m ((c : Thread nD τ).loc main_arg6)) := by
  show StableHlo.after hostOps0 (W0 m ρ c) _ = _
  rw [pre_keep_arg6]
theorem W1_arg7 : W1 m ρ c (Proc.devRef .tc main_arg7) = (m ((c : Thread nD τ).loc main_arg7)) := by
  show StableHlo.after hostOps0 (W0 m ρ c) _ = _
  rw [pre_keep_arg7]
theorem W1_arg8 : W1 m ρ c (Proc.devRef .tc main_arg8) = (m ((c : Thread nD τ).loc main_arg8)) := by
  show StableHlo.after hostOps0 (W0 m ρ c) _ = _
  rw [pre_keep_arg8]
theorem W1_arg9 : W1 m ρ c (Proc.devRef .tc main_arg9) = (m ((c : Thread nD τ).loc main_arg9)) := by
  show StableHlo.after hostOps0 (W0 m ρ c) _ = _
  rw [pre_keep_arg9]

/-! ## At the detector's exit -/

theorem W2_scores2 : W2 m ρ c (Proc.devRef .tc main_v19) = scoresArr (pairArg m c) (m ((c : Thread nD τ).loc main_arg2)) (m ((c : Thread nD τ).loc main_arg3)) (m ((c : Thread nD τ).loc main_arg4)) (m ((c : Thread nD τ).loc main_arg5)) := by
  refine (W2_arr m ρ c 5).trans ?_
  rw [Arr.scores_array Pay.k0_pay1_apply (V1 m ρ) c]
  show scoresArr (W1 m ρ c (Proc.devRef .tc main_v18)) (W1 m ρ c (Proc.devRef .tc main_arg2)) (W1 m ρ c (Proc.devRef .tc main_arg3)) (W1 m ρ c (Proc.devRef .tc main_arg4)) (W1 m ρ c (Proc.devRef .tc main_arg5)) = _
  rw [W1_pair, W1_arg2, W1_arg3, W1_arg4, W1_arg5]
theorem W2_src : W2 m ρ c (Proc.devRef .tc main_v1) = srcOf (m ((c : Thread nD τ).loc main_arg1)) := (W2_of_ne m ρ c main_v1 (by decide)).trans (W1_src m ρ c)
theorem W2_dst : W2 m ρ c (Proc.devRef .tc main_v3) = dstOf (m ((c : Thread nD τ).loc main_arg1)) := (W2_of_ne m ρ c main_v3 (by decide)).trans (W1_dst m ρ c)
theorem W2_arg0 : W2 m ρ c (Proc.devRef .tc main_arg0) = (m ((c : Thread nD τ).loc main_arg0)) := (W2_of_ne m ρ c main_arg0 (by decide)).trans (W1_arg0 m ρ c)
theorem W2_arg6 : W2 m ρ c (Proc.devRef .tc main_arg6) = (m ((c : Thread nD τ).loc main_arg6)) := (W2_of_ne m ρ c main_arg6 (by decide)).trans (W1_arg6 m ρ c)
theorem W2_arg7 : W2 m ρ c (Proc.devRef .tc main_arg7) = (m ((c : Thread nD τ).loc main_arg7)) := (W2_of_ne m ρ c main_arg7 (by decide)).trans (W1_arg7 m ρ c)
theorem W2_arg8 : W2 m ρ c (Proc.devRef .tc main_arg8) = (m ((c : Thread nD τ).loc main_arg8)) := (W2_of_ne m ρ c main_arg8 (by decide)).trans (W1_arg8 m ρ c)
theorem W2_arg9 : W2 m ρ c (Proc.devRef .tc main_arg9) = (m ((c : Thread nD τ).loc main_arg9)) := (W2_of_ne m ρ c main_arg9 (by decide)).trans (W1_arg9 m ρ c)

/-! ## After the marks (the first two host stretches after the detector) -/

theorem W4_scores : W4 m ρ c (Proc.devRef .tc main_v20) = scoresArg m c := by
  show StableHlo.after hostOps1_1 (StableHlo.after hostOps1 (W2 m ρ c)) _ = _
  rw [mid2_keep_v20, mid_scores, W2_scores2]
theorem W4_order : W4 m ρ c (Proc.devRef .tc main_v26) = Terms.orderOf (scoresArg m c) := by
  show StableHlo.after hostOps1_1 (StableHlo.after hostOps1 (W2 m ρ c)) _ = _
  rw [mid_order, W2_scores2]
theorem W4_src : W4 m ρ c (Proc.devRef .tc main_v1) = srcOf (m ((c : Thread nD τ).loc main_arg1)) := by
  show StableHlo.after hostOps1_1 (StableHlo.after hostOps1 (W2 m ρ c)) _ = _
  rw [mid2_keep_v1, mid1_keep_v1, W2_src]
theorem W4_dst : W4 m ρ c (Proc.devRef .tc main_v3) = dstOf (m ((c : Thread nD τ).loc main_arg1)) := by
  show StableHlo.after hostOps1_1 (StableHlo.after hostOps1 (W2 m ρ c)) _ = _
  rw [mid2_keep_v3, mid1_keep_v3, W2_dst]
theorem W4_arg0 : W4 m ρ c (Proc.devRef .tc main_arg0) = (m ((c : Thread nD τ).loc main_arg0)) := by
  show StableHlo.after hostOps1_1 (StableHlo.after hostOps1 (W2 m ρ c)) _ = _
  rw [mid2_keep_arg0, mid1_keep_arg0, W2_arg0]
theorem W4_arg6 : W4 m ρ c (Proc.devRef .tc main_arg6) = (m ((c : Thread nD τ).loc main_arg6)) := by
  show StableHlo.after hostOps1_1 (StableHlo.after hostOps1 (W2 m ρ c)) _ = _
  rw [mid2_keep_arg6, mid1_keep_arg6, W2_arg6]
theorem W4_arg7 : W4 m ρ c (Proc.devRef .tc main_arg7) = (m ((c : Thread nD τ).loc main_arg7)) := by
  show StableHlo.after hostOps1_1 (StableHlo.after hostOps1 (W2 m ρ c)) _ = _
  rw [mid2_keep_arg7, mid1_keep_arg7, W2_arg7]
theorem W4_arg8 : W4 m ρ c (Proc.devRef .tc main_arg8) = (m ((c : Thread nD τ).loc main_arg8)) := by
  show StableHlo.after hostOps1_1 (StableHlo.after hostOps1 (W2 m ρ c)) _ = _
  rw [mid2_keep_arg8, mid1_keep_arg8, W2_arg8]
theorem W4_arg9 : W4 m ρ c (Proc.devRef .tc main_arg9) = (m ((c : Thread nD τ).loc main_arg9)) := by
  show StableHlo.after hostOps1_1 (StableHlo.after hostOps1 (W2 m ρ c)) _ = _
  rw [mid2_keep_arg9, mid1_keep_arg9, W2_arg9]

/-! ## At the resolver's entry -/

theorem W5_eq : W5 m ρ c = StableHlo.after midB2 (StableHlo.after midB1 (StableHlo.after midA (W4 m ρ c))) := by
  show StableHlo.after hostOps1_2 (W4 m ρ c) = _
  rw [mid_split, after3]

theorem W5_last : W5 m ρ c (Proc.devRef .tc main_v41) = lastArg m c := by
  rw [W5_eq, midB2_keep_v41, midB1_keep_v41, mid_last, W4_order, W4_src, W4_dst]
theorem W5_scores : W5 m ρ c (Proc.devRef .tc main_v20) = scoresArg m c := by
  rw [W5_eq, midB2_keep_v20, midB1_keep_v20, midA_keep_v20, W4_scores]
theorem W5_arg0 : W5 m ρ c (Proc.devRef .tc main_arg0) = (m ((c : Thread nD τ).loc main_arg0)) := by
  rw [W5_eq, midB2_keep_arg0, midB1_keep_arg0, midA_keep_arg0, W4_arg0]
theorem W5_arg7 : W5 m ρ c (Proc.devRef .tc main_arg7) = (m ((c : Thread nD τ).loc main_arg7)) := by
  rw [W5_eq, midB2_keep_arg7, midB1_keep_arg7, midA_keep_arg7, W4_arg7]
theorem W5_arg9 : W5 m ρ c (Proc.devRef .tc main_arg9) = (m ((c : Thread nD τ).loc main_arg9)) := by
  rw [W5_eq, midB2_keep_arg9, midB1_keep_arg9, midA_keep_arg9, W4_arg9]
theorem W5_w1 : W5 m ρ c (Proc.devRef .tc main_v76) = w1Arg m c := by
  rw [W5_eq, mid_w1, midB1_keep_arg6, midA_keep_arg6, W4_arg6]
theorem W5_w2 : W5 m ρ c (Proc.devRef .tc main_v77) = w2Arg m c := by
  rw [W5_eq, mid_w2, midB1_keep_arg8, midA_keep_arg8, W4_arg8]
theorem W5_pair : W5 m ρ c (Proc.devRef .tc main_v75)
    = winnerPairOf (m ((c : Thread nD τ).loc main_arg0)) (srcOf (m ((c : Thread nD τ).loc main_arg1))) (dstOf (m ((c : Thread nD τ).loc main_arg1))) (idxOf (lastArg m c)) := by
  rw [W5_eq, mid_pair, mid_rows_src, mid_rows_dst, mid_idx, midA_keep_arg0, midA_keep_v1, midA_keep_v3,
    W4_order, W4_src, W4_dst, W4_arg0]
  rfl

/-! ## At the resolver's exit, and the results -/

theorem W6_res : W6 m ρ c (Proc.devRef .tc main_v78)
    = resArr (winnerPairOf (m ((c : Thread nD τ).loc main_arg0)) (srcOf (m ((c : Thread nD τ).loc main_arg1))) (dstOf (m ((c : Thread nD τ).loc main_arg1))) (idxOf (lastArg m c)))
        (w1Arg m c) (m ((c : Thread nD τ).loc main_arg7)) (w2Arg m c) (m ((c : Thread nD τ).loc main_arg9)) := by
  refine (W6_arr m ρ c 5).trans ?_
  rw [Arr.resolution_array Pay.k1_pay1_apply (V5 m ρ) c]
  show resArr (W5 m ρ c (Proc.devRef .tc main_v75)) (W5 m ρ c (Proc.devRef .tc main_v76)) (W5 m ρ c (Proc.devRef .tc main_arg7)) (W5 m ρ c (Proc.devRef .tc main_v77)) (W5 m ρ c (Proc.devRef .tc main_arg9)) = _
  rw [W5_pair, W5_w1, W5_arg7, W5_w2, W5_arg9]

/-- The resolved embeddings after the run. -/
theorem resolved_eq : W8 m ρ c (Proc.devRef .tc main_v85) = resolvedArg m c := by
  show StableHlo.after hostOps2_1 (StableHlo.after hostOps2 (W6 m ρ c)) _ = _
  rw [post_blend, W6_res, W6_of_ne m ρ c main_v41 (by decide), W6_of_ne m ρ c main_arg0 (by decide), W5_last, W5_arg0]

/-- The scores after the run. -/
theorem scores_eq : W8 m ρ c (Proc.devRef .tc main_v20) = scoresArg m c := by
  show StableHlo.after hostOps2_1 (StableHlo.after hostOps2 (W6 m ρ c)) _ = _
  rw [post_keep_scores, W6_of_ne m ρ c main_v20 (by decide), W5_scores]

end Cert.KernelIdeal.Fold

end
-- ==== Proof.RefTerms.lean ====
/-
  The reference program's operations as a handful of named functions.

  The reference works on whole arrays throughout: it takes the two rows of the edge list apart (`srcOf`, `dstOf`), turns a
  possibly negative node number into a row number (`wrapNode`), gathers an embedding row per edge and lays source and
  destination rows side by side (`pairOf`); runs the detector and the resolver over EVERY edge's row (`scoresHost`,
  `resHost`: two matrix products each, a bias after each, a clip at zero in between, and for the detector the logistic
  function spelt as 1 / (1 + exp (-x))); marks the contradicting edges and keeps per node the largest position of one
  that touches it (`orderOf`, `lastOf`), the winning edge's position (`idxOf`, `wrapEdge`), the resolver's row of that edge
  (`winnerResOf`), and the blend of a node's embedding with it (`blendOf`).  Each function is the program's own
  composition of operations.
-/
import proofs.«111999_j47502338294426_2_alg».proof.Proof.Gen.ReferenceIdeal

noncomputable section

namespace Cert.ReferenceIdeal.Terms

open Cert.ReferenceIdeal Cert.ReferenceIdeal.Facts₀ Cert.ReferenceIdeal.Facts Idealize.ShloMosaic

variable {F : FTy → Type} [FloatOps F]

/-- The edges' source nodes: row 0 of the edge list. -/
def srcOf (x1 : (⟨S2x400000, .i32⟩ : BufTy).Contents (Elt F)) : (⟨S400000, .i32⟩ : BufTy).Contents (Elt F) :=
  shapeCast _ (extractStridedSlice S1x400000 ![0, 0] x1 slices_S2x400000_S1x400000_0_0) shapeCasts_S1x400000_S400000

/-- The edges' destination nodes: row 1 of the edge list. -/
def dstOf (x1 : (⟨S2x400000, .i32⟩ : BufTy).Contents (Elt F)) : (⟨S400000, .i32⟩ : BufTy).Contents (Elt F) :=
  shapeCast _ (extractStridedSlice S1x400000 ![1, 0] x1 slices_S2x400000_S1x400000_1_0) shapeCasts_S1x400000_S400000

/-- A node number per edge made a row number: a negative one counts from the end of the 50000 nodes. -/
def wrapNode (v : (⟨S400000, .i32⟩ : BufTy).Contents (Elt F)) : (⟨S400000, .i32⟩ : BufTy).Contents (Elt F) :=
  select (cmpi .slt v (broadcastInDim S400000 ![] bcast_S_S400000 (constantI S_ 32 0#32)))
    (addi v (broadcastInDim S400000 ![] bcast_S_S400000 (constantI S_ 32 50000#32))) v

/-- One embedding row per edge: the row of the edge's node. -/
def rowsOf (x0 : (⟨S50000x128, .f32⟩ : BufTy).Contents (Elt F)) (v : (⟨S400000, .i32⟩ : BufTy).Contents (Elt F)) : (⟨S400000x128, .f32⟩ : BufTy).Contents (Elt F) :=
  Host.gather gather_S50000x128_S400000x1_S400000x128_1_0_n_n_0_1_1128 x0
    (broadcastInDim S400000x1 ![0] bcast_S400000_S400000x1_0 (wrapNode v))

/-- Per edge, its source's embedding row followed by its destination's: 256 numbers. -/
def pairOf (x0 : (⟨S50000x128, .f32⟩ : BufTy).Contents (Elt F)) (s d : (⟨S400000, .i32⟩ : BufTy).Contents (Elt F)) : (⟨S400000x256, .f32⟩ : BufTy).Contents (Elt F) :=
  concatenate S400000x256 1 [⟨S400000x128, rowsOf x0 s⟩, ⟨S400000x128, rowsOf x0 d⟩] concatenates_S400000x128_S400000x128_S400000x256_d1

/-- Per edge: its position counted from one if its score exceeds one half, zero otherwise. -/
def orderOf (scores : (⟨S400000, .f32⟩ : BufTy).Contents (Elt F)) : (⟨S400000, .i32⟩ : BufTy).Contents (Elt F) :=
  select (cmpf .ogt scores (broadcastInDim S400000 ![] bcast_S_S400000 (constant S_ .f32 0x3F000000#32)))
    (addi (broadcastInDim S400000 ![] bcast_S_S400000 (constantI S_ 32 1#32)) (iotaInDim S400000 32 0))
    (broadcastInDim S400000 ![] bcast_S_S400000 (id (constantI S_ 32 0#32)))

/-- Per node: the largest `orderOf` over the edges whose source or destination is the node, zero if there is none. -/
def lastOf (order s d : (⟨S400000, .i32⟩ : BufTy).Contents (Elt F)) : (⟨S50000, .i32⟩ : BufTy).Contents (Elt F) :=
  Host.scatter scatter_S50000_S400000x1_S400000_n_0_0_1 IntOp.maxsi
    (Host.scatter scatter_S50000_S400000x1_S400000_n_0_0_1 IntOp.maxsi
      (broadcastInDim S50000 ![] bcast_S_S50000 (constantI S_ 32 0#32))
      (broadcastInDim S400000x1 ![0] bcast_S400000_S400000x1_0 (wrapNode s)) order)
    (broadcastInDim S400000x1 ![0] bcast_S400000_S400000x1_0 (wrapNode d)) order

/-- Per node: the winning edge's position counted from zero (zero also for a node without one). -/
def idxOf (last : (⟨S50000, .i32⟩ : BufTy).Contents (Elt F)) : (⟨S50000, .i32⟩ : BufTy).Contents (Elt F) :=
  maxsi (subi last (broadcastInDim S50000 ![] bcast_S_S50000 (constantI S_ 32 1#32)))
    (broadcastInDim S50000 ![] bcast_S_S50000 (constantI S_ 32 0#32))

/-- An edge position per node made an index into the 400000 edges: a negative one counts from the end. -/
def wrapEdge (v : (⟨S50000, .i32⟩ : BufTy).Contents (Elt F)) : (⟨S50000, .i32⟩ : BufTy).Contents (Elt F) :=
  select (cmpi .slt v (broadcastInDim S50000 ![] bcast_S_S50000 (constantI S_ 32 0#32)))
    (addi v (broadcastInDim S50000 ![] bcast_S_S50000 (constantI S_ 32 400000#32))) v

/-- Per node: half the sum of its embedding and its resolver vector where some contradicting edge touches it
    (`last > 0`), its embedding otherwise. -/
def blendOf (x0 : (⟨S50000x128, .f32⟩ : BufTy).Contents (Elt F)) (last : (⟨S50000, .i32⟩ : BufTy).Contents (Elt F)) (res : (⟨S50000x128, .f32⟩ : BufTy).Contents (Elt F)) : (⟨S50000x128, .f32⟩ : BufTy).Contents (Elt F) :=
  select (broadcastInDim S50000x128 ![0, 1] bcast_S50000x1_S50000x128_0_1
      (broadcastInDim S50000x1 ![0] bcast_S50000_S50000x1_0
        (cmpi .sgt last (broadcastInDim S50000 ![] bcast_S_S50000 (constantI S_ 32 0#32)))))
    (mulf (addf x0 res) (broadcastInDim S50000x128 ![] bcast_S_S50000x128 (constant S_ .f32 0x3F000000#32))) x0

/-- The detector over every edge's row, as the reference spells it. -/
def scoresHost (pair : (⟨S400000x256, .f32⟩ : BufTy).Contents (Elt F)) (x2 : (⟨S256x256, .f32⟩ : BufTy).Contents (Elt F)) (x3 : (⟨S256, .f32⟩ : BufTy).Contents (Elt F))
    (x4 : (⟨S256x1, .f32⟩ : BufTy).Contents (Elt F)) (x5 : (⟨S1, .f32⟩ : BufTy).Contents (Elt F)) : (⟨S400000x1, .f32⟩ : BufTy).Contents (Elt F) :=
  Host.divf (broadcastInDim S400000x1 ![] bcast_S_S400000x1 (constant S_ .f32 0x3F800000#32))
    (addf (broadcastInDim S400000x1 ![] bcast_S_S400000x1 (constant S_ .f32 0x3F800000#32))
      (Host.exp (Host.negf (addf
        (Host.dotGeneral dot_S400000x256_S256x1_S400000x1_1_0_0_1_n_n none
          (maximumf (addf (Host.dotGeneral dot_S400000x256_S256x256_S400000x256_1_0_0_1_n_n none pair x2)
              (broadcastInDim S400000x256 ![0, 1] bcast_S1x256_S400000x256_0_1 (broadcastInDim S1x256 ![1] bcast_S256_S1x256_1 x3)))
            (broadcastInDim S400000x256 ![] bcast_S_S400000x256 (constant S_ .f32 0x00000000#32))) x4)
        (broadcastInDim S400000x1 ![0, 1] bcast_S1x1_S400000x1_0_1 (broadcastInDim S1x1 ![1] bcast_S1_S1x1_1 x5))))))

/-- The resolver over every edge's row, as the reference spells it. -/
def resHost (pair : (⟨S400000x256, .f32⟩ : BufTy).Contents (Elt F)) (x6 : (⟨S256x256, .f32⟩ : BufTy).Contents (Elt F)) (x7 : (⟨S256, .f32⟩ : BufTy).Contents (Elt F))
    (x8 : (⟨S256x128, .f32⟩ : BufTy).Contents (Elt F)) (x9 : (⟨S128, .f32⟩ : BufTy).Contents (Elt F)) : (⟨S400000x128, .f32⟩ : BufTy).Contents (Elt F) :=
  addf (Host.dotGeneral dot_S400000x256_S256x128_S400000x128_1_0_0_1_n_n none
      (maximumf (addf (Host.dotGeneral dot_S400000x256_S256x256_S400000x256_1_0_0_1_n_n none pair x6)
          (broadcastInDim S400000x256 ![0, 1] bcast_S1x256_S400000x256_0_1 (broadcastInDim S1x256 ![1] bcast_S256_S1x256_1 x7)))
        (broadcastInDim S400000x256 ![] bcast_S_S400000x256 (constant S_ .f32 0x00000000#32))) x8)
    (broadcastInDim S400000x128 ![0, 1] bcast_S1x128_S400000x128_0_1 (broadcastInDim S1x128 ![1] bcast_S128_S1x128_1 x9))

/-- Per node: the resolver's row of the node's winning edge. -/
def winnerResOf (res : (⟨S400000x128, .f32⟩ : BufTy).Contents (Elt F)) (idx : (⟨S50000, .i32⟩ : BufTy).Contents (Elt F)) : (⟨S50000x128, .f32⟩ : BufTy).Contents (Elt F) :=
  Host.gather gather_S400000x128_S50000x1_S50000x128_1_0_n_n_0_1_1128 res
    (broadcastInDim S50000x1 ![0] bcast_S50000_S50000x1_0 (wrapEdge idx))

end Cert.ReferenceIdeal.Terms

end
-- ==== Proof.RefStretch.lean ====
/-
  The reference program's operations, read back in six stretches.

  The reference is one line of 110 host operations; its buffers after the run are a fold of the operations over the
  launch contents.  The line is cut into six stretches — the edge rows and the pair table; the detector; the resolver;
  the marks; the two scatter-max passes and the winning positions; the gather of the winning rows and the blend — and
  each buffer a later stretch reads is read back out of its stretch's fold from ANY starting contents `W`: a buffer the
  stretch computes is the corresponding function of `Terms` applied to what `W` holds at the stretch's inputs; a buffer
  the stretch does not write is what `W` holds there.
-/
import proofs.«111999_j47502338294426_2_alg».proof.Proof.RefRun
import proofs.«111999_j47502338294426_2_alg».proof.Proof.RefTerms
import Idealize.ShloMosaic.Lib.StableHlo.Run
import Idealize.ShloMosaic.Lib.Pipeline.Frame

set_option maxRecDepth 16384

noncomputable section

namespace Cert.ReferenceIdeal.Stretch

open Cert.ReferenceIdeal Cert.ReferenceIdeal.Gen Cert.ReferenceIdeal.Terms
open Idealize.ShloMosaic Idealize.ShloMosaic.TcCoe Idealize.SL.Sem Idealize.ShloMosaic.StableHlo

variable {F : FTy → Type} [FloatOps F]

/-- The edge rows and the pair table. -/
abbrev rA : List (HloOp τ sig (Elt F)) :=
  [ unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    nullary main_c (constantI S_ 32 0#32),
    unary main_c main_v4 (broadcastInDim S400000 ![] bcast_S_S400000 : (⟨S_, .i32⟩ : BufTy).Contents (Elt F) → (⟨S400000, .i32⟩ : BufTy).Contents (Elt F)),
    binary main_v1 main_v4 main_v5 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v6 (broadcastInDim S400000 ![] bcast_S_S400000 : (⟨S_, .i32⟩ : BufTy).Contents (Elt F) → (⟨S400000, .i32⟩ : BufTy).Contents (Elt F)),
    binary main_v1 main_v6 main_v7 (addi : (⟨S400000, .i32⟩ : BufTy).Contents (Elt F) → (⟨S400000, .i32⟩ : BufTy).Contents (Elt F) → (⟨S400000, .i32⟩ : BufTy).Contents (Elt F)),
    ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v8 main_v9 (broadcastInDim S400000x1 ![0] bcast_S400000_S400000x1_0 : (⟨S400000, .i32⟩ : BufTy).Contents (Elt F) → (⟨S400000x1, .i32⟩ : BufTy).Contents (Elt F)),
    binary main_arg0 main_v9 main_v10 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_1 (constantI S_ 32 0#32),
    unary main_c_1 main_v11 (broadcastInDim S400000 ![] bcast_S_S400000 : (⟨S_, .i32⟩ : BufTy).Contents (Elt F) → (⟨S400000, .i32⟩ : BufTy).Contents (Elt F)),
    binary main_v3 main_v11 main_v12 (cmpi .slt : (⟨S400000, .i32⟩ : BufTy).Contents (Elt F) → (⟨S400000, .i32⟩ : BufTy).Contents (Elt F) → (⟨S400000, .i1⟩ : BufTy).Contents (Elt F)),
    nullary main_c_2 (constantI S_ 32 50000#32),
    unary main_c_2 main_v13 (broadcastInDim S400000 ![] bcast_S_S400000 : (⟨S_, .i32⟩ : BufTy).Contents (Elt F) → (⟨S400000, .i32⟩ : BufTy).Contents (Elt F)),
    binary main_v3 main_v13 main_v14 (addi : (⟨S400000, .i32⟩ : BufTy).Contents (Elt F) → (⟨S400000, .i32⟩ : BufTy).Contents (Elt F) → (⟨S400000, .i32⟩ : BufTy).Contents (Elt F)),
    ternary main_v12 main_v14 main_v3 main_v15 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v15 main_v16 (broadcastInDim S400000x1 ![0] bcast_S400000_S400000x1_0 : (⟨S400000, .i32⟩ : BufTy).Contents (Elt F) → (⟨S400000x1, .i32⟩ : BufTy).Contents (Elt F)),
    binary main_arg0 main_v16 main_v17 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    binary main_v10 main_v17 main_v18 ((fun a b => concatenate S400000x256 1 [⟨S400000x128, a⟩, ⟨S400000x128, b⟩] concatenates_S400000x128_S400000x128_S400000x256_d1) : (⟨S400000x128, .f32⟩ : BufTy).Contents (Elt F) → (⟨S400000x128, .f32⟩ : BufTy).Contents (Elt F) → (⟨S400000x256, .f32⟩ : BufTy).Contents (Elt F)) ]

/-- The detector. -/
abbrev rB : List (HloOp τ sig (Elt F)) :=
  [ binary main_v18 main_arg2 main_v19 ((fun l r => Host.dotGeneral dot_S400000x256_S256x256_S400000x256_1_0_0_1_n_n none l r) : (⟨S400000x256, .f32⟩ : BufTy).Contents (Elt F) → (⟨S256x256, .f32⟩ : BufTy).Contents (Elt F) → (⟨S400000x256, .f32⟩ : BufTy).Contents (Elt F)),
    unary main_arg3 main_v20 (broadcastInDim S1x256 ![1] bcast_S256_S1x256_1 : (⟨S256, .f32⟩ : BufTy).Contents (Elt F) → (⟨S1x256, .f32⟩ : BufTy).Contents (Elt F)),
    unary main_v20 main_v21 (broadcastInDim S400000x256 ![0, 1] bcast_S1x256_S400000x256_0_1 : (⟨S1x256, .f32⟩ : BufTy).Contents (Elt F) → (⟨S400000x256, .f32⟩ : BufTy).Contents (Elt F)),
    binary main_v19 main_v21 main_v22 (addf : (⟨S400000x256, .f32⟩ : BufTy).Contents (Elt F) → (⟨S400000x256, .f32⟩ : BufTy).Contents (Elt F) → (⟨S400000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S400000x256, .f32⟩) main_call0_v0) (broadcastInDim S400000x256 ![] bcast_S_S400000x256),
    TRef.binary (TRef.of (T := ⟨S400000x256, .f32⟩) main_v22) (TRef.of (T := ⟨S400000x256, .f32⟩) main_call0_v0) (TRef.of (T := ⟨S400000x256, .f32⟩) main_v23) maximumf,
    binary main_v23 main_arg4 main_v24 ((fun l r => Host.dotGeneral dot_S400000x256_S256x1_S400000x1_1_0_0_1_n_n none l r) : (⟨S400000x256, .f32⟩ : BufTy).Contents (Elt F) → (⟨S256x1, .f32⟩ : BufTy).Contents (Elt F) → (⟨S400000x1, .f32⟩ : BufTy).Contents (Elt F)),
    unary main_arg5 main_v25 (broadcastInDim S1x1 ![1] bcast_S1_S1x1_1 : (⟨S1, .f32⟩ : BufTy).Contents (Elt F) → (⟨S1x1, .f32⟩ : BufTy).Contents (Elt F)),
    unary main_v25 main_v26 (broadcastInDim S400000x1 ![0, 1] bcast_S1x1_S400000x1_0_1 : (⟨S1x1, .f32⟩ : BufTy).Contents (Elt F) → (⟨S400000x1, .f32⟩ : BufTy).Contents (Elt F)),
    binary main_v24 main_v26 main_v27 (addf : (⟨S400000x1, .f32⟩ : BufTy).Contents (Elt F) → (⟨S400000x1, .f32⟩ : BufTy).Contents (Elt F) → (⟨S400000x1, .f32⟩ : BufTy).Contents (Elt F)),
    unary main_v27 main_v28 (Host.negf : (⟨S400000x1, .f32⟩ : BufTy).Contents (Elt F) → (⟨S400000x1, .f32⟩ : BufTy).Contents (Elt F)),
    unary main_v28 main_v29 (Host.exp : (⟨S400000x1, .f32⟩ : BufTy).Contents (Elt F) → (⟨S400000x1, .f32⟩ : BufTy).Contents (Elt F)),
    nullary main_cst (constant S_ .f32 0x3F800000#32),
    unary main_cst main_v30 (broadcastInDim S400000x1 ![] bcast_S_S400000x1 : (⟨S_, .f32⟩ : BufTy).Contents (Elt F) → (⟨S400000x1, .f32⟩ : BufTy).Contents (Elt F)),
    binary main_v30 main_v29 main_v31 (addf : (⟨S400000x1, .f32⟩ : BufTy).Contents (Elt F) → (⟨S400000x1, .f32⟩ : BufTy).Contents (Elt F) → (⟨S400000x1, .f32⟩ : BufTy).Contents (Elt F)),
    nullary main_cst_3 (constant S_ .f32 0x3F800000#32),
    unary main_cst_3 main_v32 (broadcastInDim S400000x1 ![] bcast_S_S400000x1 : (⟨S_, .f32⟩ : BufTy).Contents (Elt F) → (⟨S400000x1, .f32⟩ : BufTy).Contents (Elt F)),
    binary main_v32 main_v31 main_v33 (Host.divf : (⟨S400000x1, .f32⟩ : BufTy).Contents (Elt F) → (⟨S400000x1, .f32⟩ : BufTy).Contents (Elt F) → (⟨S400000x1, .f32⟩ : BufTy).Contents (Elt F)),
    reshape main_v33 main_v34 rfl shapeCasts_S400000x1_S400000 ]

/-- The resolver. -/
abbrev rC : List (HloOp τ sig (Elt F)) :=
  [ binary main_v18 main_arg6 main_v35 ((fun l r => Host.dotGeneral dot_S400000x256_S256x256_S400000x256_1_0_0_1_n_n none l r) : (⟨S400000x256, .f32⟩ : BufTy).Contents (Elt F) → (⟨S256x256, .f32⟩ : BufTy).Contents (Elt F) → (⟨S400000x256, .f32⟩ : BufTy).Contents (Elt F)),
    unary main_arg7 main_v36 (broadcastInDim S1x256 ![1] bcast_S256_S1x256_1 : (⟨S256, .f32⟩ : BufTy).Contents (Elt F) → (⟨S1x256, .f32⟩ : BufTy).Contents (Elt F)),
    unary main_v36 main_v37 (broadcastInDim S400000x256 ![0, 1] bcast_S1x256_S400000x256_0_1 : (⟨S1x256, .f32⟩ : BufTy).Contents (Elt F) → (⟨S400000x256, .f32⟩ : BufTy).Contents (Elt F)),
    binary main_v35 main_v37 main_v38 (addf : (⟨S400000x256, .f32⟩ : BufTy).Contents (Elt F) → (⟨S400000x256, .f32⟩ : BufTy).Contents (Elt F) → (⟨S400000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S400000x256, .f32⟩) main_call1_v0) (broadcastInDim S400000x256 ![] bcast_S_S400000x256),
    TRef.binary (TRef.of (T := ⟨S400000x256, .f32⟩) main_v38) (TRef.of (T := ⟨S400000x256, .f32⟩) main_call1_v0) (TRef.of (T := ⟨S400000x256, .f32⟩) main_v39) maximumf,
    binary main_v39 main_arg8 main_v40 ((fun l r => Host.dotGeneral dot_S400000x256_S256x128_S400000x128_1_0_0_1_n_n none l r) : (⟨S400000x256, .f32⟩ : BufTy).Contents (Elt F) → (⟨S256x128, .f32⟩ : BufTy).Contents (Elt F) → (⟨S400000x128, .f32⟩ : BufTy).Contents (Elt F)),
    unary main_arg9 main_v41 (broadcastInDim S1x128 ![1] bcast_S128_S1x128_1 : (⟨S128, .f32⟩ : BufTy).Contents (Elt F) → (⟨S1x128, .f32⟩ : BufTy).Contents (Elt F)),
    unary main_v41 main_v42 (broadcastInDim S400000x128 ![0, 1] bcast_S1x128_S400000x128_0_1 : (⟨S1x128, .f32⟩ : BufTy).Contents (Elt F) → (⟨S400000x128, .f32⟩ : BufTy).Contents (Elt F)),
    binary main_v40 main_v42 main_v43 (addf : (⟨S400000x128, .f32⟩ : BufTy).Contents (Elt F) → (⟨S400000x128, .f32⟩ : BufTy).Contents (Elt F) → (⟨S400000x128, .f32⟩ : BufTy).Contents (Elt F)) ]

/-- The marks. -/
abbrev rD : List (HloOp τ sig (Elt F)) :=
  [ nullary main_cst_4 (constant S_ .f32 0x3F000000#32),
    unary main_cst_4 main_v44 (broadcastInDim S400000 ![] bcast_S_S400000 : (⟨S_, .f32⟩ : BufTy).Contents (Elt F) → (⟨S400000, .f32⟩ : BufTy).Contents (Elt F)),
    binary main_v34 main_v44 main_v45 (cmpf .ogt : (⟨S400000, .f32⟩ : BufTy).Contents (Elt F) → (⟨S400000, .f32⟩ : BufTy).Contents (Elt F) → (⟨S400000, .i1⟩ : BufTy).Contents (Elt F)),
    nullary main_v46 (iotaInDim S400000 32 0),
    nullary main_c_5 (constantI S_ 32 1#32),
    unary main_c_5 main_v47 (broadcastInDim S400000 ![] bcast_S_S400000 : (⟨S_, .i32⟩ : BufTy).Contents (Elt F) → (⟨S400000, .i32⟩ : BufTy).Contents (Elt F)),
    binary main_v47 main_v46 main_v48 (addi : (⟨S400000, .i32⟩ : BufTy).Contents (Elt F) → (⟨S400000, .i32⟩ : BufTy).Contents (Elt F) → (⟨S400000, .i32⟩ : BufTy).Contents (Elt F)),
    nullary main_c_6 (constantI S_ 32 0#32),
    TRef.unary (TRef.of (T := ⟨S_, .i32⟩) main_c_6) (TRef.of (T := ⟨S_, .i32⟩) main_call2_v0) id,
    TRef.unary (TRef.of (T := ⟨S_, .i32⟩) main_call2_v0) (TRef.of (T := ⟨S400000, .i32⟩) main_call2_v1) (broadcastInDim S400000 ![] bcast_S_S400000),
    TRef.ternary (TRef.of (T := ⟨S400000, .i1⟩) main_v45) (TRef.of (T := ⟨S400000, .i32⟩) main_v48) (TRef.of (T := ⟨S400000, .i32⟩) main_call2_v1) (TRef.of (T := ⟨S400000, .i32⟩) main_v49) select ]

/-- The two scatter-max passes and the winning positions. -/
abbrev rE : List (HloOp τ sig (Elt F)) :=
  [ nullary main_c_7 (constantI S_ 32 0#32),
    unary main_c_7 main_v50 (broadcastInDim S50000 ![] bcast_S_S50000 : (⟨S_, .i32⟩ : BufTy).Contents (Elt F) → (⟨S50000, .i32⟩ : BufTy).Contents (Elt F)),
    nullary main_c_8 (constantI S_ 32 0#32),
    unary main_c_8 main_v51 (broadcastInDim S400000 ![] bcast_S_S400000 : (⟨S_, .i32⟩ : BufTy).Contents (Elt F) → (⟨S400000, .i32⟩ : BufTy).Contents (Elt F)),
    binary main_v1 main_v51 main_v52 (cmpi .slt : (⟨S400000, .i32⟩ : BufTy).Contents (Elt F) → (⟨S400000, .i32⟩ : BufTy).Contents (Elt F) → (⟨S400000, .i1⟩ : BufTy).Contents (Elt F)),
    nullary main_c_9 (constantI S_ 32 50000#32),
    unary main_c_9 main_v53 (broadcastInDim S400000 ![] bcast_S_S400000 : (⟨S_, .i32⟩ : BufTy).Contents (Elt F) → (⟨S400000, .i32⟩ : BufTy).Contents (Elt F)),
    binary main_v1 main_v53 main_v54 (addi : (⟨S400000, .i32⟩ : BufTy).Contents (Elt F) → (⟨S400000, .i32⟩ : BufTy).Contents (Elt F) → (⟨S400000, .i32⟩ : BufTy).Contents (Elt F)),
    ternary main_v52 main_v54 main_v1 main_v55 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v55 main_v56 (broadcastInDim S400000x1 ![0] bcast_S400000_S400000x1_0 : (⟨S400000, .i32⟩ : BufTy).Contents (Elt F) → (⟨S400000x1, .i32⟩ : BufTy).Contents (Elt F)),
    ternary main_v50 main_v56 main_v49 main_v57 ((fun x i u => Host.scatter scatter_S50000_S400000x1_S400000_n_0_0_1 IntOp.maxsi x i u) : (⟨S50000, .i32⟩ : BufTy).Contents (Elt F) → (⟨S400000x1, .i32⟩ : BufTy).Contents (Elt F) → (⟨S400000, .i32⟩ : BufTy).Contents (Elt F) → (⟨S50000, .i32⟩ : BufTy).Contents (Elt F)),
    nullary main_c_10 (constantI S_ 32 0#32),
    unary main_c_10 main_v58 (broadcastInDim S400000 ![] bcast_S_S400000 : (⟨S_, .i32⟩ : BufTy).Contents (Elt F) → (⟨S400000, .i32⟩ : BufTy).Contents (Elt F)),
    binary main_v3 main_v58 main_v59 (cmpi .slt : (⟨S400000, .i32⟩ : BufTy).Contents (Elt F) → (⟨S400000, .i32⟩ : BufTy).Contents (Elt F) → (⟨S400000, .i1⟩ : BufTy).Contents (Elt F)),
    nullary main_c_11 (constantI S_ 32 50000#32),
    unary main_c_11 main_v60 (broadcastInDim S400000 ![] bcast_S_S400000 : (⟨S_, .i32⟩ : BufTy).Contents (Elt F) → (⟨S400000, .i32⟩ : BufTy).Contents (Elt F)),
    binary main_v3 main_v60 main_v61 (addi : (⟨S400000, .i32⟩ : BufTy).Contents (Elt F) → (⟨S400000, .i32⟩ : BufTy).Contents (Elt F) → (⟨S400000, .i32⟩ : BufTy).Contents (Elt F)),
    ternary main_v59 main_v61 main_v3 main_v62 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v62 main_v63 (broadcastInDim S400000x1 ![0] bcast_S400000_S400000x1_0 : (⟨S400000, .i32⟩ : BufTy).Contents (Elt F) → (⟨S400000x1, .i32⟩ : BufTy).Contents (Elt F)),
    ternary main_v57 main_v63 main_v49 main_v64 ((fun x i u => Host.scatter scatter_S50000_S400000x1_S400000_n_0_0_1 IntOp.maxsi x i u) : (⟨S50000, .i32⟩ : BufTy).Contents (Elt F) → (⟨S400000x1, .i32⟩ : BufTy).Contents (Elt F) → (⟨S400000, .i32⟩ : BufTy).Contents (Elt F) → (⟨S50000, .i32⟩ : BufTy).Contents (Elt F)),
    nullary main_c_12 (constantI S_ 32 1#32),
    unary main_c_12 main_v65 (broadcastInDim S50000 ![] bcast_S_S50000 : (⟨S_, .i32⟩ : BufTy).Contents (Elt F) → (⟨S50000, .i32⟩ : BufTy).Contents (Elt F)),
    binary main_v64 main_v65 main_v66 (subi : (⟨S50000, .i32⟩ : BufTy).Contents (Elt F) → (⟨S50000, .i32⟩ : BufTy).Contents (Elt F) → (⟨S50000, .i32⟩ : BufTy).Contents (Elt F)),
    nullary main_c_13 (constantI S_ 32 0#32),
    unary main_c_13 main_v67 (broadcastInDim S50000 ![] bcast_S_S50000 : (⟨S_, .i32⟩ : BufTy).Contents (Elt F) → (⟨S50000, .i32⟩ : BufTy).Contents (Elt F)),
    binary main_v66 main_v67 main_v68 (maxsi : (⟨S50000, .i32⟩ : BufTy).Contents (Elt F) → (⟨S50000, .i32⟩ : BufTy).Contents (Elt F) → (⟨S50000, .i32⟩ : BufTy).Contents (Elt F)) ]

/-- The winning rows and the blend. -/
abbrev rF : List (HloOp τ sig (Elt F)) :=
  [ nullary main_c_14 (constantI S_ 32 0#32),
    unary main_c_14 main_v69 (broadcastInDim S50000 ![] bcast_S_S50000 : (⟨S_, .i32⟩ : BufTy).Contents (Elt F) → (⟨S50000, .i32⟩ : BufTy).Contents (Elt F)),
    binary main_v64 main_v69 main_v70 (cmpi .sgt : (⟨S50000, .i32⟩ : BufTy).Contents (Elt F) → (⟨S50000, .i32⟩ : BufTy).Contents (Elt F) → (⟨S50000, .i1⟩ : BufTy).Contents (Elt F)),
    unary main_v70 main_v71 (broadcastInDim S50000x1 ![0] bcast_S50000_S50000x1_0 : (⟨S50000, .i1⟩ : BufTy).Contents (Elt F) → (⟨S50000x1, .i1⟩ : BufTy).Contents (Elt F)),
    nullary main_c_15 (constantI S_ 32 0#32),
    unary main_c_15 main_v72 (broadcastInDim S50000 ![] bcast_S_S50000 : (⟨S_, .i32⟩ : BufTy).Contents (Elt F) → (⟨S50000, .i32⟩ : BufTy).Contents (Elt F)),
    binary main_v68 main_v72 main_v73 (cmpi .slt : (⟨S50000, .i32⟩ : BufTy).Contents (Elt F) → (⟨S50000, .i32⟩ : BufTy).Contents (Elt F) → (⟨S50000, .i1⟩ : BufTy).Contents (Elt F)),
    nullary main_c_16 (constantI S_ 32 400000#32),
    unary main_c_16 main_v74 (broadcastInDim S50000 ![] bcast_S_S50000 : (⟨S_, .i32⟩ : BufTy).Contents (Elt F) → (⟨S50000, .i32⟩ : BufTy).Contents (Elt F)),
    binary main_v68 main_v74 main_v75 (addi : (⟨S50000, .i32⟩ : BufTy).Contents (Elt F) → (⟨S50000, .i32⟩ : BufTy).Contents (Elt F) → (⟨S50000, .i32⟩ : BufTy).Contents (Elt F)),
    ternary main_v73 main_v75 main_v68 main_v76 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v76 main_v77 (broadcastInDim S50000x1 ![0] bcast_S50000_S50000x1_0 : (⟨S50000, .i32⟩ : BufTy).Contents (Elt F) → (⟨S50000x1, .i32⟩ : BufTy).Contents (Elt F)),
    binary main_v43 main_v77 main_v78 ((fun x i => Host.gather gather_S400000x128_S50000x1_S50000x128_1_0_n_n_0_1_1128 x i) : (⟨S400000x128, .f32⟩ : BufTy).Contents (Elt F) → (⟨S50000x1, .i32⟩ : BufTy).Contents (Elt F) → (⟨S50000x128, .f32⟩ : BufTy).Contents (Elt F)),
    binary main_arg0 main_v78 main_v79 (addf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x3F000000#32),
    unary main_cst_17 main_v80 (broadcastInDim S50000x128 ![] bcast_S_S50000x128 : (⟨S_, .f32⟩ : BufTy).Contents (Elt F) → (⟨S50000x128, .f32⟩ : BufTy).Contents (Elt F)),
    binary main_v79 main_v80 main_v81 (mulf : (⟨S50000x128, .f32⟩ : BufTy).Contents (Elt F) → (⟨S50000x128, .f32⟩ : BufTy).Contents (Elt F) → (⟨S50000x128, .f32⟩ : BufTy).Contents (Elt F)),
    TRef.unary (TRef.of (T := ⟨S50000x1, .i1⟩) main_v71) (TRef.of (T := ⟨S50000x128, .i1⟩) main_call3_v0) (broadcastInDim S50000x128 ![0, 1] bcast_S50000x1_S50000x128_0_1),
    TRef.ternary (TRef.of (T := ⟨S50000x128, .i1⟩) main_call3_v0) (TRef.of (T := ⟨S50000x128, .f32⟩) main_v81) (TRef.of (T := ⟨S50000x128, .f32⟩) main_arg0) (TRef.of (T := ⟨S50000x128, .f32⟩) main_v82) select ]

set_option maxHeartbeats 4000000 in
theorem ops_split : (Cert.ReferenceIdeal.Value.ops : List (HloOp τ sig (Elt F))) = rA ++ (rB ++ (rC ++ (rD ++ (rE ++ rF)))) := rfl

theorem rA_pair (W : Valuation τ sig (Elt F)) :
    StableHlo.after rA W (Proc.devRef .tc main_v18)
      = pairOf (W (Proc.devRef .tc main_arg0)) (srcOf (W (Proc.devRef .tc main_arg1))) (dstOf (W (Proc.devRef .tc main_arg1))) := by
  after_results_simp <;> rfl

theorem rA_src (W : Valuation τ sig (Elt F)) :
    StableHlo.after rA W (Proc.devRef .tc main_v1) = srcOf (W (Proc.devRef .tc main_arg1)) := by
  after_results_simp <;> rfl

theorem rA_dst (W : Valuation τ sig (Elt F)) :
    StableHlo.after rA W (Proc.devRef .tc main_v3) = dstOf (W (Proc.devRef .tc main_arg1)) := by
  after_results_simp <;> rfl

theorem rB_scores (W : Valuation τ sig (Elt F)) :
    StableHlo.after rB W (Proc.devRef .tc main_v34)
      = shapeCast _ (scoresHost (W (Proc.devRef .tc main_v18)) (W (Proc.devRef .tc main_arg2)) (W (Proc.devRef .tc main_arg3)) (W (Proc.devRef .tc main_arg4)) (W (Proc.devRef .tc main_arg5))) shapeCasts_S400000x1_S400000 := by
  after_results_simp <;> rfl

theorem rC_res (W : Valuation τ sig (Elt F)) :
    StableHlo.after rC W (Proc.devRef .tc main_v43)
      = resHost (W (Proc.devRef .tc main_v18)) (W (Proc.devRef .tc main_arg6)) (W (Proc.devRef .tc main_arg7)) (W (Proc.devRef .tc main_arg8)) (W (Proc.devRef .tc main_arg9)) := by
  after_results_simp <;> rfl

theorem rD_order (W : Valuation τ sig (Elt F)) :
    StableHlo.after rD W (Proc.devRef .tc main_v49) = orderOf (W (Proc.devRef .tc main_v34)) := by
  after_results_simp <;> rfl

theorem rE_last (W : Valuation τ sig (Elt F)) :
    StableHlo.after rE W (Proc.devRef .tc main_v64) = lastOf (W (Proc.devRef .tc main_v49)) (W (Proc.devRef .tc main_v1)) (W (Proc.devRef .tc main_v3)) := by
  after_results_simp <;> rfl

theorem rE_idx (W : Valuation τ sig (Elt F)) :
    StableHlo.after rE W (Proc.devRef .tc main_v68) = idxOf (lastOf (W (Proc.devRef .tc main_v49)) (W (Proc.devRef .tc main_v1)) (W (Proc.devRef .tc main_v3))) := by
  after_results_simp <;> rfl

theorem rF_blend (W : Valuation τ sig (Elt F)) :
    StableHlo.after rF W (Proc.devRef .tc main_v82)
      = blendOf (W (Proc.devRef .tc main_arg0)) (W (Proc.devRef .tc main_v64)) (winnerResOf (W (Proc.devRef .tc main_v43)) (W (Proc.devRef .tc main_v68))) := by
  after_results_simp <;> rfl

theorem rA_keep_arg0 (W : Valuation τ sig (Elt F)) : StableHlo.after rA W (Proc.devRef .tc main_arg0) = W (Proc.devRef .tc main_arg0) := by
  after_results_simp
theorem rA_keep_arg2 (W : Valuation τ sig (Elt F)) : StableHlo.after rA W (Proc.devRef .tc main_arg2) = W (Proc.devRef .tc main_arg2) := by
  after_results_simp
theorem rA_keep_arg3 (W : Valuation τ sig (Elt F)) : StableHlo.after rA W (Proc.devRef .tc main_arg3) = W (Proc.devRef .tc main_arg3) := by
  after_results_simp
theorem rA_keep_arg4 (W : Valuation τ sig (Elt F)) : StableHlo.after rA W (Proc.devRef .tc main_arg4) = W (Proc.devRef .tc main_arg4) := by
  after_results_simp
theorem rA_keep_arg5 (W : Valuation τ sig (Elt F)) : StableHlo.after rA W (Proc.devRef .tc main_arg5) = W (Proc.devRef .tc main_arg5) := by
  after_results_simp
theorem rA_keep_arg6 (W : Valuation τ sig (Elt F)) : StableHlo.after rA W (Proc.devRef .tc main_arg6) = W (Proc.devRef .tc main_arg6) := by
  after_results_simp
theorem rA_keep_arg7 (W : Valuation τ sig (Elt F)) : StableHlo.after rA W (Proc.devRef .tc main_arg7) = W (Proc.devRef .tc main_arg7) := by
  after_results_simp
theorem rA_keep_arg8 (W : Valuation τ sig (Elt F)) : StableHlo.after rA W (Proc.devRef .tc main_arg8) = W (Proc.devRef .tc main_arg8) := by
  after_results_simp
theorem rA_keep_arg9 (W : Valuation τ sig (Elt F)) : StableHlo.after rA W (Proc.devRef .tc main_arg9) = W (Proc.devRef .tc main_arg9) := by
  after_results_simp
theorem rB_keep_v18 (W : Valuation τ sig (Elt F)) : StableHlo.after rB W (Proc.devRef .tc main_v18) = W (Proc.devRef .tc main_v18) := by
  after_results_simp
theorem rB_keep_v1 (W : Valuation τ sig (Elt F)) : StableHlo.after rB W (Proc.devRef .tc main_v1) = W (Proc.devRef .tc main_v1) := by
  after_results_simp
theorem rB_keep_v3 (W : Valuation τ sig (Elt F)) : StableHlo.after rB W (Proc.devRef .tc main_v3) = W (Proc.devRef .tc main_v3) := by
  after_results_simp
theorem rB_keep_arg0 (W : Valuation τ sig (Elt F)) : StableHlo.after rB W (Proc.devRef .tc main_arg0) = W (Proc.devRef .tc main_arg0) := by
  after_results_simp
theorem rB_keep_arg6 (W : Valuation τ sig (Elt F)) : StableHlo.after rB W (Proc.devRef .tc main_arg6) = W (Proc.devRef .tc main_arg6) := by
  after_results_simp
theorem rB_keep_arg7 (W : Valuation τ sig (Elt F)) : StableHlo.after rB W (Proc.devRef .tc main_arg7) = W (Proc.devRef .tc main_arg7) := by
  after_results_simp
theorem rB_keep_arg8 (W : Valuation τ sig (Elt F)) : StableHlo.after rB W (Proc.devRef .tc main_arg8) = W (Proc.devRef .tc main_arg8) := by
  after_results_simp
theorem rB_keep_arg9 (W : Valuation τ sig (Elt F)) : StableHlo.after rB W (Proc.devRef .tc main_arg9) = W (Proc.devRef .tc main_arg9) := by
  after_results_simp
theorem rC_keep_v34 (W : Valuation τ sig (Elt F)) : StableHlo.after rC W (Proc.devRef .tc main_v34) = W (Proc.devRef .tc main_v34) := by
  after_results_simp
theorem rC_keep_v1 (W : Valuation τ sig (Elt F)) : StableHlo.after rC W (Proc.devRef .tc main_v1) = W (Proc.devRef .tc main_v1) := by
  after_results_simp
theorem rC_keep_v3 (W : Valuation τ sig (Elt F)) : StableHlo.after rC W (Proc.devRef .tc main_v3) = W (Proc.devRef .tc main_v3) := by
  after_results_simp
theorem rC_keep_arg0 (W : Valuation τ sig (Elt F)) : StableHlo.after rC W (Proc.devRef .tc main_arg0) = W (Proc.devRef .tc main_arg0) := by
  after_results_simp
theorem rD_keep_v43 (W : Valuation τ sig (Elt F)) : StableHlo.after rD W (Proc.devRef .tc main_v43) = W (Proc.devRef .tc main_v43) := by
  after_results_simp
theorem rD_keep_v1 (W : Valuation τ sig (Elt F)) : StableHlo.after rD W (Proc.devRef .tc main_v1) = W (Proc.devRef .tc main_v1) := by
  after_results_simp
theorem rD_keep_v3 (W : Valuation τ sig (Elt F)) : StableHlo.after rD W (Proc.devRef .tc main_v3) = W (Proc.devRef .tc main_v3) := by
  after_results_simp
theorem rD_keep_arg0 (W : Valuation τ sig (Elt F)) : StableHlo.after rD W (Proc.devRef .tc main_arg0) = W (Proc.devRef .tc main_arg0) := by
  after_results_simp
theorem rD_keep_v34 (W : Valuation τ sig (Elt F)) : StableHlo.after rD W (Proc.devRef .tc main_v34) = W (Proc.devRef .tc main_v34) := by
  after_results_simp
theorem rE_keep_v43 (W : Valuation τ sig (Elt F)) : StableHlo.after rE W (Proc.devRef .tc main_v43) = W (Proc.devRef .tc main_v43) := by
  after_results_simp
theorem rE_keep_arg0 (W : Valuation τ sig (Elt F)) : StableHlo.after rE W (Proc.devRef .tc main_arg0) = W (Proc.devRef .tc main_arg0) := by
  after_results_simp
theorem rE_keep_v34 (W : Valuation τ sig (Elt F)) : StableHlo.after rE W (Proc.devRef .tc main_v34) = W (Proc.devRef .tc main_v34) := by
  after_results_simp
theorem rF_keep_v34 (W : Valuation τ sig (Elt F)) : StableHlo.after rF W (Proc.devRef .tc main_v34) = W (Proc.devRef .tc main_v34) := by
  after_results_simp

end Cert.ReferenceIdeal.Stretch

end
-- ==== Proof.RefFold.lean ====
/-
  What the reference program's two result buffers hold after the run, as functions of the arguments.

  The buffer contents after the run are a fold of the program's operations over the launch memory.  The operations come
  in six stretches; walking the fold from the results back through the stretches to the launch memory:
    * the scores are the detector's score of every edge's pair of embedding rows;
    * the resolved embeddings are the blend of every node's embedding with the resolver's vector of the node's winning
      edge, where the winning edge is read off those scores.
-/
import proofs.«111999_j47502338294426_2_alg».proof.Proof.RefStretch
import proofs.«111999_j47502338294426_2_alg».proof.Proof.RefTerms
import Idealize.ShloMosaic.PureOps.Ideal

set_option maxRecDepth 16384

noncomputable section

namespace Cert.ReferenceIdeal.Fold

open Cert.ReferenceIdeal Cert.ReferenceIdeal.Gen Cert.ReferenceIdeal.Terms Cert.ReferenceIdeal.Stretch
open Idealize.ShloMosaic Idealize.ShloMosaic.TcCoe Idealize.SL.Sem Idealize.ShloMosaic.StableHlo

variable (m : (ℓ : Loc nD τ sig) → Buf (Elt Ideal) ℓ) (c : Dev nD)

/-- Every edge's pair of embedding rows, from the arguments. -/
abbrev pairArg : (⟨S400000x256, .f32⟩ : BufTy).Contents (Elt Ideal) :=
  pairOf (m ((c : Thread nD τ).loc main_arg0)) (srcOf (m ((c : Thread nD τ).loc main_arg1))) (dstOf (m ((c : Thread nD τ).loc main_arg1)))

/-- The detector's score of every edge, from the arguments. -/
abbrev scoresArg : (⟨S400000, .f32⟩ : BufTy).Contents (Elt Ideal) :=
  shapeCast _ (scoresHost (pairArg m c) (m ((c : Thread nD τ).loc main_arg2)) (m ((c : Thread nD τ).loc main_arg3)) (m ((c : Thread nD τ).loc main_arg4)) (m ((c : Thread nD τ).loc main_arg5))) Gen.shapeCasts_S400000x1_S400000

/-- Per node, the largest position (from one) of a contradicting edge touching it, from the arguments. -/
abbrev lastArg : (⟨S50000, .i32⟩ : BufTy).Contents (Elt Ideal) :=
  lastOf (Terms.orderOf (scoresArg m c)) (srcOf (m ((c : Thread nD τ).loc main_arg1))) (dstOf (m ((c : Thread nD τ).loc main_arg1)))

/-- The resolved embeddings, from the arguments. -/
abbrev resolvedArg : (⟨S50000x128, .f32⟩ : BufTy).Contents (Elt Ideal) :=
  blendOf (m ((c : Thread nD τ).loc main_arg0)) (lastArg m c)
    (winnerResOf (resHost (pairArg m c) (m ((c : Thread nD τ).loc main_arg6)) (m ((c : Thread nD τ).loc main_arg7)) (m ((c : Thread nD τ).loc main_arg8)) (m ((c : Thread nD τ).loc main_arg9))) (idxOf (lastArg m c)))

/-! ## The contents after each stretch -/

/-- After the edge rows and the pair table. -/
abbrev WA : Valuation τ sig (Elt Ideal) := StableHlo.after rA (launchContents m c)
/-- After the detector. -/
abbrev WB : Valuation τ sig (Elt Ideal) := StableHlo.after rB (WA m c)
/-- After the resolver. -/
abbrev WC : Valuation τ sig (Elt Ideal) := StableHlo.after rC (WB m c)
/-- After the marks. -/
abbrev WD : Valuation τ sig (Elt Ideal) := StableHlo.after rD (WC m c)
/-- After the scatter-max passes. -/
abbrev WE : Valuation τ sig (Elt Ideal) := StableHlo.after rE (WD m c)
/-- After the blend: the end of the run. -/
abbrev WF : Valuation τ sig (Elt Ideal) := StableHlo.after rF (WE m c)

theorem after6 {F : FTy → Type} [FloatOps F] (A B C D E G : List (HloOp τ sig (Elt F))) (W : Valuation τ sig (Elt F)) :
    StableHlo.after (A ++ (B ++ (C ++ (D ++ (E ++ G))))) W
      = StableHlo.after G (StableHlo.after E (StableHlo.after D (StableHlo.after C (StableHlo.after B (StableHlo.after A W))))) := by
  rw [StableHlo.after_append, StableHlo.after_append, StableHlo.after_append, StableHlo.after_append, StableHlo.after_append]

/-- The fold of all the operations is the fold of the six stretches in turn. -/
theorem after_ops : StableHlo.after Value.ops (launchContents m c) = WF m c := by
  rw [ops_split, after6]

/-! ## After the edge rows and the pair table -/

theorem WA_pair : WA m c (Proc.devRef .tc main_v18) = pairArg m c := rA_pair (launchContents m c)
theorem WA_src : WA m c (Proc.devRef .tc main_v1) = srcOf (m ((c : Thread nD τ).loc main_arg1)) := rA_src (launchContents m c)
theorem WA_dst : WA m c (Proc.devRef .tc main_v3) = dstOf (m ((c : Thread nD τ).loc main_arg1)) := rA_dst (launchContents m c)
theorem WA_arg0 : WA m c (Proc.devRef .tc main_arg0) = (m ((c : Thread nD τ).loc main_arg0)) := rA_keep_arg0 (launchContents m c)
theorem WA_arg2 : WA m c (Proc.devRef .tc main_arg2) = (m ((c : Thread nD τ).loc main_arg2)) := rA_keep_arg2 (launchContents m c)
theorem WA_arg3 : WA m c (Proc.devRef .tc main_arg3) = (m ((c : Thread nD τ).loc main_arg3)) := rA_keep_arg3 (launchContents m c)
theorem WA_arg4 : WA m c (Proc.devRef .tc main_arg4) = (m ((c : Thread nD τ).loc main_arg4)) := rA_keep_arg4 (launchContents m c)
theorem WA_arg5 : WA m c (Proc.devRef .tc main_arg5) = (m ((c : Thread nD τ).loc main_arg5)) := rA_keep_arg5 (launchContents m c)
theorem WA_arg6 : WA m c (Proc.devRef .tc main_arg6) = (m ((c : Thread nD τ).loc main_arg6)) := rA_keep_arg6 (launchContents m c)
theorem WA_arg7 : WA m c (Proc.devRef .tc main_arg7) = (m ((c : Thread nD τ).loc main_arg7)) := rA_keep_arg7 (launchContents m c)
theorem WA_arg8 : WA m c (Proc.devRef .tc main_arg8) = (m ((c : Thread nD τ).loc main_arg8)) := rA_keep_arg8 (launchContents m c)
theorem WA_arg9 : WA m c (Proc.devRef .tc main_arg9) = (m ((c : Thread nD τ).loc main_arg9)) := rA_keep_arg9 (launchContents m c)

/-! ## After the detector -/

theorem WB_scores : WB m c (Proc.devRef .tc main_v34) = scoresArg m c := by
  refine (rB_scores (WA m c)).trans ?_
  rw [WA_pair, WA_arg2, WA_arg3, WA_arg4, WA_arg5]
theorem WB_pair : WB m c (Proc.devRef .tc main_v18) = pairArg m c := (rB_keep_v18 (WA m c)).trans (WA_pair m c)
theorem WB_src : WB m c (Proc.devRef .tc main_v1) = srcOf (m ((c : Thread nD τ).loc main_arg1)) := (rB_keep_v1 (WA m c)).trans (WA_src m c)
theorem WB_dst : WB m c (Proc.devRef .tc main_v3) = dstOf (m ((c : Thread nD τ).loc main_arg1)) := (rB_keep_v3 (WA m c)).trans (WA_dst m c)
theorem WB_arg0 : WB m c (Proc.devRef .tc main_arg0) = (m ((c : Thread nD τ).loc main_arg0)) := (rB_keep_arg0 (WA m c)).trans (WA_arg0 m c)
theorem WB_arg6 : WB m c (Proc.devRef .tc main_arg6) = (m ((c : Thread nD τ).loc main_arg6)) := (rB_keep_arg6 (WA m c)).trans (WA_arg6 m c)
theorem WB_arg7 : WB m c (Proc.devRef .tc main_arg7) = (m ((c : Thread nD τ).loc main_arg7)) := (rB_keep_arg7 (WA m c)).trans (WA_arg7 m c)
theorem WB_arg8 : WB m c (Proc.devRef .tc main_arg8) = (m ((c : Thread nD τ).loc main_arg8)) := (rB_keep_arg8 (WA m c)).trans (WA_arg8 m c)
theorem WB_arg9 : WB m c (Proc.devRef .tc main_arg9) = (m ((c : Thread nD τ).loc main_arg9)) := (rB_keep_arg9 (WA m c)).trans (WA_arg9 m c)

/-! ## After the resolver -/

theorem WC_res : WC m c (Proc.devRef .tc main_v43) = resHost (pairArg m c) (m ((c : Thread nD τ).loc main_arg6)) (m ((c : Thread nD τ).loc main_arg7)) (m ((c : Thread nD τ).loc main_arg8)) (m ((c : Thread nD τ).loc main_arg9)) := by
  refine (rC_res (WB m c)).trans ?_
  rw [WB_pair, WB_arg6, WB_arg7, WB_arg8, WB_arg9]
theorem WC_scores : WC m c (Proc.devRef .tc main_v34) = scoresArg m c := (rC_keep_v34 (WB m c)).trans (WB_scores m c)
theorem WC_src : WC m c (Proc.devRef .tc main_v1) = srcOf (m ((c : Thread nD τ).loc main_arg1)) := (rC_keep_v1 (WB m c)).trans (WB_src m c)
theorem WC_dst : WC m c (Proc.devRef .tc main_v3) = dstOf (m ((c : Thread nD τ).loc main_arg1)) := (rC_keep_v3 (WB m c)).trans (WB_dst m c)
theorem WC_arg0 : WC m c (Proc.devRef .tc main_arg0) = (m ((c : Thread nD τ).loc main_arg0)) := (rC_keep_arg0 (WB m c)).trans (WB_arg0 m c)

/-! ## After the marks -/

theorem WD_order : WD m c (Proc.devRef .tc main_v49) = Terms.orderOf (scoresArg m c) := by
  refine (rD_order (WC m c)).trans ?_
  rw [WC_scores]
theorem WD_res : WD m c (Proc.devRef .tc main_v43) = resHost (pairArg m c) (m ((c : Thread nD τ).loc main_arg6)) (m ((c : Thread nD τ).loc main_arg7)) (m ((c : Thread nD τ).loc main_arg8)) (m ((c : Thread nD τ).loc main_arg9)) := (rD_keep_v43 (WC m c)).trans (WC_res m c)
theorem WD_scores : WD m c (Proc.devRef .tc main_v34) = scoresArg m c := (rD_keep_v34 (WC m c)).trans (WC_scores m c)
theorem WD_src : WD m c (Proc.devRef .tc main_v1) = srcOf (m ((c : Thread nD τ).loc main_arg1)) := (rD_keep_v1 (WC m c)).trans (WC_src m c)
theorem WD_dst : WD m c (Proc.devRef .tc main_v3) = dstOf (m ((c : Thread nD τ).loc main_arg1)) := (rD_keep_v3 (WC m c)).trans (WC_dst m c)
theorem WD_arg0 : WD m c (Proc.devRef .tc main_arg0) = (m ((c : Thread nD τ).loc main_arg0)) := (rD_keep_arg0 (WC m c)).trans (WC_arg0 m c)

/-! ## After the scatter-max passes -/

theorem WE_last : WE m c (Proc.devRef .tc main_v64) = lastArg m c := by
  refine (rE_last (WD m c)).trans ?_
  rw [WD_order, WD_src, WD_dst]
theorem WE_idx : WE m c (Proc.devRef .tc main_v68) = idxOf (lastArg m c) := by
  refine (rE_idx (WD m c)).trans ?_
  rw [WD_order, WD_src, WD_dst]
theorem WE_res : WE m c (Proc.devRef .tc main_v43) = resHost (pairArg m c) (m ((c : Thread nD τ).loc main_arg6)) (m ((c : Thread nD τ).loc main_arg7)) (m ((c : Thread nD τ).loc main_arg8)) (m ((c : Thread nD τ).loc main_arg9)) := (rE_keep_v43 (WD m c)).trans (WD_res m c)
theorem WE_scores : WE m c (Proc.devRef .tc main_v34) = scoresArg m c := (rE_keep_v34 (WD m c)).trans (WD_scores m c)
theorem WE_arg0 : WE m c (Proc.devRef .tc main_arg0) = (m ((c : Thread nD τ).loc main_arg0)) := (rE_keep_arg0 (WD m c)).trans (WD_arg0 m c)

/-! ## The results -/

/-- The resolved embeddings after the run. -/
theorem resolved_eq : StableHlo.after Value.ops (launchContents m c) (Proc.devRef .tc main_v82) = resolvedArg m c := by
  rw [after_ops]
  refine (rF_blend (WE m c)).trans ?_
  rw [WE_arg0, WE_last, WE_res, WE_idx]

/-- The scores after the run. -/
theorem scores_eq : StableHlo.after Value.ops (launchContents m c) (Proc.devRef .tc main_v34) = scoresArg m c := by
  rw [after_ops]
  exact (rF_keep_v34 (WE m c)).trans (WE_scores m c)

end Cert.ReferenceIdeal.Fold

end
-- ==== Proof.TermsEq.lean ====
/-
  The two programs spell their common host operations with their own copies of the same shapes and dimension records;
  the functions named in each program's `Terms` are therefore the same functions.  Stated here once per function, so that
  nothing later has to compare the two spellings again.
-/
import proofs.«111999_j47502338294426_2_alg».proof.Proof.KTerms
import proofs.«111999_j47502338294426_2_alg».proof.Proof.RefTerms

noncomputable section

namespace Cert.Bridge.Same

open Idealize.ShloMosaic

variable {F : FTy → Type} [FloatOps F]

theorem srcOf_eq (x1 : (⟨Cert.KernelIdeal.S2x400000, .i32⟩ : BufTy).Contents (Elt F)) : Cert.ReferenceIdeal.Terms.srcOf x1 = Cert.KernelIdeal.Terms.srcOf x1 := rfl
theorem dstOf_eq (x1 : (⟨Cert.KernelIdeal.S2x400000, .i32⟩ : BufTy).Contents (Elt F)) : Cert.ReferenceIdeal.Terms.dstOf x1 = Cert.KernelIdeal.Terms.dstOf x1 := rfl
theorem pairOf_eq (x0 : (⟨Cert.KernelIdeal.S50000x128, .f32⟩ : BufTy).Contents (Elt F)) (s d : (⟨Cert.KernelIdeal.S400000, .i32⟩ : BufTy).Contents (Elt F)) :
    Cert.ReferenceIdeal.Terms.pairOf x0 s d = Cert.KernelIdeal.Terms.pairOf x0 s d := rfl
theorem orderOf_eq (sc : (⟨Cert.KernelIdeal.S400000, .f32⟩ : BufTy).Contents (Elt F)) : Cert.ReferenceIdeal.Terms.orderOf sc = Cert.KernelIdeal.Terms.orderOf sc := rfl
theorem lastOf_eq (o s d : (⟨Cert.KernelIdeal.S400000, .i32⟩ : BufTy).Contents (Elt F)) : Cert.ReferenceIdeal.Terms.lastOf o s d = Cert.KernelIdeal.Terms.lastOf o s d := rfl
theorem idxOf_eq (l : (⟨Cert.KernelIdeal.S50000, .i32⟩ : BufTy).Contents (Elt F)) : Cert.ReferenceIdeal.Terms.idxOf l = Cert.KernelIdeal.Terms.idxOf l := rfl
theorem wrapEdge_eq (l : (⟨Cert.KernelIdeal.S50000, .i32⟩ : BufTy).Contents (Elt F)) : Cert.ReferenceIdeal.Terms.wrapEdge l = Cert.KernelIdeal.Terms.wrapEdge l := rfl
theorem blendOf_eq (x0 : (⟨Cert.KernelIdeal.S50000x128, .f32⟩ : BufTy).Contents (Elt F)) (l : (⟨Cert.KernelIdeal.S50000, .i32⟩ : BufTy).Contents (Elt F)) (res : (⟨Cert.KernelIdeal.S50000x128, .f32⟩ : BufTy).Contents (Elt F)) :
    Cert.ReferenceIdeal.Terms.blendOf x0 l res = Cert.KernelIdeal.Terms.blendOf x0 l res := rfl

end Cert.Bridge.Same

end
-- ==== Proof.RefStages.lean ====
/-
  The reference's two perceptron stages, read at one entry.

  From the table of gathered rows (one row of 256 numbers per edge) the reference computes, for every edge, the
  detector's score — written out as 1 / (1 + exp (-z)) of the output sum z — and the resolver's 128 outputs. Entry by
  entry these are the perceptrons of the shared specification applied to the table's rows.
-/
import proofs.«111999_j47502338294426_2_alg».proof.Proof.Spec
import proofs.«111999_j47502338294426_2_alg».proof.Proof.RefRead

noncomputable section

namespace Cert.ReferenceIdeal.Stages

open Cert.ReferenceIdeal Cert.ReferenceIdeal.Read Idealize.ShloMosaic Idealize.ShloMosaic.ValueIdx Cert.Bridge

/-- The single-precision pattern of the number one. -/
theorem one_f32 : Ideal.ofBits .f32 0x3F800000#32 = 1 := by
  simp [Ideal.ofBits, Ideal.ieee, -EReal.coe_mul]; norm_num

/-- 1 / (1 + exp (-z)), as the reference spells it, is the logistic function of z. -/
theorem logistic_spelled (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = Ideal.div 1 (1 + Ideal.exp (-z))
  rw [one_f32]

/-! ### Where each stage reads its operands: the reference's index maps, written with coordinates -/

theorem lidx19 (i : S400000x256.Idx) (k : Fin 256) : lidx_main_v19 i k = ix2 (i 0) k := by
  funext a; match a with | ⟨0, _⟩ => rfl | ⟨1, _⟩ => rfl
theorem ridx19 (i : S400000x256.Idx) (k : Fin 256) : ridx_main_v19 i k = ix2 k (i 1) := by
  funext a; match a with | ⟨0, _⟩ => rfl | ⟨1, _⟩ => rfl
theorem idx2021 (i : S400000x256.Idx) : idx_main_v20 (idx_main_v21 i) = ix1 (i 1) := by
  funext a; match a with | ⟨0, _⟩ => rfl
theorem idx2526 (i : S400000x1.Idx) : idx_main_v25 (idx_main_v26 i) = ix1 (0 : Fin 1) := by
  funext a; match a with | ⟨0, _⟩ => rfl
theorem lidx35 (i : S400000x256.Idx) (k : Fin 256) : lidx_main_v35 i k = ix2 (i 0) k := by
  funext a; match a with | ⟨0, _⟩ => rfl | ⟨1, _⟩ => rfl
theorem ridx35 (i : S400000x256.Idx) (k : Fin 256) : ridx_main_v35 i k = ix2 k (i 1) := by
  funext a; match a with | ⟨0, _⟩ => rfl | ⟨1, _⟩ => rfl
theorem idx3637 (i : S400000x256.Idx) : idx_main_v36 (idx_main_v37 i) = ix1 (i 1) := by
  funext a; match a with | ⟨0, _⟩ => rfl
theorem ridx40 (i : S400000x128.Idx) (k : Fin 256) : ridx_main_v40 i k = ix2 k (i 1) := by
  funext a; match a with | ⟨0, _⟩ => rfl | ⟨1, _⟩ => rfl
theorem idx4142 (i : S400000x128.Idx) : idx_main_v41 (idx_main_v42 i) = ix1 (i 1) := by
  funext a; match a with | ⟨0, _⟩ => rfl

/-! ### The detector -/

/-- Hidden unit (r, k) of the detector's stage: hidden unit k of the table's row r. -/
theorem hidden_det (x0 : (⟨S50000x128, .f32⟩ : BufTy).Contents (Elt Ideal)) (x1 : (⟨S2x400000, .i32⟩ : BufTy).Contents (Elt Ideal)) (x2 : (⟨S256x256, .f32⟩ : BufTy).Contents (Elt Ideal)) (x3 : (⟨S256, .f32⟩ : BufTy).Contents (Elt Ideal)) (i : S400000x256.Idx) :
    val_main_v23 (F := Ideal) x0 x1 x2 x3 i = hid (fun j => val_main_v18 (F := Ideal) x0 x1 (ix2 (i 0) j)) x2 x3 (i 1) := by
  rw [val_main_v23_apply, val_main_v22_apply, val_main_v19_apply, val_main_v21_apply, val_main_v20_apply,
    val_main_call0_v0_apply, val_main_call0_cst_apply]
  generalize val_main_v18 (F := Ideal) x0 x1 = y
  simp only [lidx19, ridx19, idx2021]
  rfl

/-- The detector's stage is the score of every row of the table. -/
theorem scores2_eq (x0 : (⟨S50000x128, .f32⟩ : BufTy).Contents (Elt Ideal)) (x1 : (⟨S2x400000, .i32⟩ : BufTy).Contents (Elt Ideal)) (x2 : (⟨S256x256, .f32⟩ : BufTy).Contents (Elt Ideal)) (x3 : (⟨S256, .f32⟩ : BufTy).Contents (Elt Ideal)) (x4 : (⟨S256x1, .f32⟩ : BufTy).Contents (Elt Ideal)) (x5 : (⟨S1, .f32⟩ : BufTy).Contents (Elt Ideal)) :
    Read.val_main_v33 (F := Ideal) x0 x1 x2 x3 x4 x5 = scoresArr (Read.val_main_v18 (F := Ideal) x0 x1) x2 x3 x4 x5 := by
  funext i
  rw [val_main_v33_apply, val_main_v32_apply, val_main_cst_3_apply, val_main_v31_apply, val_main_v30_apply, val_main_cst_apply,
    val_main_v29_apply, val_main_v28_apply, val_main_v27_apply, val_main_v24_apply, val_main_v26_apply, val_main_v25_apply]
  refine (logistic_spelled _).trans ?_
  unfold scoresArr scoreRow
  rw [idx2526]
  refine congrArg Ideal.logistic (congrArg (· + x5 (ix1 (0 : Fin 1))) (Finset.sum_congr rfl fun k _ => ?_))
  have hr : ridx_main_v24 i k = ix2 k (0 : Fin 1) := by
    funext a
    match a with
    | ⟨0, _⟩ => rfl
    | ⟨1, _⟩ => exact Fin.ext (by have h : (i 1).val < 1 := (i 1).isLt; show (i 1).val = 0; omega)
  rw [hidden_det x0 x1 x2 x3 (lidx_main_v24 i k), hr]
  rfl

/-! ### The resolver -/

/-- Hidden unit (r, k) of the resolver's stage: hidden unit k of the table's row r. -/
theorem hidden_res (x0 : (⟨S50000x128, .f32⟩ : BufTy).Contents (Elt Ideal)) (x1 : (⟨S2x400000, .i32⟩ : BufTy).Contents (Elt Ideal)) (x6 : (⟨S256x256, .f32⟩ : BufTy).Contents (Elt Ideal)) (x7 : (⟨S256, .f32⟩ : BufTy).Contents (Elt Ideal)) (i : S400000x256.Idx) :
    val_main_v39 (F := Ideal) x0 x1 x6 x7 i = hid (fun j => val_main_v18 (F := Ideal) x0 x1 (ix2 (i 0) j)) x6 x7 (i 1) := by
  rw [val_main_v39_apply, val_main_v38_apply, val_main_v35_apply, val_main_v37_apply, val_main_v36_apply,
    val_main_call1_v0_apply, val_main_call1_cst_apply]
  generalize val_main_v18 (F := Ideal) x0 x1 = y
  simp only [lidx35, ridx35, idx3637]
  rfl

/-- The resolver's stage is the 128 outputs of every row of the table. -/
theorem resolution_eq (x0 : (⟨S50000x128, .f32⟩ : BufTy).Contents (Elt Ideal)) (x1 : (⟨S2x400000, .i32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) :
    Read.val_main_v43 (F := Ideal) x0 x1 x6 x7 x8 x9 = resArr (Read.val_main_v18 (F := Ideal) x0 x1) x6 x7 x8 x9 := by
  funext i
  rw [val_main_v43_apply, val_main_v40_apply, val_main_v42_apply, val_main_v41_apply, idx4142]
  unfold resArr resRow
  refine congrArg (· + x9 (ix1 (i 1))) (Finset.sum_congr rfl fun k _ => ?_)
  rw [hidden_res x0 x1 x6 x7 (lidx_main_v40 i k), ridx40]
  rfl

end Cert.ReferenceIdeal.Stages

end
-- ==== Proof.LibRowIndex.lean ====
/-
  Gathers and scatters that move whole rows by ONE start index per row, read at an index written by coordinates.

  An integer column `idx : [E, 1]` names, for each of `E` edges, one row of an operand with `N` rows.
  * Gathering rows of a matrix `x : [N, C]` gives `[E, C]`: element `(e, c)` is `x` at row `idx[e, 0]` — read as a signed
    integer and clamped into `[0, N - 1]` — and column `c`.
  * Gathering entries of a vector `x : [N]` gives `[E]`: element `e` is `x` at `idx[e, 0]`, read signed and clamped.
  * Scattering the rows of updates `[E, C]` into `[N, C]`: update element `(e, c)` lands in row `idx[e, 0]` read as a signed
    integer and NOT clamped (an update whose row is outside `[0, N)` is dropped). All that is stated here is the row: if
    the update lands at `i`, then `idx[e, 0]`, as a signed integer, is `i`'s row.
-/
import Idealize.ShloMosaic.Lib.ValueIdx

noncomputable section

namespace Cert.Lib.RowIndex

open Idealize.ShloMosaic Idealize.ShloMosaic.ValueIdx

variable {α : Type}

/-! ## Gathering rows of a matrix -/

/-- The dimension numbers of `x[idx]` for a matrix `x : [N, C]` and a column of row numbers `idx : [E, 1]`: the rows
    are collapsed, the columns are the offset axis, one start index per result row. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element `(e, c)` of the gathered rows is the matrix at the clamped row `idx[e, 0]` and column `c`. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    rw [GatherDims.batchCoord_eq_zero _ _ _ List.not_mem_nil]
    have hs : (rowGatherDims N C E wf).start (ix2 e c) idx 1 = 0 := by
      unfold GatherDims.start
      rw [dif_neg (show ¬ (1 : Fin 2) ∈ (rowGatherDims N C E wf).startIndexMap from
        (by decide : ¬ (1 : Fin 2) ∈ ([0] : List (Fin 2))))]
    have ho : (rowGatherDims N C E wf).offCoord (ix2 e c) 1 = c.val := by
      unfold GatherDims.offCoord
      rw [dif_pos (show (1 : Fin 2) ∈ (rowGatherDims N C E wf).sKept from
        (GatherDims.mem_sKept _ _).mpr ⟨(by decide : ¬ (1 : Fin 2) ∈ ([0] : List (Fin 2))), List.not_mem_nil⟩)]
      rfl
    rw [hs, ho]; omega

/-! ## Gathering entries of a vector -/

/-- The dimension numbers of `x[idx]` for a vector `x : [N]` and a column of positions `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered entries is the vector at the clamped position `idx[e, 0]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows -/

/-- The dimension numbers of `zeros.at[idx].add(u)` for updates `u : [E, C]` into `[N, C]` and a column of row numbers
    `idx : [E, 1]`: the update's columns are its window, the operand's rows are inserted, one start index per update row. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- If update element `u` lands at `i`, then its row number `idx[u₀, 0]`, as a signed integer, is `i`'s row. -/
theorem rowScatter_row {N C E w : Nat}
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx) (i : (⟨2, ![N, C]⟩ : Shape).Idx)
    (h : (rowScatterDims N C E wf).resultIdx? u idx = some i) :
    (idx (ix2 (u 0) 0)).toInt = ((i 0).val : Int) := by
  have hs : (rowScatterDims N C E wf).start u idx 0 = (idx (ix2 (u 0) 0)).toInt := by
    unfold ScatterDims.start
    rw [dif_pos (show (0 : Fin 2) ∈ (rowScatterDims N C E wf).scatterDimsToOperandDims from List.mem_singleton.mpr rfl)]
    have hsi : (rowScatterDims N C E wf).siIdx u ⟨List.idxOf (0 : Fin 2) (rowScatterDims N C E wf).scatterDimsToOperandDims,
        List.idxOf_lt_length_iff.2 (List.mem_singleton.mpr rfl)⟩ = ix2 (u 0) 0 := by
      funext b; refine Fin.ext ?_
      match b with
      | ⟨0, _⟩ => rfl
      | ⟨1, _⟩ => rfl
    rw [hsi]
    rfl
  have hw : (rowScatterDims N C E wf).window u 0 = 0 := by
    unfold ScatterDims.window
    rw [dif_neg (show ¬ (0 : Fin 2) ∈ (rowScatterDims N C E wf).sKept from
      (by decide : ¬ (0 : Fin 2) ∈ (List.finRange 2).filter (fun a => a ∉ ([0] : List (Fin 2)))))]
  unfold ScatterDims.resultIdx? at h
  split at h
  · rename_i hb
    have h0 : ((rowScatterDims N C E wf).start u idx 0 + ((rowScatterDims N C E wf).window u 0 : Int)).toNat = (i 0).val :=
      congrArg (fun f : (⟨2, ![N, C]⟩ : Shape).Idx => (f 0).val) (Option.some.inj h)
    have hb0 := (hb 0).1
    rw [hs, hw] at h0 hb0
    simp only [Nat.cast_zero, add_zero] at h0 hb0
    omega
  · exact absurd h (by simp)

end Cert.Lib.RowIndex

end
-- ==== Proof.WinnerRows.lean ====
/-
  The resolver's rows, per node, are rows of the per-edge pair table.

  For each node `n` the kernel program looks up the node's winning edge `r(n)` (the node's edge position, counted from
  the end if negative, then clamped into the 400000 edges), reads that edge's source and destination node numbers,
  turns each into a row number (counted from the end of the 50000 nodes if negative, then clamped) and lays the two
  embedding rows side by side.  The reference lays the two embedding rows of EVERY edge side by side first and then reads
  row `r(n)` of that table.  The two node-number-to-row-number maps are one scalar function applied entry by entry and
  both row lookups clamp alike, so entry by entry the two read the same embedding entry; hence the resolver applied to
  the one table is the gathered rows of the resolver applied to the other.
-/
import proofs.«111999_j47502338294426_2_alg».proof.Proof.KTerms
import proofs.«111999_j47502338294426_2_alg».proof.Proof.LibRowIndex
import proofs.«111999_j47502338294426_2_alg».proof.Proof.Spec
import proofs.«111999_j47502338294426_2_alg».proof.Proof.Gen.ReferenceIdeal
import Idealize.ShloMosaic.Lib.Pipeline.Value
import Idealize.ShloMosaic.Lib.ValueIdx

noncomputable section

namespace Cert.KernelIdeal.Winner

open Cert.KernelIdeal Cert.KernelIdeal.Facts₀ Cert.KernelIdeal.Facts Cert.KernelIdeal.Terms
open Idealize.ShloMosaic Idealize.ShloMosaic.ValueIdx Cert.Bridge Cert.Lib.RowIndex

/-- A node number made a row number, for one number: a negative one counts from the end of the 50000 nodes. -/
def wrap1 (a : BitVec 32) : BitVec 32 :=
  Scalar.select (IntOp.cmpi .slt a 0#32) (IntOp.addi a 50000#32) a

/-- Both wraps are `wrap1` entry by entry. -/
theorem wrapNode_apply (v : (⟨S400000, .i32⟩ : BufTy).Contents (Elt Ideal)) (i : S400000.Idx) :
    wrapNode (F := Ideal) v i = wrap1 (v i) := rfl
theorem wrapNode'_apply (v : (⟨S50000, .i32⟩ : BufTy).Contents (Elt Ideal)) (i : S50000.Idx) :
    wrapNode' (F := Ideal) v i = wrap1 (v i) := rfl

/-- A column made of a vector reads the vector: entry `(n, 0)` is entry `n`. -/
theorem column_apply50000 (v : (⟨S50000, .i32⟩ : BufTy).Contents (Elt Ideal)) (n : Fin 50000) :
    (broadcastInDim S50000x1 ![0] bcast_S50000_S50000x1_0 v) (ix2 n 0) = v (ix1 n) :=
  broadcastInDim_apply _ _ v _ (ix1 n) fun a => by match a with | ⟨0, _⟩ => rfl
theorem column_apply400000 (v : (⟨S400000, .i32⟩ : BufTy).Contents (Elt Ideal)) (e : Fin 400000) :
    (broadcastInDim S400000x1 ![0] bcast_S400000_S400000x1_0 v) (ix2 e 0) = v (ix1 e) :=
  broadcastInDim_apply _ _ v _ (ix1 e) fun a => by match a with | ⟨0, _⟩ => rfl

/-- The embedding at a clamped row depends only on the number clamped. -/
theorem row_congr (x0 : (⟨S50000x128, .f32⟩ : BufTy).Contents (Elt Ideal)) {a b : BitVec 32} (h : a = b) (c : Fin 128)
    (ha : min a.toInt.toNat (50000 - 1) < 50000) (hb : min b.toInt.toNat (50000 - 1) < 50000) :
    x0 (ix2 ⟨min a.toInt.toNat (50000 - 1), ha⟩ c) = x0 (ix2 ⟨min b.toInt.toNat (50000 - 1), hb⟩ c) := by
  subst h; rfl

/-- The winning edge of node `n`: its edge position, wrapped, clamped into the 400000 edges. -/
abbrev edgeOf (idx : (⟨S50000, .i32⟩ : BufTy).Contents (Elt Ideal)) (n : Fin 50000) : Fin 400000 :=
  ⟨min ((broadcastInDim S50000x1 ![0] bcast_S50000_S50000x1_0 (wrapEdge (F := Ideal) idx)) (ix2 n 0)).toInt.toNat
    (400000 - 1), by omega⟩

/-- The endpoint read for node `n` is the endpoint of its winning edge. -/
theorem winnerEnd_apply (v : (⟨S400000, .i32⟩ : BufTy).Contents (Elt Ideal))
    (idx : (⟨S50000, .i32⟩ : BufTy).Contents (Elt Ideal)) (n : Fin 50000) :
    winnerEndOf (F := Ideal) v idx (ix1 n) = v (ix1 (edgeOf idx n)) := by
  unfold winnerEndOf
  show Host.gather (vecGatherDims 400000 50000 gather_S400000_S50000x1_S50000_n_0_n_n_0_1_1_wf) v _ (ix1 n) = _
  exact vecGather_apply (by omega) _ v _ n

/-- Entry `(e, c)` of the per-edge embedding rows: the embedding at the clamped wrapped node number of edge `e`. -/
theorem rowsOf_apply (x0 : (⟨S50000x128, .f32⟩ : BufTy).Contents (Elt Ideal))
    (v : (⟨S400000, .i32⟩ : BufTy).Contents (Elt Ideal)) (e : Fin 400000) (c : Fin 128) :
    rowsOf (F := Ideal) x0 v (ix2 e c)
      = x0 (ix2 ⟨min (wrap1 (v (ix1 e))).toInt.toNat (50000 - 1), by omega⟩ c) := by
  unfold rowsOf
  show Host.gather (rowGatherDims 50000 128 400000 gather_S50000x128_S400000x1_S400000x128_1_0_n_n_0_1_1128_wf) x0 _ (ix2 e c) = _
  refine (rowGather_apply (by omega) _ x0 _ e c).trans (row_congr x0 ?_ c _ _)
  rw [column_apply400000, wrapNode_apply]

/-- Entry `(n, c)` of the per-node embedding rows: the embedding at the clamped wrapped node number given for `n`. -/
theorem rowsOf'_apply (x0 : (⟨S50000x128, .f32⟩ : BufTy).Contents (Elt Ideal))
    (v : (⟨S50000, .i32⟩ : BufTy).Contents (Elt Ideal)) (n : Fin 50000) (c : Fin 128) :
    rowsOf' (F := Ideal) x0 v (ix2 n c)
      = x0 (ix2 ⟨min (wrap1 (v (ix1 n))).toInt.toNat (50000 - 1), by omega⟩ c) := by
  unfold rowsOf'
  show Host.gather (rowGatherDims 50000 128 50000 gather_S50000x128_S50000x1_S50000x128_1_0_n_n_0_1_1128_wf) x0 _ (ix2 n c) = _
  refine (rowGather_apply (by omega) _ x0 _ n c).trans (row_congr x0 ?_ c _ _)
  rw [column_apply50000, wrapNode'_apply]

/-- One endpoint: the embedding row read for node `n` is the row read for its winning edge. -/
theorem end_rows (x0 : (⟨S50000x128, .f32⟩ : BufTy).Contents (Elt Ideal))
    (v : (⟨S400000, .i32⟩ : BufTy).Contents (Elt Ideal)) (idx : (⟨S50000, .i32⟩ : BufTy).Contents (Elt Ideal))
    (n : Fin 50000) (c : Fin 128) :
    rowsOf' (F := Ideal) x0 (winnerEndOf (F := Ideal) v idx) (ix2 n c) = rowsOf (F := Ideal) x0 v (ix2 (edgeOf idx n) c) := by
  refine (rowsOf'_apply x0 _ n c).trans ((row_congr x0 ?_ c _ _).trans (rowsOf_apply x0 v (edgeOf idx n) c).symm)
  rw [winnerEnd_apply]

/-- The pair table of the winners, entry by entry, is the per-edge pair table at each node's winning edge. -/
theorem winner_rows (x0 : (⟨S50000x128, .f32⟩ : BufTy).Contents (Elt Ideal))
    (s d : (⟨S400000, .i32⟩ : BufTy).Contents (Elt Ideal)) (idx : (⟨S50000, .i32⟩ : BufTy).Contents (Elt Ideal))
    (n : Fin 50000) (j : Fin 256) :
    winnerPairOf (F := Ideal) x0 s d idx (ix2 n j)
      = pairOf (F := Ideal) x0 s d (ix2 ⟨min ((broadcastInDim S50000x1 ![0] bcast_S50000_S50000x1_0
          (wrapEdge (F := Ideal) idx)) (ix2 n 0)).toInt.toNat (400000 - 1), by omega⟩ j) := by
  unfold winnerPairOf pairOf
  rw [truncf_apply]
  by_cases hj : j.val < 128
  · -- the left halves: the sources' rows
    rw [concatenate_pair_apply_left (t := S50000x256) (s₁ := S50000x128) (s₂ := S50000x128) (1 : Fin 2) _ _ _ (ix2 n j) rfl (ix2 n ⟨j.val, hj⟩ : S50000x128.Idx)
        (fun b => by match b with | ⟨0, _⟩ => rfl | ⟨1, _⟩ => rfl),
      concatenate_pair_apply_left (t := S400000x256) (s₁ := S400000x128) (s₂ := S400000x128) (1 : Fin 2) _ _ _ (ix2 (edgeOf idx n) j) rfl
        (ix2 (edgeOf idx n) ⟨j.val, hj⟩ : S400000x128.Idx)
        (fun b => by match b with | ⟨0, _⟩ => rfl | ⟨1, _⟩ => rfl)]
    exact end_rows x0 s idx n ⟨j.val, hj⟩
  · -- the right halves: the destinations' rows
    have hj' : j.val - 128 < 128 := by have := j.isLt; omega
    rw [concatenate_pair_apply_right (t := S50000x256) (s₁ := S50000x128) (s₂ := S50000x128) (1 : Fin 2) _ _ _ (ix2 n j) rfl rfl (ix2 n ⟨j.val - 128, hj'⟩ : S50000x128.Idx)
        (fun b hb => by match b with | ⟨0, _⟩ => rfl | ⟨1, _⟩ => exact absurd rfl hb)
        (by show (j.val - 128) + 128 = j.val; omega),
      concatenate_pair_apply_right (t := S400000x256) (s₁ := S400000x128) (s₂ := S400000x128) (1 : Fin 2) _ _ _ (ix2 (edgeOf idx n) j) rfl rfl
        (ix2 (edgeOf idx n) ⟨j.val - 128, hj'⟩ : S400000x128.Idx)
        (fun b hb => by match b with | ⟨0, _⟩ => rfl | ⟨1, _⟩ => exact absurd rfl hb)
        (by show (j.val - 128) + 128 = j.val; omega)]
    exact end_rows x0 d idx n ⟨j.val - 128, hj'⟩

/-- The resolver's table at an entry written by coordinates. -/
theorem resArr_apply {N : Nat} (rows : (⟨2, ![N, 256]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 : (⟨1, ![128]⟩ : Shape).Idx → EReal) (n : Fin N) (c : Fin 128) :
    resArr rows W1 b1 W2 b2 (ix2 n c) = resRow (fun j => rows (ix2 n j)) W1 b1 W2 b2 c := rfl

/-- Narrowing a weight matrix changes no value over the extended reals. -/
theorem narrow_W1 (W1 : (⟨S256x256, .f32⟩ : BufTy).Contents (Elt Ideal)) :
    truncf (F := Ideal) (s := S256x256) (φ := .f32) .bf16 W1 bitsLt_bf16_f32 = W1 := rfl
theorem narrow_W2 (W2 : (⟨S256x128, .f32⟩ : BufTy).Contents (Elt Ideal)) :
    truncf (F := Ideal) (s := S256x128) (φ := .f32) .bf16 W2 bitsLt_bf16_f32 = W2 := rfl

/-- Reading rows of a 400000-row table by the nodes' winning edges, entry by entry. -/
theorem edge_rows_apply (T : (⟨S400000x128, .f32⟩ : BufTy).Contents (Elt Ideal))
    (idx : (⟨S50000, .i32⟩ : BufTy).Contents (Elt Ideal)) (n : Fin 50000) (c : Fin 128) :
    Host.gather Cert.ReferenceIdeal.gather_S400000x128_S50000x1_S50000x128_1_0_n_n_0_1_1128 T
        (broadcastInDim S50000x1 ![0] bcast_S50000_S50000x1_0 (wrapEdge (F := Ideal) idx)) (ix2 n c)
      = T (ix2 (edgeOf idx n) c) := by
  show Host.gather (rowGatherDims 400000 128 50000
    Cert.ReferenceIdeal.Facts₀.gather_S400000x128_S50000x1_S50000x128_1_0_n_n_0_1_1128_wf) T _ (ix2 n c) = _
  exact rowGather_apply (by omega) _ T _ n c

/-- The resolver over the winners' pair table is, row by row, the resolver over the per-edge pair table read at each
    node's winning edge (narrowing the weights changes no value over the extended reals). -/
theorem resolver_rows (x0 : (⟨S50000x128, .f32⟩ : BufTy).Contents (Elt Ideal))
    (s d : (⟨S400000, .i32⟩ : BufTy).Contents (Elt Ideal)) (idx : (⟨S50000, .i32⟩ : BufTy).Contents (Elt Ideal))
    (W1 : (⟨S256x256, .f32⟩ : BufTy).Contents (Elt Ideal)) (b1 : (⟨S256, .f32⟩ : BufTy).Contents (Elt Ideal))
    (W2 : (⟨S256x128, .f32⟩ : BufTy).Contents (Elt Ideal)) (b2 : (⟨S128, .f32⟩ : BufTy).Contents (Elt Ideal)) :
    resArr (winnerPairOf (F := Ideal) x0 s d idx) (truncf (F := Ideal) (s := S256x256) (φ := .f32) .bf16 W1 bitsLt_bf16_f32) b1
        (truncf (F := Ideal) (s := S256x128) (φ := .f32) .bf16 W2 bitsLt_bf16_f32) b2
      = Host.gather Cert.ReferenceIdeal.gather_S400000x128_S50000x1_S50000x128_1_0_n_n_0_1_1128
          (resArr (pairOf (F := Ideal) x0 s d) W1 b1 W2 b2)
          (broadcastInDim S50000x1 ![0] bcast_S50000_S50000x1_0 (wrapEdge (F := Ideal) idx)) := by
  rw [narrow_W1, narrow_W2]
  funext i
  obtain ⟨n, c, rfl⟩ : ∃ (n : Fin 50000) (c : Fin 128), i = ix2 n c := ⟨i 0, i 1, eq_ix2 i⟩
  refine Eq.trans ?_ (edge_rows_apply (resArr (pairOf (F := Ideal) x0 s d) W1 b1 W2 b2) idx n c).symm
  refine (resArr_apply _ W1 b1 W2 b2 n c).trans (Eq.trans ?_ (resArr_apply _ W1 b1 W2 b2 (edgeOf idx n) c).symm)
  exact congrArg (fun row => resRow row W1 b1 W2 b2 c) (funext fun j => winner_rows x0 s d idx n j)

end Cert.KernelIdeal.Winner

end
-- ==== Proof.Bridge.lean ====
/-
  The two programs compute the same two arrays.

  Both stage, per edge, the pair of embedding rows of its endpoints, and score it with the same detector: two matrix
  products with a bias after each, a clip at zero in between, and the logistic function — the kernel's own operation, the
  reference's 1 / (1 + exp (-x)), one function on the extended reals.  So the scores agree, entry by entry, and with
  them the marks, the per-node winning positions and the mask of touched nodes, which both programs compute from the
  scores by the same operations.
  For the resolved embeddings the reference runs the resolver over EVERY edge's pair row and reads, per node, the row of
  the node's winning edge; the kernel reads the winning edge's two embedding rows first and runs the resolver over those
  rows only.  Row by row the resolver is the same function of the pair row, and the pair row the kernel stages for a node
  IS the winning edge's pair row: so the two gathers commute with the resolver, and the blends agree.
  No law of the extended reals beyond the definitions is used: both sides are the same sums.
-/
import proofs.«111999_j47502338294426_2_alg».proof.Proof.TermsEq
import proofs.«111999_j47502338294426_2_alg».proof.Proof.RefStages
import proofs.«111999_j47502338294426_2_alg».proof.Proof.WinnerRows
import proofs.«111999_j47502338294426_2_alg».proof.Proof.Spec

set_option maxRecDepth 16384

noncomputable section

namespace Cert.Bridge.Final

open Idealize.ShloMosaic Cert.Bridge

variable (x0 : (⟨Cert.KernelIdeal.S50000x128, .f32⟩ : BufTy).Contents (Elt Ideal)) (x1 : (⟨Cert.KernelIdeal.S2x400000, .i32⟩ : BufTy).Contents (Elt Ideal))
  (x2 : (⟨Cert.KernelIdeal.S256x256, .f32⟩ : BufTy).Contents (Elt Ideal)) (x3 : (⟨Cert.KernelIdeal.S256, .f32⟩ : BufTy).Contents (Elt Ideal)) (x4 : (⟨Cert.KernelIdeal.S256x1, .f32⟩ : BufTy).Contents (Elt Ideal)) (x5 : (⟨Cert.KernelIdeal.S1, .f32⟩ : BufTy).Contents (Elt Ideal))
  (x6 : (⟨Cert.KernelIdeal.S256x256, .f32⟩ : BufTy).Contents (Elt Ideal)) (x7 : (⟨Cert.KernelIdeal.S256, .f32⟩ : BufTy).Contents (Elt Ideal)) (x8 : (⟨Cert.KernelIdeal.S256x128, .f32⟩ : BufTy).Contents (Elt Ideal)) (x9 : (⟨Cert.KernelIdeal.S128, .f32⟩ : BufTy).Contents (Elt Ideal))

/-- The reference's pair table is the kernel's. -/
theorem pair_same : Cert.ReferenceIdeal.Terms.pairOf x0 (Cert.ReferenceIdeal.Terms.srcOf x1) (Cert.ReferenceIdeal.Terms.dstOf x1)
    = Cert.KernelIdeal.Terms.pairOf x0 (Cert.KernelIdeal.Terms.srcOf x1) (Cert.KernelIdeal.Terms.dstOf x1) := by
  rw [Same.srcOf_eq, Same.dstOf_eq, Same.pairOf_eq]

/-- The reference's detector over a pair table is the table of row scores. -/
theorem scoresHost_eq :
    Cert.ReferenceIdeal.Terms.scoresHost (Cert.KernelIdeal.Terms.pairOf x0 (Cert.KernelIdeal.Terms.srcOf x1) (Cert.KernelIdeal.Terms.dstOf x1)) x2 x3 x4 x5
      = scoresArr (Cert.KernelIdeal.Terms.pairOf x0 (Cert.KernelIdeal.Terms.srcOf x1) (Cert.KernelIdeal.Terms.dstOf x1)) x2 x3 x4 x5 :=
  Cert.ReferenceIdeal.Stages.scores2_eq x0 x1 x2 x3 x4 x5

/-- The reference's resolver over a pair table is the table of resolver rows. -/
theorem resHost_eq :
    Cert.ReferenceIdeal.Terms.resHost (Cert.KernelIdeal.Terms.pairOf x0 (Cert.KernelIdeal.Terms.srcOf x1) (Cert.KernelIdeal.Terms.dstOf x1)) x6 x7 x8 x9
      = resArr (Cert.KernelIdeal.Terms.pairOf x0 (Cert.KernelIdeal.Terms.srcOf x1) (Cert.KernelIdeal.Terms.dstOf x1)) x6 x7 x8 x9 :=
  Cert.ReferenceIdeal.Stages.resolution_eq x0 x1 x6 x7 x8 x9

/-- THE SCORES: the reference's, spelt on the host, are the kernel's. -/
theorem scores_k : (shapeCast _ (Cert.ReferenceIdeal.Terms.scoresHost (Cert.ReferenceIdeal.Terms.pairOf x0 (Cert.ReferenceIdeal.Terms.srcOf x1) (Cert.ReferenceIdeal.Terms.dstOf x1)) x2 x3 x4 x5) Cert.ReferenceIdeal.Gen.shapeCasts_S400000x1_S400000 : (⟨Cert.ReferenceIdeal.S400000, .f32⟩ : BufTy).Contents (Elt Ideal)) = (shapeCast _ (scoresArr (Cert.KernelIdeal.Terms.pairOf x0 (Cert.KernelIdeal.Terms.srcOf x1) (Cert.KernelIdeal.Terms.dstOf x1)) x2 x3 x4 x5 : (⟨Cert.KernelIdeal.S400000x1, .f32⟩ : BufTy).Contents (Elt Ideal)) Cert.KernelIdeal.Gen.shapeCasts_S400000x1_S400000 : (⟨Cert.KernelIdeal.S400000, .f32⟩ : BufTy).Contents (Elt Ideal)) := by
  rw [pair_same, scoresHost_eq]

/-- THE RESOLVED EMBEDDINGS: the reference's are the kernel's. -/
theorem resolved_k : Cert.ReferenceIdeal.Terms.blendOf x0 (Cert.ReferenceIdeal.Terms.lastOf (Cert.ReferenceIdeal.Terms.orderOf (shapeCast _ (Cert.ReferenceIdeal.Terms.scoresHost (Cert.ReferenceIdeal.Terms.pairOf x0 (Cert.ReferenceIdeal.Terms.srcOf x1) (Cert.ReferenceIdeal.Terms.dstOf x1)) x2 x3 x4 x5) Cert.ReferenceIdeal.Gen.shapeCasts_S400000x1_S400000 : (⟨Cert.ReferenceIdeal.S400000, .f32⟩ : BufTy).Contents (Elt Ideal))) (Cert.ReferenceIdeal.Terms.srcOf x1) (Cert.ReferenceIdeal.Terms.dstOf x1)) (Cert.ReferenceIdeal.Terms.winnerResOf (Cert.ReferenceIdeal.Terms.resHost (Cert.ReferenceIdeal.Terms.pairOf x0 (Cert.ReferenceIdeal.Terms.srcOf x1) (Cert.ReferenceIdeal.Terms.dstOf x1)) x6 x7 x8 x9) (Cert.ReferenceIdeal.Terms.idxOf (Cert.ReferenceIdeal.Terms.lastOf (Cert.ReferenceIdeal.Terms.orderOf (shapeCast _ (Cert.ReferenceIdeal.Terms.scoresHost (Cert.ReferenceIdeal.Terms.pairOf x0 (Cert.ReferenceIdeal.Terms.srcOf x1) (Cert.ReferenceIdeal.Terms.dstOf x1)) x2 x3 x4 x5) Cert.ReferenceIdeal.Gen.shapeCasts_S400000x1_S400000 : (⟨Cert.ReferenceIdeal.S400000, .f32⟩ : BufTy).Contents (Elt Ideal))) (Cert.ReferenceIdeal.Terms.srcOf x1) (Cert.ReferenceIdeal.Terms.dstOf x1)))) = Cert.KernelIdeal.Terms.blendOf x0 (Cert.KernelIdeal.Terms.lastOf (Cert.KernelIdeal.Terms.orderOf (shapeCast _ (scoresArr (Cert.KernelIdeal.Terms.pairOf x0 (Cert.KernelIdeal.Terms.srcOf x1) (Cert.KernelIdeal.Terms.dstOf x1)) x2 x3 x4 x5 : (⟨Cert.KernelIdeal.S400000x1, .f32⟩ : BufTy).Contents (Elt Ideal)) Cert.KernelIdeal.Gen.shapeCasts_S400000x1_S400000 : (⟨Cert.KernelIdeal.S400000, .f32⟩ : BufTy).Contents (Elt Ideal))) (Cert.KernelIdeal.Terms.srcOf x1) (Cert.KernelIdeal.Terms.dstOf x1)) (resArr (Cert.KernelIdeal.Terms.winnerPairOf x0 (Cert.KernelIdeal.Terms.srcOf x1) (Cert.KernelIdeal.Terms.dstOf x1) (Cert.KernelIdeal.Terms.idxOf (Cert.KernelIdeal.Terms.lastOf (Cert.KernelIdeal.Terms.orderOf (shapeCast _ (scoresArr (Cert.KernelIdeal.Terms.pairOf x0 (Cert.KernelIdeal.Terms.srcOf x1) (Cert.KernelIdeal.Terms.dstOf x1)) x2 x3 x4 x5 : (⟨Cert.KernelIdeal.S400000x1, .f32⟩ : BufTy).Contents (Elt Ideal)) Cert.KernelIdeal.Gen.shapeCasts_S400000x1_S400000 : (⟨Cert.KernelIdeal.S400000, .f32⟩ : BufTy).Contents (Elt Ideal))) (Cert.KernelIdeal.Terms.srcOf x1) (Cert.KernelIdeal.Terms.dstOf x1)))) (truncf (F := Ideal) (s := Cert.KernelIdeal.S256x256) (φ := .f32) .bf16 x6 Cert.KernelIdeal.Gen.bitsLt_bf16_f32) x7 (truncf (F := Ideal) (s := Cert.KernelIdeal.S256x128) (φ := .f32) .bf16 x8 Cert.KernelIdeal.Gen.bitsLt_bf16_f32) x9) := by
  rw [scores_k x0 x1 x2 x3 x4 x5, pair_same, resHost_eq, Same.srcOf_eq, Same.dstOf_eq, Same.orderOf_eq, Same.lastOf_eq, Same.idxOf_eq,
    Same.blendOf_eq]
  refine congrArg _ ?_
  rw [Cert.KernelIdeal.Winner.resolver_rows]
  rfl

/-- The same, from arguments that agree. -/
theorem scores_same (y0 : (⟨Cert.ReferenceIdeal.S50000x128, .f32⟩ : BufTy).Contents (Elt Ideal)) (y1 : (⟨Cert.ReferenceIdeal.S2x400000, .i32⟩ : BufTy).Contents (Elt Ideal))
    (y2 : (⟨Cert.ReferenceIdeal.S256x256, .f32⟩ : BufTy).Contents (Elt Ideal)) (y3 : (⟨Cert.ReferenceIdeal.S256, .f32⟩ : BufTy).Contents (Elt Ideal)) (y4 : (⟨Cert.ReferenceIdeal.S256x1, .f32⟩ : BufTy).Contents (Elt Ideal)) (y5 : (⟨Cert.ReferenceIdeal.S1, .f32⟩ : BufTy).Contents (Elt Ideal))
    (x0 : (⟨Cert.KernelIdeal.S50000x128, .f32⟩ : BufTy).Contents (Elt Ideal)) (x1 : (⟨Cert.KernelIdeal.S2x400000, .i32⟩ : BufTy).Contents (Elt Ideal))
    (x2 : (⟨Cert.KernelIdeal.S256x256, .f32⟩ : BufTy).Contents (Elt Ideal)) (x3 : (⟨Cert.KernelIdeal.S256, .f32⟩ : BufTy).Contents (Elt Ideal)) (x4 : (⟨Cert.KernelIdeal.S256x1, .f32⟩ : BufTy).Contents (Elt Ideal)) (x5 : (⟨Cert.KernelIdeal.S1, .f32⟩ : BufTy).Contents (Elt Ideal))
    (h0 : y0 = x0) (h1 : y1 = x1) (h2 : y2 = x2) (h3 : y3 = x3) (h4 : y4 = x4) (h5 : y5 = x5) :
    (shapeCast _ (Cert.ReferenceIdeal.Terms.scoresHost (Cert.ReferenceIdeal.Terms.pairOf y0 (Cert.ReferenceIdeal.Terms.srcOf y1) (Cert.ReferenceIdeal.Terms.dstOf y1)) y2 y3 y4 y5) Cert.ReferenceIdeal.Gen.shapeCasts_S400000x1_S400000 : (⟨Cert.ReferenceIdeal.S400000, .f32⟩ : BufTy).Contents (Elt Ideal)) = (shapeCast _ (scoresArr (Cert.KernelIdeal.Terms.pairOf x0 (Cert.KernelIdeal.Terms.srcOf x1) (Cert.KernelIdeal.Terms.dstOf x1)) x2 x3 x4 x5 : (⟨Cert.KernelIdeal.S400000x1, .f32⟩ : BufTy).Contents (Elt Ideal)) Cert.KernelIdeal.Gen.shapeCasts_S400000x1_S400000 : (⟨Cert.KernelIdeal.S400000, .f32⟩ : BufTy).Contents (Elt Ideal)) := by
  subst h0 h1 h2 h3 h4 h5
  exact scores_k _ _ _ _ _ _

theorem resolved_same (y0 : (⟨Cert.ReferenceIdeal.S50000x128, .f32⟩ : BufTy).Contents (Elt Ideal)) (y1 : (⟨Cert.ReferenceIdeal.S2x400000, .i32⟩ : BufTy).Contents (Elt Ideal))
    (y2 : (⟨Cert.ReferenceIdeal.S256x256, .f32⟩ : BufTy).Contents (Elt Ideal)) (y3 : (⟨Cert.ReferenceIdeal.S256, .f32⟩ : BufTy).Contents (Elt Ideal)) (y4 : (⟨Cert.ReferenceIdeal.S256x1, .f32⟩ : BufTy).Contents (Elt Ideal)) (y5 : (⟨Cert.ReferenceIdeal.S1, .f32⟩ : BufTy).Contents (Elt Ideal)) (y6 : (⟨Cert.ReferenceIdeal.S256x256, .f32⟩ : BufTy).Contents (Elt Ideal)) (y7 : (⟨Cert.ReferenceIdeal.S256, .f32⟩ : BufTy).Contents (Elt Ideal)) (y8 : (⟨Cert.ReferenceIdeal.S256x128, .f32⟩ : BufTy).Contents (Elt Ideal)) (y9 : (⟨Cert.ReferenceIdeal.S128, .f32⟩ : BufTy).Contents (Elt Ideal))
    (x0 : (⟨Cert.KernelIdeal.S50000x128, .f32⟩ : BufTy).Contents (Elt Ideal)) (x1 : (⟨Cert.KernelIdeal.S2x400000, .i32⟩ : BufTy).Contents (Elt Ideal))
    (x2 : (⟨Cert.KernelIdeal.S256x256, .f32⟩ : BufTy).Contents (Elt Ideal)) (x3 : (⟨Cert.KernelIdeal.S256, .f32⟩ : BufTy).Contents (Elt Ideal)) (x4 : (⟨Cert.KernelIdeal.S256x1, .f32⟩ : BufTy).Contents (Elt Ideal)) (x5 : (⟨Cert.KernelIdeal.S1, .f32⟩ : BufTy).Contents (Elt Ideal)) (x6 : (⟨Cert.KernelIdeal.S256x256, .f32⟩ : BufTy).Contents (Elt Ideal)) (x7 : (⟨Cert.KernelIdeal.S256, .f32⟩ : BufTy).Contents (Elt Ideal)) (x8 : (⟨Cert.KernelIdeal.S256x128, .f32⟩ : BufTy).Contents (Elt Ideal)) (x9 : (⟨Cert.KernelIdeal.S128, .f32⟩ : BufTy).Contents (Elt Ideal))
    (h0 : y0 = x0) (h1 : y1 = x1) (h2 : y2 = x2) (h3 : y3 = x3) (h4 : y4 = x4) (h5 : y5 = x5)
    (h6 : y6 = x6) (h7 : y7 = x7) (h8 : y8 = x8) (h9 : y9 = x9) :
    Cert.ReferenceIdeal.Terms.blendOf y0 (Cert.ReferenceIdeal.Terms.lastOf (Cert.ReferenceIdeal.Terms.orderOf (shapeCast _ (Cert.ReferenceIdeal.Terms.scoresHost (Cert.ReferenceIdeal.Terms.pairOf y0 (Cert.ReferenceIdeal.Terms.srcOf y1) (Cert.ReferenceIdeal.Terms.dstOf y1)) y2 y3 y4 y5) Cert.ReferenceIdeal.Gen.shapeCasts_S400000x1_S400000 : (⟨Cert.ReferenceIdeal.S400000, .f32⟩ : BufTy).Contents (Elt Ideal))) (Cert.ReferenceIdeal.Terms.srcOf y1) (Cert.ReferenceIdeal.Terms.dstOf y1)) (Cert.ReferenceIdeal.Terms.winnerResOf (Cert.ReferenceIdeal.Terms.resHost (Cert.ReferenceIdeal.Terms.pairOf y0 (Cert.ReferenceIdeal.Terms.srcOf y1) (Cert.ReferenceIdeal.Terms.dstOf y1)) y6 y7 y8 y9) (Cert.ReferenceIdeal.Terms.idxOf (Cert.ReferenceIdeal.Terms.lastOf (Cert.ReferenceIdeal.Terms.orderOf (shapeCast _ (Cert.ReferenceIdeal.Terms.scoresHost (Cert.ReferenceIdeal.Terms.pairOf y0 (Cert.ReferenceIdeal.Terms.srcOf y1) (Cert.ReferenceIdeal.Terms.dstOf y1)) y2 y3 y4 y5) Cert.ReferenceIdeal.Gen.shapeCasts_S400000x1_S400000 : (⟨Cert.ReferenceIdeal.S400000, .f32⟩ : BufTy).Contents (Elt Ideal))) (Cert.ReferenceIdeal.Terms.srcOf y1) (Cert.ReferenceIdeal.Terms.dstOf y1)))) = Cert.KernelIdeal.Terms.blendOf x0 (Cert.KernelIdeal.Terms.lastOf (Cert.KernelIdeal.Terms.orderOf (shapeCast _ (scoresArr (Cert.KernelIdeal.Terms.pairOf x0 (Cert.KernelIdeal.Terms.srcOf x1) (Cert.KernelIdeal.Terms.dstOf x1)) x2 x3 x4 x5 : (⟨Cert.KernelIdeal.S400000x1, .f32⟩ : BufTy).Contents (Elt Ideal)) Cert.KernelIdeal.Gen.shapeCasts_S400000x1_S400000 : (⟨Cert.KernelIdeal.S400000, .f32⟩ : BufTy).Contents (Elt Ideal))) (Cert.KernelIdeal.Terms.srcOf x1) (Cert.KernelIdeal.Terms.dstOf x1)) (resArr (Cert.KernelIdeal.Terms.winnerPairOf x0 (Cert.KernelIdeal.Terms.srcOf x1) (Cert.KernelIdeal.Terms.dstOf x1) (Cert.KernelIdeal.Terms.idxOf (Cert.KernelIdeal.Terms.lastOf (Cert.KernelIdeal.Terms.orderOf (shapeCast _ (scoresArr (Cert.KernelIdeal.Terms.pairOf x0 (Cert.KernelIdeal.Terms.srcOf x1) (Cert.KernelIdeal.Terms.dstOf x1)) x2 x3 x4 x5 : (⟨Cert.KernelIdeal.S400000x1, .f32⟩ : BufTy).Contents (Elt Ideal)) Cert.KernelIdeal.Gen.shapeCasts_S400000x1_S400000 : (⟨Cert.KernelIdeal.S400000, .f32⟩ : BufTy).Contents (Elt Ideal))) (Cert.KernelIdeal.Terms.srcOf x1) (Cert.KernelIdeal.Terms.dstOf x1)))) (truncf (F := Ideal) (s := Cert.KernelIdeal.S256x256) (φ := .f32) .bf16 x6 Cert.KernelIdeal.Gen.bitsLt_bf16_f32) x7 (truncf (F := Ideal) (s := Cert.KernelIdeal.S256x128) (φ := .f32) .bf16 x8 Cert.KernelIdeal.Gen.bitsLt_bf16_f32) x9) := by
  subst h0 h1 h2 h3 h4 h5 h6 h7 h8 h9
  exact resolved_k _ _ _ _ _ _ _ _ _ _

end Cert.Bridge.Final

end
-- ==== Proof.lean ====
/-
  The certificate of the contradiction-detector kernel against its reference, over the extended reals.

  The kernel program gathers, per edge, the embedding rows of the edge's two endpoints; its first pallas_call scores
  every such pair with the detector (a two-layer perceptron ending in the logistic function); on the host it marks the
  edges whose score exceeds one half and keeps, per node, the last marked edge touching the node; it gathers the
  endpoints' rows of that winning edge and its second pallas_call runs the resolver (a second two-layer perceptron) over
  those rows only; the result blends each touched node's embedding with its resolver vector.  The reference runs both
  perceptrons over every edge on the host and picks the winning edge's resolver row afterwards.

  * The three frames: the kernel programs' are generated; the reference's is its run with the results dropped.
  * `preserves`: the idealization rewrote nothing.
  * `algebraic`: the kernel's run leaves its two results at the boundary contents of the last segment (`RunV`), which
    read back to functions of the arguments (`Fold`); the reference's run leaves its results at the fold of its operations,
    which reads back likewise; and the two pairs of functions are equal (`Bridge.Final`): the scores because both
    perceptrons are the same sums row by row, the resolved embeddings because reading a winning edge's resolver row is
    running the resolver on that edge's pair of embedding rows.
-/
import proofs.«111999_j47502338294426_2_alg».proof.Defs
import proofs.«111999_j47502338294426_2_alg».proof.Proof.Gen.Kernel
import proofs.«111999_j47502338294426_2_alg».proof.Proof.Gen.Kernel.Skeleton
import proofs.«111999_j47502338294426_2_alg».proof.Proof.Gen.Kernel.Launch
import proofs.«111999_j47502338294426_2_alg».proof.Proof.Gen.Kernel.Points
import proofs.«111999_j47502338294426_2_alg».proof.Proof.Gen.Kernel.Frame
import proofs.«111999_j47502338294426_2_alg».proof.Proof.Gen.KernelIdeal
import proofs.«111999_j47502338294426_2_alg».proof.Proof.Gen.KernelIdeal.Skeleton
import proofs.«111999_j47502338294426_2_alg».proof.Proof.Gen.KernelIdeal.Launch
import proofs.«111999_j47502338294426_2_alg».proof.Proof.Gen.KernelIdeal.Points
import proofs.«111999_j47502338294426_2_alg».proof.Proof.Gen.KernelIdeal.Frame
import proofs.«111999_j47502338294426_2_alg».proof.Proof.Gen.ReferenceIdeal
import proofs.«111999_j47502338294426_2_alg».proof.Proof.Gen.Pre_finite_inputs
import proofs.«111999_j47502338294426_2_alg».proof.Proof.KRun
import proofs.«111999_j47502338294426_2_alg».proof.Proof.KFold
import proofs.«111999_j47502338294426_2_alg».proof.Proof.RefRun
import proofs.«111999_j47502338294426_2_alg».proof.Proof.RefFold
import proofs.«111999_j47502338294426_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Fold.resolvedArg m c, fun c => Cert.KernelIdeal.Fold.scoresArg m c, ?_, ?_⟩
  · exact (θ_run Cert.KernelIdeal.defs _ _).mono
      (fun r h c => ⟨(h c).1.trans (Cert.KernelIdeal.Fold.resolved_eq m ρ c),
        (h c).2.1.trans (Cert.KernelIdeal.Fold.scores_eq m ρ c), (h c).2.2⟩)
      (Cert.KernelIdeal.RunV.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Fold.resolved_eq m' c]
      obtain ⟨h0, h1, h2, h3, h4, h5, h6, h7, h8, h9⟩ := hagree c
      exact Cert.Bridge.Final.resolved_same _ _ _ _ _ _ _ _ _ _ _ _ _ _ _ _ _ _ _ _ h0 h1 h2 h3 h4 h5 h6 h7 h8 h9
    · rw [Cert.ReferenceIdeal.Fold.scores_eq m' c]
      obtain ⟨h0, h1, h2, h3, h4, h5, -, -, -, -⟩ := hagree c
      exact Cert.Bridge.Final.scores_same _ _ _ _ _ _ _ _ _ _ _ _ h0 h1 h2 h3 h4 h5

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
